-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3 : Shape := ⟨3, ![4, 2048, 3]⟩
abbrev S4x8192x3 : Shape := ⟨3, ![4, 8192, 3]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn {F : FTy → Type} [FloatOps F] (main_arg0 : FVec F S4x2048x3 .f32) (main_arg1 : FVec F S4x8192x3 .f32) (main_arg2 : FVec F S4x8192x3 .f32) : IVec S_ 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_c : IVec S_ 1 := constantI S_ 1 1#1
  let main_v3 : IVec S_ 1 := (fun x v => Host.reduce IntOp.andi x v reducesTo_S4x2048x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x3 .f32 := Host.absf main_arg2
  let main_cst_2 : FVec F S_ .f32 := constant S_ .f32 0x7F800000#32
  let main_v10 : FVec F S4x8192x3 .f32 := broadcastInDim S4x8192x3 ![] bcast_S_S4x8192x3 main_cst_2
  let main_v11 : IVec S4x8192x3 1 := cmpf .olt main_v9 main_v10
  let main_c_3 : IVec S_ 1 := constantI S_ 1 1#1
  let main_v12 : IVec S_ 1 := (fun x v => Host.reduce IntOp.andi x v reducesTo_S4x8192x3_S_d0_1_2 h_S_) main_v11 main_c_3
  let main_v13 : IVec S_ 1 := andi main_v8 main_v12
  main_v13
-- ==== Kernel.lean ====
abbrev S4x2048x3 : Shape := ⟨3, ![4, 2048, 3]⟩
abbrev S4x8192x3 : Shape := ⟨3, ![4, 8192, 3]⟩
abbrev S4x8192 : Shape := ⟨2, ![4, 8192]⟩
abbrev S4x256x3 : Shape := ⟨3, ![4, 256, 3]⟩
abbrev S4x256 : Shape := ⟨2, ![4, 256]⟩
abbrev S4x2048 : Shape := ⟨2, ![4, 2048]⟩
abbrev S4x2048x1 : Shape := ⟨3, ![4, 2048, 1]⟩
abbrev S4x256x1 : Shape := ⟨3, ![4, 256, 1]⟩
abbrev S4x1x256 : Shape := ⟨3, ![4, 1, 256]⟩
abbrev S4x2048x256 : Shape := ⟨3, ![4, 2048, 256]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩

abbrev nBuf : Space → Nat
  | .hbm => 20
  | .vmem => 13
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S4x8192x3, .f32⟩
  | .hbm, ⟨3, _⟩ => ⟨S4x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S4x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S4x2048x3, .f32⟩
  | .local _ .vmem, ⟨1, _⟩ => ⟨S4x256x3, .f32⟩
  | .local _ .vmem, ⟨2, _⟩ => ⟨S4x256x3, .f32⟩
  | .local _ .vmem, ⟨3, _⟩ => ⟨S4x256, .f32⟩
  | .local _ .vmem, ⟨4, _⟩ => ⟨S4x256, .f32⟩
  | .local _ .vmem, ⟨5, _⟩ => ⟨S4x512x3, .f32⟩
  | .local _ .vmem, ⟨6, _⟩ => ⟨S4x512x3, .f32⟩
  | .local _ .vmem, ⟨7, _⟩ => ⟨S4x512x3, .f32⟩
  | .local _ .vmem, ⟨8, _⟩ => ⟨S4x512x3, .f32⟩
  | .local _ .vmem, ⟨9, _⟩ => ⟨S4x512, .f32⟩
  | .local _ .vmem, ⟨10, _⟩ => ⟨S4x512, .f32⟩
  | .local _ .vmem, ⟨11, _⟩ => ⟨S4x8192, .f32⟩
  | .local _ .vmem, ⟨12, _⟩ => ⟨S4x512, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c512_i32 : BitVec 32 := 512#32
  let v54 : BitVec 32 := Scalar.muli arg1 c512_i32
  v54
def k1_cond4 (i : grid1.Coords) : BitVec 1 :=
  let arg0 : BitVec 32 := BitVec.ofNat 32 (i 0).val
  let c0_i32_13 : BitVec 32 := 0#32
  let v56 : BitVec 1 := Scalar.cmpi .eq arg0 c0_i32_13
  let v57 : BitVec 32 := Scalar.extui v56
  let c0_i32_14 : BitVec 32 := 0#32
  let v58 : BitVec 1 := Scalar.cmpi .ne v57 c0_i32_14
  v58

def k1_off1 (i : grid1.Coords) : Fin 2 → Nat :=
  let c0_17 : Index := 0#32
  let arg1 : BitVec 32 := BitVec.ofNat 32 (i 1).val
  let c512_i32 : BitVec 32 := 512#32
  let v54 : BitVec 32 := Scalar.muli arg1 c512_i32
  let v55 : BitVec 32 := v54
  let v62 : Index := Scalar.indexCast v55
  ![0, v62.toNat]
def k1_cond5 (i : grid1.Coords) : BitVec 1 :=
  let arg0 : BitVec 32 := BitVec.ofNat 32 (i 0).val
  let c0_i32_15 : BitVec 32 := 0#32
  let v59 : BitVec 1 := Scalar.cmpi .ne arg0 c0_i32_15
  let v60 : BitVec 32 := Scalar.extui v59
  let c0_i32_16 : BitVec 32 := 0#32
  let v61 : BitVec 1 := Scalar.cmpi .ne v60 c0_i32_16
  v61

def k1_off2 (i : grid1.Coords) : Fin 2 → Nat :=
  let c0_17 : Index := 0#32
  let arg1 : BitVec 32 := BitVec.ofNat 32 (i 1).val
  let c512_i32 : BitVec 32 := 512#32
  let v54 : BitVec 32 := Scalar.muli arg1 c512_i32
  let v55 : BitVec 32 := v54
  let v62 : Index := Scalar.indexCast v55
  ![0, v62.toNat]
def k1_cond3 (i : grid1.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_12 : BitVec 32 := 0#32
  let v53 : BitVec 1 := Scalar.cmpi .ne v52 c0_i32_12
  v53

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S4x2048x3_S4x2048x3_0_0_0 : ∀ a, (![0, 0, 0] : Fin 3 → Nat) a + S4x2048x3.size a ≤ S4x2048x3.size a
  h_S4x2048x3 : 0 < S4x2048x3.numel
  inb_S4x256x3_S4x256x3_0_0_0 : ∀ a, (![0, 0, 0] : Fin 3 → Nat) a + S4x256x3.size a ≤ S4x256x3.size a
  h_S4x256x3 : 0 < S4x256x3.numel
  reduces_S4x2048x3_S4x2048 : S4x2048x3.Reduces [2] S4x2048
  reduces_S4x256x3_S4x256 : S4x256x3.Reduces [2] S4x256
  slices_S4x2048x3_o0_0_0_S4x2048x1 : S4x2048x3.Slices ![0, 0, 0] S4x2048x1
  shapeCasts_S4x2048x1_S4x2048 : S4x2048x1.ShapeCasts S4x2048
  shapeCasts_S4x2048_S4x2048x1 : S4x2048.ShapeCasts S4x2048x1
  slices_S4x256x3_o0_0_0_S4x256x1 : S4x256x3.Slices ![0, 0, 0] S4x256x1
  shapeCasts_S4x256x1_S4x256 : S4x256x1.ShapeCasts S4x256
  shapeCasts_S4x256_S4x1x256 : S4x256.ShapeCasts S4x1x256
  broadcasts_S4x2048x1_S4x2048x256 : S4x2048x1.Broadcasts S4x2048x256
  broadcasts_S4x1x256_S4x2048x256 : S4x1x256.Broadcasts S4x2048x256
  slices_S4x2048x3_o0_0_1_S4x2048x1 : S4x2048x3.Slices ![0, 0, 1] S4x2048x1
  slices_S4x256x3_o0_0_1_S4x256x1 : S4x256x3.Slices ![0, 0, 1] S4x256x1
  slices_S4x2048x3_o0_0_2_S4x2048x1 : S4x2048x3.Slices ![0, 0, 2] S4x2048x1
  slices_S4x256x3_o0_0_2_S4x256x1 : S4x256x3.Slices ![0, 0, 2] S4x256x1
  reduces_S4x2048x256_S4x256 : S4x2048x256.Reduces [1] S4x256
  inb_S4x256_S4x256_0_0 : ∀ a, (![0, 0] : Fin 2 → Nat) a + S4x256.size a ≤ S4x256.size a
  h_S4x256 : 0 < S4x256.numel
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  slices_S4x512x3_o0_0_0_S4x512x1 : S4x512x3.Slices ![0, 0, 0] S4x512x1
  shapeCasts_S4x512x1_S4x512 : S4x512x1.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x512x3_o0_0_1_S4x512x1 : S4x512x3.Slices ![0, 0, 1] S4x512x1
  slices_S4x512x3_o0_0_2_S4x512x1 : S4x512x3.Slices ![0, 0, 2] S4x512x1
  reduces_S4x512x512_S4x512 : S4x512x512.Reduces [2] S4x512
  reduces_S4x512x512_S4x512_2 : S4x512x512.Reduces [1] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reducesTo_S4x8192_S_d0_1 : S4x8192.ReducesTo [0, 1] S_
  h_S_ : 0 < S_.numel
  bcast_S_S4x8192 : S_.BroadcastsInDim S4x8192 (![] : Fin 0 → Fin S4x8192.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x2048x3.size a ≤ S4x2048x3.size a
  hwx0_0 : ∀ i : grid0.Coords, EltTy.bits .f32 = 32 ∨ (Rect.block (s := S4x2048x3) S4x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x3.size a ≤ S4x8192x3.size a
  hwx0_1 : ∀ i : grid0.Coords, EltTy.bits .f32 = 32 ∨ (Rect.block (s := S4x8192x3) S4x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x8192.size a
  hwx0_2 : ∀ i : grid0.Coords, EltTy.bits .f32 = 32 ∨ (Rect.block (s := S4x8192) S4x256.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ (k1_h4 : k1_cond4 i = 1#1), ∀ a, (k1_off1 i) a + S4x512.size a ≤ S4x8192.size a
  k1_off2_inb : ∀ i : grid1.Coords, ∀ (k1_h5 : k1_cond5 i = 1#1), ∀ a, (k1_off2 i) a + S4x512.size a ≤ S4x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x8192.size a ≤ S4x8192.size a
  hwx1_3 : ∀ i : grid1.Coords, EltTy.bits .f32 = 32 ∨ (Rect.block (s := S4x8192) S4x8192.size (cc1_transform_3 i) (hinb1_3 i)).WholeWords (EltTy.packing .f32)

variable [Facts₀]

abbrev win0_0 : Pipeline.Window sig grid0 :=
  Pipeline.Window.ofSpec (Memref.whole main_arg0) S4x2048x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S4x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S4x8192.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond3 i == 1#1) | 3 => fun i => !(k1_cond4 i == 1#1) && !(k1_cond5 i == 1#1) | ⟨_ + 4, h⟩ => absurd h (Nat.not_lt.2 (Nat.le_add_left _ _))

class Facts : Prop extends Facts₀ where

variable [Facts]
-- ==== ReferenceIdeal.lean ====
abbrev S4x2048x3 : Shape := ⟨3, ![4, 2048, 3]⟩
abbrev S4x8192x3 : Shape := ⟨3, ![4, 8192, 3]⟩
abbrev S_ : Shape := ⟨0, ![]⟩
abbrev S4x2048 : Shape := ⟨2, ![4, 2048]⟩
abbrev S4x8192 : Shape := ⟨2, ![4, 8192]⟩
abbrev S4x2048x8192 : Shape := ⟨3, ![4, 2048, 8192]⟩
abbrev S4x2048x1 : Shape := ⟨3, ![4, 2048, 1]⟩
abbrev S4x1x8192 : Shape := ⟨3, ![4, 1, 8192]⟩
abbrev S4x8192x8192 : Shape := ⟨3, ![4, 8192, 8192]⟩
abbrev S4x8192x1 : Shape := ⟨3, ![4, 8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S4x8192x3, .f32⟩
  | .hbm, ⟨3, _⟩ => ⟨S4x2048x3, .f32⟩
  | .hbm, ⟨4, _⟩ => ⟨S_, .f32⟩
  | .hbm, ⟨5, _⟩ => ⟨S4x2048, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x2048x8192, .f32⟩
  | .hbm, ⟨10, _⟩ => ⟨S4x2048x1, .f32⟩
  | .hbm, ⟨11, _⟩ => ⟨S4x1x8192, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S_, .f32⟩
  | .hbm, ⟨16, _⟩ => ⟨S4x2048x8192, .f32⟩
  | .hbm, ⟨17, _⟩ => ⟨S4x2048x8192, .f32⟩
  | .hbm, ⟨18, _⟩ => ⟨S4x2048x8192, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x8192, .f32⟩
  | .hbm, ⟨23, _⟩ => ⟨S4x8192x3, .f32⟩
  | .hbm, ⟨24, _⟩ => ⟨S_, .f32⟩
  | .hbm, ⟨25, _⟩ => ⟨S4x8192, .f32⟩
  | .hbm, ⟨26, _⟩ => ⟨S4x8192x3, .f32⟩
  | .hbm, ⟨27, _⟩ => ⟨S_, .f32⟩
  | .hbm, ⟨28, _⟩ => ⟨S4x8192, .f32⟩
  | .hbm, ⟨29, _⟩ => ⟨S4x8192x8192, .f32⟩
  | .hbm, ⟨30, _⟩ => ⟨S4x8192x1, .f32⟩
  | .hbm, ⟨31, _⟩ => ⟨S4x1x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S4x8192x8192, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S_, .f32⟩
  | .hbm, ⟨45, _⟩ => ⟨S4x8192, .f32⟩
  | .hbm, ⟨46, _⟩ => ⟨S4x8192, .f32⟩
  | .hbm, ⟨47, _⟩ => ⟨S4x8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  reducesTo_S4x2048x3_S4x2048_d2 : S4x2048x3.ReducesTo [2] S4x2048
  h_S_ : 0 < S_.numel
  reducesTo_S4x8192x3_S4x8192_d2 : S4x8192x3.ReducesTo [2] S4x8192
  bcast_S4x2048_S4x2048x1_0_1 : S4x2048.BroadcastsInDim S4x2048x1 (![0, 1] : Fin 2 → Fin S4x2048x1.rank)
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  reducesTo_S4x2048x8192_S4x2048_d2 : S4x2048x8192.ReducesTo [2] S4x2048
  reducesTo_S4x2048x8192_S4x8192_d1 : S4x2048x8192.ReducesTo [1] S4x8192
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  bcast_S_S4x8192 : S_.BroadcastsInDim S4x8192 (![] : Fin 0 → Fin S4x8192.rank)
  dot_S4x2048x3_S4x8192x3_S4x2048x8192_2_2_1_1_0_0_wf : DotDims.WF S4x2048x3 S4x8192x3 S4x2048x8192 [2] [2] [1] [1] [0] [0]
  dot_S4x8192x3_S4x8192x3_S4x8192x8192_2_2_1_1_0_0_wf : DotDims.WF S4x8192x3 S4x8192x3 S4x8192x8192 [2] [2] [1] [1] [0] [0]

variable [Facts₀]

def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf
def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Body0.lean ====
/- Region 0 of the program (the distance kernel's pipeline), class A, generic in the float instance:
   the windows' blocks at a point, what the body leaves in the output window's buffer, the body's triple, the
   pipeline's proof data at a parameter `V` (the TensorCore's buffer contents when the region is entered), and the
   body obligation at every point. -/
import proofs.«161975_j33079838114187_2_alg».proof.Proof.Gen.Kernel.Launch
import proofs.«161975_j33079838114187_2_alg».proof.Proof.Gen.Kernel.Skeleton
import proofs.«161975_j33079838114187_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents unfolds once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, which is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S4x2048x3 := Rect.unit (s := S4x2048x3) ![0, 0, 0] S4x2048x3.size inb_S4x2048x3_S4x2048x3_0_0_0
abbrev r0_1 : Rect S4x256x3 := Rect.unit (s := S4x256x3) ![0, 0, 0] S4x256x3.size inb_S4x256x3_S4x256x3_0_0_0
abbrev r0_2 : Rect S4x256 := Rect.unit (s := S4x256) ![0, 0] S4x256.size inb_S4x256_S4x256_0_0

/-! ## What the body leaves in the output window's buffer -/

/-- Window 2's staging buffer after the body, from the input windows' blocks: its one store as a piece. -/
def out0_2 (x0 : Vec F S4x2048x3 .f32) (x1 : Vec F S4x256x3 .f32) : Vec F S4x256 .f32 :=
  View.canon [⟨r0_2, k0_pay1 (View.ld x0 r0_0) (View.ld x1 r0_1)⟩]

/-- The one store fills the buffer. -/
theorem cover0_2 (p0 : Vec F S4x256 .f32) (y : S4x256.Idx) :
    ∃ pc ∈ ([⟨r0_2, p0⟩] : List (View.Piece (Elt F) S4x256 .f32)), y ∈ pc.1.set :=
  View.cover_of_tiled [⟨r0_2, p0⟩] S4x256.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords)
    (arg1 : Memref sig .tc .vmem S4x2048x3 .f32) (harg1 : arg1.IsWhole)
    (arg2 : Memref sig .tc .vmem S4x256x3 .f32) (harg2 : arg2.IsWhole)
    (arg3 : Memref sig .tc .vmem S4x256 .f32) (harg3 : arg3.IsWhole)
    (x0 : Vec F S4x2048x3 .f32) (x1 : Vec F S4x256x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dist_cp_kernel i arg1 harg1 arg2 harg2 arg3 harg3) K := by
  simp only [cc0__dist_cp_kernel_eq_skeleton]; unfold cc0__dist_cp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! ## The output buffer after the body is the payload of the blocks -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- One store that fills the buffer leaves its payload, and a load through the whole rectangle reads the contents:
    the output buffer after the body is the payload of the two input blocks. -/
theorem out0_2_eq (x0 : Vec F S4x2048x3 .f32) (x1 : Vec F S4x256x3 .f32) : out0_2 x0 x1 = k0_pay1 x0 x1 := by
  unfold out0_2
  rw [View.canon_unit_zero hz2]
  rw [View.ld_unit_zero (S := S4x2048x3) hz3, View.ld_unit_zero (S := S4x256x3) hz3]

end Cert.Kernel.Hand

end
-- ==== Proof.K.Final0.lean ====
/- Region 0's output array after the run, as one function of the arrays the region finds, tile by tile. Each
   point writes one [4,256] tile of the [4,8192] result; tile `t` is the body's payload (kept as one named function,
   never opened here) of the whole first argument and of the `t`-th [4,256,3] block of the second. The tiles cover the
   array, so the array ends holding that function; the two input arrays are never written back. -/
import proofs.«161975_j33079838114187_2_alg».proof.Proof.K.Body0
import Idealize.ShloMosaic.Lib.Pipeline.Value
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)
open Idealize.ShloMosaic.ValueIdx

variable {F : FTy → Type} [FloatOps F]

/-! ## The grid and the printed index maps -/

/-- A point of the grid is below 32. -/
theorem point0_lt (t : Fin cfg0.N) : t.val < 32 := lt_of_lt_of_eq t.isLt N_0

/-- Tile `t` of 32 as a point of the grid. -/
theorem tile0_lt (t : Fin 32) : t.val < cfg0.N := lt_of_lt_of_eq t.isLt N_0.symm

/-- The printed index maps, decided over the grid: the first argument's window stays at block (0, 0, 0); the second
    argument's moves along axis 1 with the point; the result's moves along axis 1 with the point. -/
theorem index_facts0 : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-! ## The result array as one function -/

/-- Tile `T` of the result: what the body leaves in the output buffer at point `T`, from the two input blocks there. -/
def tile0 (V : (c : Dev nD) → (b : Ref sig .tc) → Buf (Elt F) ((c : Thread nD τ).loc b)) (c : Dev nD) (T : Fin cfg0.N) : Vec F S4x256 .f32 :=
  out0_2 (iblk0 V c 0 T) (iblk0 V c 1 T)

/-- The point whose tile holds column `r` of the result: `r / 256`. -/
theorem col_tile_lt (j : S4x8192.Idx) : (j 1).val / 256 < cfg0.N := by
  have h : (j 1).val < 8192 := (j 1).isLt
  exact lt_of_lt_of_eq (by omega : (j 1).val / 256 < 32) N_0.symm

/-- The result array, index by index: at row `j 0` and column `j 1`, tile `j 1 / 256` at position `j 1 % 256`. -/
def G0 (V : (c : Dev nD) → (b : Ref sig .tc) → Buf (Elt F) ((c : Thread nD τ).loc b)) (c : Dev nD) : Vec F S4x8192 .f32 := fun j =>
  tile0 V c ⟨(j 1).val / 256, col_tile_lt j⟩ (ix2 (j 0 : Fin 4) (⟨(j 1).val % 256, Nat.mod_lt _ (by decide)⟩ : Fin 256))

variable (V : (c : Dev nD) → (b : Ref sig .tc) → Buf (Elt F) ((c : Thread nD τ).loc b))

/-- Read at row `b`, column `256 T + q`: tile `T` at `(b, q)`. -/
theorem G0_tile (c : Dev nD) (T : Fin cfg0.N) (b : Fin 4) (q : Fin 256) :
    G0 V c (ix2 b (⟨256 * T.val + q.val, by have := point0_lt T; have := q.isLt; omega⟩ : Fin 8192)) = tile0 V c T (ix2 b q) := by
  have hT := point0_lt T
  have hq := q.isLt
  have h1 : (⟨(256 * T.val + q.val) / 256, col_tile_lt (ix2 b (⟨256 * T.val + q.val, by omega⟩ : Fin 8192))⟩ : Fin cfg0.N) = T :=
    Fin.ext (by show (256 * T.val + q.val) / 256 = T.val; omega)
  have h2 : (⟨(256 * T.val + q.val) % 256, Nat.mod_lt _ (by decide)⟩ : Fin 256) = q :=
    Fin.ext (by show (256 * T.val + q.val) % 256 = q.val; omega)
  show tile0 V c ⟨(256 * T.val + q.val) / 256, _⟩ (ix2 b (⟨(256 * T.val + q.val) % 256, _⟩ : Fin 256)) = _
  rw [h1, h2]

/-- The same over tiles numbered below 32, with the payload in place of the buffer it fills. -/
theorem G0_apply (c : Dev nD) (b : Fin 4) (t : Fin 32) (q : Fin 256) :
    G0 V c (ix2 b (⟨256 * t.val + q.val, by have := t.isLt; have := q.isLt; omega⟩ : Fin 8192))
      = k0_pay1 (iblk0 V c 0 ⟨t.val, tile0_lt t⟩) (iblk0 V c 1 ⟨t.val, tile0_lt t⟩) (ix2 b q) := by
  have h := G0_tile V c ⟨t.val, tile0_lt t⟩ b q
  rw [show tile0 V c ⟨t.val, tile0_lt t⟩ = k0_pay1 (iblk0 V c 0 ⟨t.val, tile0_lt t⟩) (iblk0 V c 1 ⟨t.val, tile0_lt t⟩) from out0_2_eq _ _] at h
  exact h

/-! ## The input blocks, read at an index -/

/-- The first argument's window holds the whole array at every point. -/
theorem iblk0_0_apply (c : Dev nD) (t : Fin cfg0.N) (b : Fin 4) (n : Fin 2048) (k : Fin 3) :
    (iblk0 V c 0 t : Vec F S4x2048x3 .f32) (ix3 b n k) = (V c main_arg0 : S4x2048x3.Idx → Elt F .f32) (ix3 b n k) := by
  obtain ⟨e0, e1, e2, -⟩ := index_facts0 t
  unfold iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 2048 + 1 * n.val = n.val; rw [e1]; omega
  | ⟨2, _⟩ => show win0_0.index t (2 : Fin 3) * 3 + 1 * k.val = k.val; rw [e2]; omega

/-- The second argument's window at point `t` holds rows `256 t … 256 t + 255` (axis 1) of the array. -/
theorem iblk0_1_apply (c : Dev nD) (t : Fin cfg0.N) (b : Fin 4) (q : Fin 256) (k : Fin 3) :
    (iblk0 V c 1 t : Vec F S4x256x3 .f32) (ix3 b q k)
      = (V c main_arg2 : S4x8192x3.Idx → Elt F .f32) (ix3 b (⟨256 * t.val + q.val, by have := point0_lt t; have := q.isLt; omega⟩ : Fin 8192) k) := by
  obtain ⟨-, -, -, e0, e1, e2, -⟩ := index_facts0 t
  unfold iblk0
  rw [View.read_apply]
  show V c main_arg2 _ = V c main_arg2 _
  congr 1
  funext a
  apply Fin.ext
  match a with
  | ⟨0, _⟩ => show win0_1.index t (0 : Fin 3) * 4 + 1 * b.val = b.val; rw [e0]; omega
  | ⟨1, _⟩ => show win0_1.index t (1 : Fin 3) * 256 + 1 * q.val = 256 * t.val + q.val; rw [e1]; omega
  | ⟨2, _⟩ => show win0_1.index t (2 : Fin 3) * 3 + 1 * k.val = k.val; rw [e2]; omega

/-! ## What each point writes back, the cover, and the array after the run -/

/-- An element of the result's block at point `t` sits at row `y 0`, column `256 t + y 1` of the array. -/
theorem blk0_2_emb (t : Fin cfg0.N) (y : S4x256.Idx) :
    (((cfg0.win 2).blk t).view.emb y : S4x8192.Idx)
      = ix2 (y 0 : Fin 4) (⟨256 * t.val + (y 1).val, by have := point0_lt t; have : (y 1).val < 256 := (y 1).isLt; omega⟩ : Fin 8192) := by
  obtain ⟨-, -, -, -, -, -, e0, e1⟩ := index_facts0 t
  funext a
  apply Fin.ext
  match a with
  | ⟨0, _⟩ => show win0_2.index t (0 : Fin 2) * 4 + 1 * (y 0).val = (y 0).val; rw [e0]; omega
  | ⟨1, _⟩ => show win0_2.index t (1 : Fin 2) * 256 + 1 * (y 1).val = 256 * t.val + (y 1).val; rw [e1]; omega

/-- What point `t` writes back is block `t` of `G0`. -/
theorem flushed0_2_eq (c : Dev nD) (t : Fin cfg0.N) :
    (dat0 V c).flushed 2 t = ((cfg0.win 2).blk t).view.read (Elt F) (G0 V c) := by
  show (cfg0.win 2).cut (grid0.coords t) ((dat0 V c).after 2 t) = _
  rw [after0_2]
  refine funext fun (y : S4x256.Idx) => ?_
  rw [View.read_apply]
  show tile0 V c t y = G0 V c (((cfg0.win 2).blk t).view.emb y)
  rw [blk0_2_emb]
  exact ((G0_tile V c t (y 0) (y 1)).trans (congrArg (tile0 V c t) (eq_ix2 y).symm)).symm

/-- An index of the array is in point `t`'s block iff each coordinate is in the block's range on its axis. -/
theorem mem_blk0_2 (t : Fin cfg0.N) (i : S4x8192.Idx) :
    i ∈ ((cfg0.win 2).blk t).view.set ↔ ∀ a : Fin 2, win0_2.index t a * S4x256.size a ≤ (i a).val ∧ (i a).val < win0_2.index t a * S4x256.size a + S4x256.size a := by
  show i ∈ ((View.whole main_v0).slice (win0_2.rect t)).set ↔ _
  rw [View.set_slice_whole, Rect.mem_set_unit]
  exact Iff.rfl

/-- Every index of the array is in some point's block: column `r` is in tile `r / 256`. -/
theorem cover0_2_arr (i : S4x8192.Idx) : ∃ t : Fin cfg0.N, (cfg0.win 2).flush t = true ∧ i ∈ ((cfg0.win 2).blk t).view.set := by
  have h0 : (i 0).val < 4 := (i 0).isLt
  have h1 : (i 1).val < 8192 := (i 1).isLt
  refine ⟨⟨(i 1).val / 256, col_tile_lt i⟩, flush0_2 _, ?_⟩
  obtain ⟨-, -, -, -, -, -, e0, e1⟩ := index_facts0 ⟨(i 1).val / 256, col_tile_lt i⟩
  rw [mem_blk0_2]
  intro a
  match a with
  | ⟨0, _⟩ =>
    show win0_2.index ⟨(i 1).val / 256, col_tile_lt i⟩ (0 : Fin 2) * 4 ≤ (i 0).val ∧ (i 0).val < win0_2.index ⟨(i 1).val / 256, col_tile_lt i⟩ (0 : Fin 2) * 4 + 4
    rw [e0]; omega
  | ⟨1, _⟩ =>
    show win0_2.index ⟨(i 1).val / 256, col_tile_lt i⟩ (1 : Fin 2) * 256 ≤ (i 1).val ∧ (i 1).val < win0_2.index ⟨(i 1).val / 256, col_tile_lt i⟩ (1 : Fin 2) * 256 + 256
    rw [e1]; show (i 1).val / 256 * 256 ≤ (i 1).val ∧ (i 1).val < (i 1).val / 256 * 256 + 256; omega

/-- The result array after the run is `G0`. -/
theorem final0 (c : Dev nD) : (dat0 V c).arrAt 2 cfg0.N = G0 V c :=
  (dat0 V c).arrAt_eq_of_cover 2 (G0 V c) (fun t _ => flushed0_2_eq V c t) cover0_2_arr

/-- The two input arrays are never written back: after the run they are as the region found them. -/
theorem arrAt0_in (c : Dev nD) (w : Fin cfg0.W) (hw : w = 0 ∨ w = 1) : (dat0 V c).arrAt w cfg0.N = V c (Pipeline.arrRef spec0 w) := by
  rcases hw with rfl | rfl
  · exact ((dat0 V c).arrAt_in 0 rfl _).trans (A_eq0 V c 0)
  · exact ((dat0 V c).arrAt_in 1 rfl _).trans (A_eq0 V c 1)

end Cert.Kernel.Hand

end
-- ==== Proof.K.Runs1.lean ====
/-
  Region 1 (the two-sided minimum-distance kernel over a 16 × 16 grid of 512-point tiles): what its case runs share.
  A grid point is t = 16·ni + mi: tile ni of the first cloud against tile mi of the second. The body branches five
  times on the coordinates: the row-minimum accumulator is seeded when mi = 0 and refined when mi ≠ 0, copied out when
  mi = 15; the resident column-minimum buffer has its mi-th 512-slice seeded when ni = 0 and refined when ni ≠ 0. Each
  condition is decided over the 256 points in closed form.
-/
import proofs.«161975_j33079838114187_2_alg».proof.Proof.Gen.Kernel.Launch
import proofs.«161975_j33079838114187_2_alg».proof.Proof.Gen.Kernel.Skeleton
import proofs.«161975_j33079838114187_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branch conditions, from the grid coordinates -/

/-- The accumulator is seeded: mi = 0. -/
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)

/-- The accumulator is refined: mi ≠ 0. -/
abbrev cond1_2 (i : grid1.Coords) : Prop := (Scalar.cmpi .ne (Scalar.extui (Scalar.cmpi .ne (BitVec.ofNat 32 (i 1).val) 0#32)) 0#32) = 1#1
theorem hcond1_2 : ∀ t : Fin cfg1.N, cond1_2 (grid1.coords t) ↔ t.val % 16 ≠ 0 :=
  (by decide +kernel : ∀ t : Fin grid1.N, cond1_2 (grid1.coords t) ↔ t.val % 16 ≠ 0)

/-- The accumulator is copied out: mi = 15. -/
abbrev cond1_3 (i : grid1.Coords) : Prop := k1_cond3 i = 1#1
theorem hcond1_3 : ∀ t : Fin cfg1.N, cond1_3 (grid1.coords t) ↔ t.val % 16 = 15 :=
  (by decide +kernel : ∀ t : Fin grid1.N, cond1_3 (grid1.coords t) ↔ t.val % 16 = 15)

/-- The column slice is seeded: ni = 0. -/
abbrev cond1_4 (i : grid1.Coords) : Prop := k1_cond4 i = 1#1
theorem hcond1_4 : ∀ t : Fin cfg1.N, cond1_4 (grid1.coords t) ↔ t.val < 16 :=
  (by decide +kernel : ∀ t : Fin grid1.N, cond1_4 (grid1.coords t) ↔ t.val < 16)

/-- The column slice is refined: ni ≠ 0. -/
abbrev cond1_5 (i : grid1.Coords) : Prop := k1_cond5 i = 1#1
theorem hcond1_5 : ∀ t : Fin cfg1.N, cond1_5 (grid1.coords t) ↔ 16 ≤ t.val :=
  (by decide +kernel : ∀ t : Fin grid1.N, cond1_5 (grid1.coords t) ↔ 16 ≤ t.val)

/-! ## The memrefs the body is called with -/

abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x8192 .f32 := win1_3.stage (cfg1.slots t 3)
abbrev hs1_3 (t : Fin cfg1.N) : (ms1_3 t).IsWhole := hstage1_3 ((cfg1.slots t 3).cast nbuf1_3)
/-- The row-minimum accumulator: a whole scoped buffer of the kernel's own. -/
abbrev scM1 : Memref sig .tc .vmem S4x512 .f32 := Memref.whole cc1_scratch0

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.LibOverlayStore.lean ====
/-
  Stores read back as overlays.

  A buffer of shape S holds contents X. ONE store of a payload G through a rectangle r leaves, read through the same
  view, X with its values on r replaced by G's (`Rect.overlay`): under the rectangle the payload, elsewhere what was
  there (`read_write_one`). When r is the whole shape at zero offsets the overlay is the payload itself, whatever X
  was (`overlay_unit_zero`); and an overlay through a unit-stride rectangle is read at an index by comparing the
  index with the rectangle's offsets axis by axis (`overlay_unit_of_mem`, `overlay_unit_of_not_mem`).
-/
import Idealize.ShloMosaic.Lib.Pipeline.Value
import Idealize.ShloMosaic.Lib.Writes
import Idealize.ShloMosaic.Lib.WritesUnit

noncomputable section

namespace Idealize.ShloMosaic.OverlayStore

open Idealize.ShloMosaic

/-- One store through a view, read back: the stored rectangle holds the payload, the rest what was there. -/
theorem read_write_one {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext j
  by_cases hj : j ∈ r.set
  · obtain ⟨x, rfl⟩ := r.exists_idx_of_mem hj
    exact (View.read_writes_cons_emb v f r w [] x).trans (Rect.overlay_emb r _ w x).symm
  · rw [Rect.overlay_of_not_mem _ _ _ hj]
    exact View.read_writes_apply_of_forall_not_mem v f j [⟨r, w⟩] (fun p hp => by
      rcases List.mem_singleton.mp hp with rfl; exact hj)

/-- An overlay through the whole-shape rectangle at zero offsets is the payload. -/
theorem overlay_unit_zero {S : Shape} {α : Type} {off : Fin S.rank → Nat} (h : off = fun _ => 0)
    (inb : ∀ a, off a + S.size a ≤ S.size a) (X : S.Idx → α) (G : S.Idx → α) :
    (Rect.unit off S.size inb).overlay X G = G := by
  subst h; funext y
  have e := Rect.overlay_emb (Rect.whole S) X G y
  rw [Rect.emb_whole_apply] at e
  exact e

/-- An overlay through a unit-stride rectangle, at an index inside it: the payload at the index less the offsets. -/
theorem overlay_unit_of_mem {s : Shape} {α : Type} {off size : Fin s.rank → ℕ} (inb : ∀ a, off a + size a ≤ s.size a)
    (X : s.Idx → α) (G : (Rect.unit off size inb).shape.Idx → α) (y : s.Idx) (x : (Rect.unit off size inb).shape.Idx)
    (hx : ∀ a, (y a).val = off a + (x a).val) : (Rect.unit off size inb).overlay X G y = G x := by
  have hy : (Rect.unit off size inb).emb x = y := funext fun a => Fin.ext (by
    show off a + 1 * (x a).val = (y a).val
    rw [hx a, Nat.one_mul])
  rw [← hy]; exact Rect.overlay_emb _ X G x

/-- An overlay through a unit-stride rectangle, at an index outside it on some axis: what was there. -/
theorem overlay_unit_of_not_mem {s : Shape} {α : Type} {off size : Fin s.rank → ℕ} (inb : ∀ a, off a + size a ≤ s.size a)
    (X : s.Idx → α) (G : (Rect.unit off size inb).shape.Idx → α) (y : s.Idx) (a : Fin s.rank)
    (ha : (y a).val < off a ∨ off a + size a ≤ (y a).val) : (Rect.unit off size inb).overlay X G y = X y := by
  refine Rect.overlay_of_not_mem _ X G ?_
  rw [Rect.mem_set_unit]
  intro hall
  have := hall a
  omega

end Idealize.ShloMosaic.OverlayStore

end
-- ==== Proof.K.Data1.lean ====
/-
  Region 1's proof data, for any float instance: what the two-sided minimum-distance kernel leaves, point by point.

  At grid point t = 16·ni + mi the body sees tile ni of the first cloud and tile mi of the second, and computes the
  512 × 512 squared distances of the pair; `rowMin1` is their minimum along the second tile (one value per point of
  the first) and `colMin1` along the first. The accumulator (a scratch buffer carried from point to point) holds after
  point t the running minimum of the row minima of the points 16·ni … t (`acc1`): seeded when mi = 0, refined
  otherwise. The row output's staging buffer receives the accumulator when mi = 15 and is left alone otherwise; the
  column output's staging buffer, resident over the whole grid, has its mi-th 512-slice seeded with the column minima
  when ni = 0 and refined with them when ni ≠ 0, the rest of it left as found. What a buffer holds after a point is
  stated relative to what the point found there, since the resident buffer is never overwritten whole.
-/
import proofs.«161975_j33079838114187_2_alg».proof.Proof.K.Runs1
import proofs.«161975_j33079838114187_2_alg».proof.Proof.LibOverlayStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row minima of the tile pair at point `t`. -/
def rowMin1 (c : Dev nD) (t : Fin cfg1.N) : Vec F S4x512 .f32 := k1_pay5 (iblk1 V c 0 t) (iblk1 V c 1 t)
/-- The column minima of the tile pair at point `t`. -/
def colMin1 (c : Dev nD) (t : Fin cfg1.N) : Vec F S4x512 .f32 := k1_pay6 (iblk1 V c 0 t) (iblk1 V c 1 t)

/-- The accumulator after point `n`: seeded with the row minima where mi = 0, else refined by them. -/
def acc1 (c : Dev nD) : (n : ℕ) → n < cfg1.N → Vec F S4x512 .f32
  | 0, hn => k1_pay1 (rowMin1 V c ⟨0, hn⟩)
  | n + 1, hn =>
    if (n + 1) % 16 = 0 then k1_pay1 (rowMin1 V c ⟨n + 1, hn⟩)
    else k1_pay2 (rowMin1 V c ⟨n + 1, hn⟩) (acc1 c n (Nat.lt_of_succ_lt hn))

theorem acc1_seed (c : Dev nD) (t : Fin cfg1.N) (h : t.val % 16 = 0) : acc1 V c t.val t.isLt = k1_pay1 (rowMin1 V c t) := by
  obtain ⟨n, hn⟩ := t
  cases n with
  | zero => rfl
  | succ n => exact if_pos h

theorem acc1_step (c : Dev nD) (t : Fin cfg1.N) (h : t.val % 16 ≠ 0) :
    acc1 V c t.val t.isLt = k1_pay2 (rowMin1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant with the accumulator at given contents `S`: the other scoped buffers at anything, the
    generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_with (c : Dev nD) : (Pipeline.ΦA spec1 c : sProp 𝕄) = PhiWith1 c iprop(∃ d, owns (c : Thread nD τ) scM1 fullShare d) :=
  PhiA1_eq c

/-- The invariant before position `n`: at the start the accumulator at anything; afterwards at `acc1` of the point before. -/
def PhiS1 (c : Dev nD) : (n : ℕ) → n ≤ cfg1.N → sProp 𝕄
  | 0, _ => Pipeline.ΦA spec1 c
  | n + 1, hn => PhiWith1 c (owns (c : Thread nD τ) scM1 fullShare (acc1 V c n hn))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith1 c (owns (c : Thread nD τ) scM1 fullShare (acc1 V c n hn)) := rfl
theorem PhiS1_pos (c : Dev nD) (n : ℕ) (h : n ≤ cfg1.N) (hz : n ≠ 0) :
    PhiS1 V c n h = PhiWith1 c (owns (c : Thread nD τ) scM1 fullShare (acc1 V c (n - 1) (by omega))) := by
  cases n with
  | zero => exact absurd rfl hz
  | succ n => rfl

/-- The 512-slice of the resident column buffer that a point with ni = 0 seeds, -/
abbrev slice1 (i : grid1.Coords) (h : cond1_4 i) : Rect S4x8192 := Rect.unit (s := S4x8192) (k1_off1 i) S4x512.size (k1_off1_inb i h)
/-- and the one a point with ni ≠ 0 refines. -/
abbrev slice2 (i : grid1.Coords) (h : cond1_5 i) : Rect S4x8192 := Rect.unit (s := S4x8192) (k1_off2 i) S4x512.size (k1_off2_inb i h)

/-- What the row output's buffer may hold after point `t`, given what it held before: the accumulator where mi = 15,
    else what it held. -/
def after1_2 (c : Dev nD) (t : Fin cfg1.N) (Y X : Vec F S4x512 .f32) : Prop :=
  (cond1_3 (grid1.coords t) → X = acc1 V c t.val t.isLt) ∧ (¬cond1_3 (grid1.coords t) → X = Y)

/-- What the resident column buffer may hold after point `t`, given what it held before. -/
def after1_3 (c : Dev nD) (t : Fin cfg1.N) (Y X : Vec F S4x8192 .f32) : Prop :=
  (∀ h : cond1_4 (grid1.coords t), X = (slice1 (grid1.coords t) h).overlay Y (colMin1 V c t))
  ∧ (∀ h : cond1_5 (grid1.coords t), X = (slice2 (grid1.coords t) h).overlay Y (k1_pay3 (colMin1 V c t) (View.ld Y (slice2 (grid1.coords t) h))))

/-- The proof data of pipeline 1 on core `c`: the arrays as the region finds them; each input's buffer left as found;
    the outputs' buffers related as above; the invariant carrying the accumulator; nothing owed; full shares. -/
def rdat1 (c : Dev nD) : RDat τ (Elt F) Unit ℕ (UR sig nD τ) ℕ cfg1 c where
  A w := V c (Pipeline.arrRef spec1 w)
  after w := match w with
    | ⟨0, _⟩ => fun _ Y X => X = Y
    | ⟨1, _⟩ => fun _ Y X => X = Y
    | ⟨2, _⟩ => fun t Y X => after1_2 V c t Y X
    | ⟨3, _⟩ => fun t Y X => after1_3 V c t Y X
  Φ t := PhiS1 V c t.val (Nat.le_of_lt_succ t.isLt)
  q _ := fullShare
  owed _ := 0

theorem rdat1_A (c : Dev nD) (w : Fin cfg1.W) : (rdat1 V c).A w = V c (Pipeline.arrRef spec1 w) := by dsimp only [rdat1]
theorem rdat1_after_0 (c : Dev nD) (t : Fin cfg1.N) (Y X) : (rdat1 V c).after 0 t Y X ↔ X = Y := by dsimp only [rdat1]; exact Iff.rfl
theorem rdat1_after_1 (c : Dev nD) (t : Fin cfg1.N) (Y X) : (rdat1 V c).after 1 t Y X ↔ X = Y := by dsimp only [rdat1]; exact Iff.rfl
theorem rdat1_after_2 (c : Dev nD) (t : Fin cfg1.N) (Y X) : (rdat1 V c).after 2 t Y X ↔ after1_2 V c t Y X := by dsimp only [rdat1]; exact Iff.rfl
theorem rdat1_after_3 (c : Dev nD) (t : Fin cfg1.N) (Y X) : (rdat1 V c).after 3 t Y X ↔ after1_3 V c t Y X := by dsimp only [rdat1]; exact Iff.rfl
theorem rdat1_Phi (c : Dev nD) (t : Fin (cfg1.N + 1)) : (rdat1 V c).Φ t = PhiS1 V c t.val (Nat.le_of_lt_succ t.isLt) := by dsimp only [rdat1]
theorem rdat1_owed (c : Dev nD) (t : Fin (cfg1.N + 1)) : (rdat1 V c).owed t = 0 := by dsimp only [rdat1]

end Cert.Kernel.Hand

end
-- ==== Proof.K.Cases1.lean ====
/-
  Region 1's body, run once per control case, for any float instance.

  With r the row minima and q the column minima of the tile pair the point sees (`k1_pay5`, `k1_pay6` of the two
  input blocks), xs what the accumulator held, xi2 the row output's buffer and xi3 the resident column buffer:
    * the accumulator ends at r (as `k1_pay1`) where mi = 0 and at the elementwise minimum of xs and r (`k1_pay2`)
      where mi ≠ 0;
    * the row output's buffer ends at the accumulator's new contents where mi = 15, and as it was elsewhere;
    * the column buffer ends as it was but for the point's 512-slice, which holds q where ni = 0 and the minimum of
      the slice's old values and q (`k1_pay3`) where ni ≠ 0.
  The six theorems are the six combinations the grid meets (mi = 0, 0 < mi < 15, mi = 15) × (ni = 0, ni ≠ 0); each
  branch of the body is decided by the case's hypotheses, and the buffers are read back through the overlay lemmas.
-/
import proofs.«161975_j33079838114187_2_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option hygiene false in
/-- Reading a buffer back after the body's stores: one store is an overlay, a load through the whole rectangle reads
    the contents, an overlay through it is the payload. -/
local macro "run1_close" : tactic => `(tactic| first
  | exact harg4.read_unread _
  | (simp only [OverlayStore.read_write_one, View.readAt_eq_ld, harg2.read_unread, harg3.read_unread, harg4.read_unread, harg5.read_unread, harg6.read_unread, View.ld_unit_zero (S := S4x512x3) hz3, View.ld_unit_zero (S := S4x512) hz2, OverlayStore.overlay_unit_zero (S := S4x512) hz2, View.readCov_unit_zero _ (S := S4x512) hz2]
     sl_unfold_run_names
     simp only [OverlayStore.read_write_one, View.readAt_eq_ld, harg2.read_unread, harg3.read_unread, harg4.read_unread, harg5.read_unread, harg6.read_unread, View.ld_unit_zero (S := S4x512x3) hz3, View.ld_unit_zero (S := S4x512) hz2, OverlayStore.overlay_unit_zero (S := S4x512) hz2, View.readCov_unit_zero _ (S := S4x512) hz2]
     try rfl))

set_option hygiene false in
/-- The run of the body in one control case: the printed function is its skeleton, the executor runs it with every
    branch decided by the case's hypotheses, and each buffer is handed back at its contents read back. -/
local macro "run1_script" : tactic => `(tactic| (
  simp only [cc1__chamfer2_kernel_eq_skeleton]; unfold cc1__chamfer2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    run1_close
  isplitl [H3]
  · iexists _; isplitr
    swap; · iexact H3
    ipureintro
    run1_close
  iexists _; isplitr
  swap; · iexact HS
  ipureintro
  run1_close))

set_option maxHeartbeats 2000000 in
/-- mi = 0 and ni = 0: the accumulator and the point's column slice are seeded. -/
theorem run1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : cond1_1 i) (hc2 : ¬cond1_2 i) (hc3 : ¬cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice1 i hc4).overlay xi3 (k1_pay6 x0 x1))
            ∗ owns (c : Thread nD τ) arg6 fullShare (k1_pay1 (k1_pay5 x0 x1))) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- 0 < mi < 15 and ni = 0: the accumulator is refined, the column slice seeded. -/
theorem run1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : ¬cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice1 i hc4).overlay xi3 (k1_pay6 x0 x1))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 15 and ni = 0: the accumulator is refined and copied out, the column slice seeded. -/
theorem run1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k1_pay2 (k1_pay5 x0 x1) xs)
            ∗ owns (c : Thread nD τ) arg5 fullShare ((slice1 i hc4).overlay xi3 (k1_pay6 x0 x1))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 0 and ni ≠ 0: the accumulator is seeded, the column slice refined. -/
theorem run1_D (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : cond1_1 i) (hc2 : ¬cond1_2 i) (hc3 : ¬cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice2 i hc5).overlay xi3 (k1_pay3 (k1_pay6 x0 x1) (View.ld xi3 (slice2 i hc5))))
            ∗ owns (c : Thread nD τ) arg6 fullShare (k1_pay1 (k1_pay5 x0 x1))) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- 0 < mi < 15 and ni ≠ 0: the accumulator and the column slice are refined. -/
theorem run1_E (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : ¬cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice2 i hc5).overlay xi3 (k1_pay3 (k1_pay6 x0 x1) (View.ld xi3 (slice2 i hc5))))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 15 and ni ≠ 0: the accumulator is refined and copied out, the column slice refined. -/
theorem run1_G (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k1_pay2 (k1_pay5 x0 x1) xs)
            ∗ owns (c : Thread nD τ) arg5 fullShare ((slice2 i hc5).overlay xi3 (k1_pay3 (k1_pay6 x0 x1) (View.ld xi3 (slice2 i hc5))))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

end Cert.Kernel.Hand

end
-- ==== Proof.K.Body1.lean ====
/-
  Region 1's body obligation over the relational proof data, for any float instance.

  At every grid point the two input windows' buffers hold their blocks (an input left as found holds what its last
  fetch put there, and an unfetched point has the same block index as the fetch before it); the accumulator holds
  what the point before left (anything at the first point). The point's control case is read off its number
  t = 16·ni + mi, the case's run applies, and what it leaves is what the proof data says: the accumulator's new
  contents are `acc1` at t by its recursion, the row output's buffer is the accumulator where mi = 15 and untouched
  elsewhere, the column buffer is overlaid on the point's slice.
-/
import proofs.«161975_j33079838114187_2_alg».proof.Proof.K.Cases1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, fetched there or not. -/
theorem finds1_0 (c : Dev nD) (t : Fin cfg1.N) (Y) (h : (rdat1 V c).Finds 0 t Y) : Y = iblk1 V c 0 t := by
  obtain ⟨d, hd⟩ := RDat.finds_in_eq_fetched (rdat1 V c) 0 rfl (fun _ _ _ => rfl) (fun t Y X h => (rdat1_after_0 V c t Y X).mp h) t Y h
  rw [hd]; unfold RDat.fetched RDat.blockOf iblk1; rw [rdat1_A]; try rfl

theorem finds1_1 (c : Dev nD) (t : Fin cfg1.N) (Y) (h : (rdat1 V c).Finds 1 t Y) : Y = iblk1 V c 1 t := by
  obtain ⟨d, hd⟩ := RDat.finds_in_eq_fetched (rdat1 V c) 1 rfl (fun _ _ _ => rfl) (fun t Y X h => (rdat1_after_1 V c t Y X).mp h) t Y h
  rw [hd]; unfold RDat.fetched RDat.blockOf iblk1; rw [rdat1_A]; try rfl

/-- A point with ni = 0 that leaves the column buffer with its slice seeded leaves admissible contents. -/
theorem after1_3_seed (c : Dev nD) (t : Fin cfg1.N) (h4 : cond1_4 (grid1.coords t)) (Y3 : Vec F S4x8192 .f32) :
    (rdat1 V c).after 3 t Y3 ((slice1 (grid1.coords t) h4).overlay Y3 (k1_pay6 (iblk1 V c 0 t) (iblk1 V c 1 t))) := by
  refine (rdat1_after_3 V c t Y3 _).mpr ⟨fun _ => ?_, fun h5 => ?_⟩
  · unfold colMin1; rfl
  · exact absurd ((hcond1_5 t).mp h5) (by have := (hcond1_4 t).mp h4; omega)

/-- A point with ni ≠ 0 that leaves the column buffer with its slice refined leaves admissible contents. -/
theorem after1_3_refine (c : Dev nD) (t : Fin cfg1.N) (h5 : cond1_5 (grid1.coords t)) (Y3 : Vec F S4x8192 .f32) :
    (rdat1 V c).after 3 t Y3 ((slice2 (grid1.coords t) h5).overlay Y3 (k1_pay3 (k1_pay6 (iblk1 V c 0 t) (iblk1 V c 1 t)) (View.ld Y3 (slice2 (grid1.coords t) h5)))) := by
  refine (rdat1_after_3 V c t Y3 _).mpr ⟨fun h4 => ?_, fun _ => ?_⟩
  · exact absurd ((hcond1_5 t).mp h5) (by have := (hcond1_4 t).mp h4; omega)
  · unfold colMin1; rfl

/-- The invariant at a point's start, restated at the point's number. -/
theorem Phi_castSucc1 (c : Dev nD) (t : Fin cfg1.N) :
    (rdat1 V c).Φ t.castSucc = PhiS1 V c t.val (Nat.le_of_lt t.isLt) := by
  dsimp only [rdat1]; simp only [Fin.coe_castSucc]

/-- What the body is called with at point `t`, the windows' buffers at given contents, -/
def bodyPre1 (c : Dev nD) (t : Fin cfg1.N) (Y2 : Vec F S4x512 .f32) (Y3 : Vec F S4x8192 .f32) : sProp 𝕄 :=
  iprop((rdat1 V c).Φ t.castSucc ∗ (rdat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare Y2
    ∗ owns (c : Thread nD τ) (st1_3 t) fullShare Y3)

/-- and what it returns. -/
def bodyPost1 (c : Dev nD) (t : Fin cfg1.N) (Y2 : Vec F S4x512 .f32) (Y3 : Vec F S4x8192 .f32) : sProp 𝕄 :=
  iprop((rdat1 V c).Φ t.succ ∗ (rdat1 V c).owesAt () t.succ
    ∗ (∃ X, ⌜(rdat1 V c).after 0 t (iblk1 V c 0 t) X⌝ ∗ owns (c : Thread nD τ) (st1_0 t) fullShare X)
    ∗ (∃ X, ⌜(rdat1 V c).after 1 t (iblk1 V c 1 t) X⌝ ∗ owns (c : Thread nD τ) (st1_1 t) fullShare X)
    ∗ (∃ X, ⌜(rdat1 V c).after 2 t Y2 X⌝ ∗ owns (c : Thread nD τ) (st1_2 t) fullShare X)
    ∗ (∃ X, ⌜(rdat1 V c).after 3 t Y3 X⌝ ∗ owns (c : Thread nD τ) (st1_3 t) fullShare X))

set_option hygiene false in
/-- After a case's run: the invariant reassembled around the accumulator's new contents, the core's dues unchanged,
    each window's buffer at contents the proof data admits. -/
local macro "body1_finish" : tactic => `(tactic| (
  iintro ⟨H0, H1, H2, H3, HS⟩
  isplitl [B0 B1 B2 B3 B4 HS Hg]
  · isplitr [Hg]
    · isplitl [B0]; · iexact B0
      isplitl [B1]; · iexact B1
      isplitl [B2]; · iexact B2
      isplitl [B3]; · iexact B3
      isplitl [B4]; · iexact B4
      iexact HS
    iexact Hg
  isplitl [Ho]; · iexact Ho
  isplitl [H0]
  · iexists _; isplitr
    swap; · iexact H0
    ipureintro; exact (rdat1_after_0 V c t _ _).mpr rfl
  isplitl [H1]
  · iexists _; isplitr
    swap; · iexact H1
    ipureintro; exact (rdat1_after_1 V c t _ _).mpr rfl
  isplitl [H2]
  · iexists _; isplitr
    swap; · iexact H2
    ipureintro
    first
      | exact (rdat1_after_2 V c t _ _).mpr ⟨fun h => absurd h hc3, fun _ => rfl⟩
      | exact (rdat1_after_2 V c t _ _).mpr ⟨fun _ => hacc.symm, fun hn => absurd hc3 hn⟩
  iexists _; isplitr
  swap; · iexact H3
  ipureintro
  first
    | exact after1_3_seed V c t hc4 Y3
    | exact after1_3_refine V c t hc5 Y3))

set_option hygiene false in
/-- Before a case's run at a point that is not the first: the invariant opened around the accumulator at what the
    point before left, the windows' buffers handed to the run. -/
local macro "body1_start" r:term : tactic => `(tactic| (
  rw [Phi_castSucc1 V c t, PhiS1_pos V c _ _ hz]
  unfold PhiWith1
  iintro ⟨⟨⟨B0, B1, B2, B3, B4, HS⟩, Hg⟩, Ho, H0, H1, H2, H3⟩
  iapply ($r c (grid1.coords t) _ _ _ _ _ _ _ _ _ _ hc1 hc2 hc3 hc4 hc5 (iblk1 V c 0 t) (iblk1 V c 1 t) Y2 Y3 _ Set.univ _)
  isplitl [H0]; · iexact H0
  isplitl [H1]; · iexact H1
  isplitl [H2]; · iexact H2
  isplitl [H3]; · iexact H3
  isplitl [HS]; · iexact HS))

set_option maxHeartbeats 4000000 in
/-- The body at any point, from the windows' buffers at the blocks and at any contents of the two outputs' buffers. -/
theorem sound_body1 (c : Dev nD) (t : Fin cfg1.N) (Y2 : Vec F S4x512 .f32) (Y3 : Vec F S4x8192 .f32) :
    bodyPre1 V c t Y2 Y3 ⊢ wp frame (wpE (defs₀ (F := F)) Variants.none c none) Set.univ (bodyAt1 t) (fun _ => bodyPost1 V c t Y2 Y3) := by
  unfold bodyPre1 bodyPost1 bodyAt1
  rw [show (rdat1 V c).owesAt () t.succ = (rdat1 V c).owesAt () t.castSucc from rfl]
  have hΦs : (rdat1 V c).Φ t.succ = PhiWith1 c (owns (c : Thread nD τ) scM1 fullShare (acc1 V c t.val t.isLt)) := by
    rw [rdat1_Phi]; exact PhiS1_succ V c t.val t.isLt
  rw [hΦs]
  have hN : t.val < 256 := lt_of_lt_of_eq t.isLt (show cfg1.N = 256 from N_1)
  by_cases h1 : t.val % 16 = 0
  · -- mi = 0: the accumulator is seeded
    have hacc : acc1 V c t.val t.isLt = k1_pay1 (k1_pay5 (iblk1 V c 0 t) (iblk1 V c 1 t)) := acc1_seed V c t h1
    rw [hacc]
    have hc1 : cond1_1 (grid1.coords t) := (hcond1_1 t).mpr h1
    have hc2 : ¬cond1_2 (grid1.coords t) := fun h => (hcond1_2 t).mp h h1
    have hc3 : ¬cond1_3 (grid1.coords t) := fun h => by have := (hcond1_3 t).mp h; omega
    by_cases h4 : t.val < 16
    · have hc4 : cond1_4 (grid1.coords t) := (hcond1_4 t).mpr h4
      have hc5 : ¬cond1_5 (grid1.coords t) := fun h => by have := (hcond1_5 t).mp h; omega
      have hz : t.val = 0 := by omega
      rw [Phi_castSucc1 V c t, PhiS1_zero V c _ _ hz, PhiA1_with]
      unfold PhiWith1
      iintro ⟨⟨⟨B0, B1, B2, B3, B4, ⟨%d, HS⟩⟩, Hg⟩, Ho, H0, H1, H2, H3⟩
      iapply (run1_A c (grid1.coords t) _ _ _ _ _ _ _ _ _ _ hc1 hc2 hc3 hc4 hc5 (iblk1 V c 0 t) (iblk1 V c 1 t) Y2 Y3 d Set.univ _)
      isplitl [H0]; · iexact H0
      isplitl [H1]; · iexact H1
      isplitl [H2]; · iexact H2
      isplitl [H3]; · iexact H3
      isplitl [HS]; · iexact HS
      body1_finish
    · have hc4 : ¬cond1_4 (grid1.coords t) := fun h => h4 ((hcond1_4 t).mp h)
      have hc5 : cond1_5 (grid1.coords t) := (hcond1_5 t).mpr (by omega)
      have hz : t.val ≠ 0 := by omega
      body1_start run1_D
      body1_finish
  · -- mi ≠ 0: the accumulator is refined
    have hacc : acc1 V c t.val t.isLt = k1_pay2 (k1_pay5 (iblk1 V c 0 t) (iblk1 V c 1 t)) (acc1 V c (t.val - 1) (Nat.lt_of_le_of_lt (Nat.sub_le _ _) t.isLt)) :=
      acc1_step V c t h1
    rw [hacc]
    have hc1 : ¬cond1_1 (grid1.coords t) := fun h => h1 ((hcond1_1 t).mp h)
    have hc2 : cond1_2 (grid1.coords t) := (hcond1_2 t).mpr h1
    have hz : t.val ≠ 0 := fun h => h1 (by rw [h])
    by_cases h3 : t.val % 16 = 15
    · have hc3 : cond1_3 (grid1.coords t) := (hcond1_3 t).mpr h3
      by_cases h4 : t.val < 16
      · have hc4 : cond1_4 (grid1.coords t) := (hcond1_4 t).mpr h4
        have hc5 : ¬cond1_5 (grid1.coords t) := fun h => by have := (hcond1_5 t).mp h; omega
        body1_start run1_C
        body1_finish
      · have hc4 : ¬cond1_4 (grid1.coords t) := fun h => h4 ((hcond1_4 t).mp h)
        have hc5 : cond1_5 (grid1.coords t) := (hcond1_5 t).mpr (by omega)
        body1_start run1_G
        body1_finish
    · have hc3 : ¬cond1_3 (grid1.coords t) := fun h => h3 ((hcond1_3 t).mp h)
      by_cases h4 : t.val < 16
      · have hc4 : cond1_4 (grid1.coords t) := (hcond1_4 t).mpr h4
        have hc5 : ¬cond1_5 (grid1.coords t) := fun h => by have := (hcond1_5 t).mp h; omega
        body1_start run1_B
        body1_finish
      · have hc4 : ¬cond1_4 (grid1.coords t) := fun h => h4 ((hcond1_4 t).mp h)
        have hc5 : cond1_5 (grid1.coords t) := (hcond1_5 t).mpr (by omega)
        body1_start run1_E
        body1_finish

/-- The body obligation of the relational proof data, at every point. -/
theorem body_obligation1 (c : Dev nD) : (rdat1 (F := F) V c).BodyObligation (defs₀ (F := F)) Variants.none () Set.univ := fun t Y hY => by
  rw [bigSep_W1, bigSep_W1]
  have e0 := finds1_0 V c t (Y 0) (hY 0)
  have e1 := finds1_1 V c t (Y 1) (hY 1)
  rw [e0, e1]
  exact sound_body1 V c t (Y 2) (Y 3)

/-- What the launch hands the region is the invariant before the first point. -/
theorem hin1 (c : Dev nD) : (Pipeline.ΦA spec1 c : sProp 𝕄) ⊢ (rdat1 V c).Φ 0 := by
  rw [rdat1_Phi]; exact .rfl

/-- After the last point the invariant gives the launch's back: the accumulator's named contents are forgotten. -/
theorem hout1 (c : Dev nD) : (rdat1 V c).Φ (Fin.last cfg1.N) ⊢ (Pipeline.ΦA spec1 c : sProp 𝕄) := by
  rw [rdat1_Phi, PhiS1_pos V c _ _ (by rw [Fin.val_last]; have : cfg1.N = 256 := N_1; omega), PhiA1_with]
  unfold PhiWith1
  iintro ⟨⟨B0, B1, B2, B3, B4, HS⟩, Hg⟩
  isplitr [Hg]
  · isplitl [B0]; · iexact B0
    isplitl [B1]; · iexact B1
    isplitl [B2]; · iexact B2
    isplitl [B3]; · iexact B3
    isplitl [B4]; · iexact B4
    iexists _; iexact HS
  iexact Hg

end Cert.Kernel.Hand

end
-- ==== Proof.LibRelCover.lean ====
/-
  What an output array may hold after every write-back, when the flushed blocks determine it.

  Relational proof data say of an output array only this: it started at its entry contents and, at each point that
  writes back, its block there was overwritten by the moved part of SOME contents the body may have left in the
  staging buffer. If whatever the body may leave at a flushing point has, as its moved part, that point's block of
  ONE whole-array function G, then every index some flushing point's block covers reads G afterwards — a later
  point that covers it again writes the same value, an earlier one is overwritten — and if the blocks cover the
  array, the array is G.
-/
import Idealize.ShloMosaic.Lib.Pipeline.Cells
import Idealize.ShloMosaic.Lib.Pipeline.Value

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA

namespace Pipeline

open TcCoe

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An index in a flushed block below `n` reads `G` after the write-backs below `n`, when every flushing point's
    moved part is its block of `G`. -/
theorem RDat.ArrAt_apply_of_mem (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G) :
    ∀ (n : Nat) (Fb : Buf Val ((cfg.win w).arr.view.loc (c.tc : Thread nD τ))), rd.ArrAt w n Fb →
      ∀ (t : Fin cfg.N) (i : ((cfg.win w).arr.view.loc (c.tc : Thread nD τ)).2.ty.Idx),
        t.val < n → (cfg.win w).flush t = true → i ∈ ((cfg.win w).blk t).view.set → Fb i = G i
  | 0, _, _, _, _, ht, _, _ => absurd ht (Nat.not_lt_zero _)
  | n + 1, Fb, h, t, i, ht, hf, hi => by
    by_cases hn : n < cfg.N
    swap
    · rw [rd.ArrAt_stable w (n + 1) (by omega), ← rd.ArrAt_stable w n (by omega)] at h
      exact RDat.ArrAt_apply_of_mem w G hG n Fb h t i (by have := t.isLt; omega) hf hi
    have hs := rd.ArrAt_succ w ⟨n, hn⟩
    dsimp only at hs
    rw [hs] at h
    by_cases hfn : (cfg.win w).flush ⟨n, hn⟩ = true
    · rw [if_pos hfn] at h
      obtain ⟨G₀, X, hG₀, hX, rfl⟩ := h
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.ArrAt_apply_of_mem w G hG n G₀ hG₀ t i (by omega) hf hi
    · rw [if_neg hfn] at h
      have htn : t.val ≠ n := fun e => hfn (by have : t = ⟨n, hn⟩ := Fin.ext e; exact this ▸ hf)
      exact RDat.ArrAt_apply_of_mem w G hG n Fb h t i (by omega) hf hi

/-- When the flushed blocks cover the array and each is its block of `G`, the array may only hold `G`. -/
theorem RDat.ArrAt_eq_of_cover (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (Fb : Buf Val ((cfg.win w).arr.view.loc (c.tc : Thread nD τ))) (h : rd.ArrAt w cfg.N Fb) : Fb = G :=
  funext fun i => by
    obtain ⟨t, hf, hi⟩ := hcover i
    exact rd.ArrAt_apply_of_mem w G hG cfg.N Fb h t i t.isLt hf hi

end Pipeline

end Idealize.ShloMosaic

end
-- ==== Proof.K.Final1.lean ====
/-
  Region 1's two result arrays after the whole grid, for any float instance.

  The row output [4, 8192] is written back tile by tile: tile ni is flushed after the point (ni, 15), when its staging
  buffer holds the accumulator over the sixteen points of row ni; so entry (b, 512·ni + r) is `acc1` at the point
  16·ni + 15, at (b, r). The column output [4, 8192] is one resident block flushed once, after the last point; its
  mi-th 512-slice was seeded at the point (0, mi) and refined at the points (1, mi), …, (15, mi) (`colAcc1`), and no
  other point touches that slice; so entry (b, 512·mi + s) is `colAcc1` of slice mi after sixteen rows, at (b, s) —
  whatever the staging buffer held before the first point.
-/
import proofs.«161975_j33079838114187_2_alg».proof.Proof.K.Data1
import proofs.«161975_j33079838114187_2_alg».proof.Proof.LibRelCover
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The grid point of tile row `ni` and tile column `mi`. -/
def pt1 (ni mi : ℕ) (hn : ni < 16) (hm : mi < 16) : Fin cfg1.N :=
  ⟨16 * ni + mi, by have hN : cfg1.N = 256 := N_1; omega⟩

/-- Slice `mi` of the column buffer after rows 0 … ni: seeded with the column minima of row 0, refined by each later row's. -/
def colAcc1 (c : Dev nD) (mi : ℕ) (hm : mi < 16) : (ni : ℕ) → ni < 16 → Vec F S4x512 .f32
  | 0, hn => colMin1 V c (pt1 0 mi hn hm)
  | ni + 1, hn => k1_pay3 (colMin1 V c (pt1 (ni + 1) mi hn hm)) (colAcc1 c mi hm ni (Nat.lt_of_succ_lt hn))

/-- The row output after the grid. -/
def G1_2 (c : Dev nD) : Vec F S4x8192 .f32 := fun j =>
  acc1 V c (16 * ((j 1).val / 512) + 15) (by have hN : cfg1.N = 256 := N_1; have := (show (j 1).val < 8192 from (j 1).isLt); omega)
    (ValueIdx.ix2 (j 0) ⟨(j 1).val % 512, Nat.mod_lt _ (by decide)⟩)

/-- The column output after the grid. -/
def G1_3 (c : Dev nD) : Vec F S4x8192 .f32 := fun j =>
  colAcc1 V c ((j 1).val / 512) (by have := (show (j 1).val < 8192 from (j 1).isLt); omega) 15 (by decide)
    (ValueIdx.ix2 (j 0) ⟨(j 1).val % 512, Nat.mod_lt _ (by decide)⟩)

/-! ## The two functions read at a tile's coordinates -/

/-- The accumulator at an index depends on the point's number and the index only. -/
theorem acc1_congr (c : Dev nD) {n n' : ℕ} (e : n = n') (hn : n < cfg1.N) (hn' : n' < cfg1.N) {y y' : S4x512.Idx} (ey : y = y') :
    acc1 V c n hn y = acc1 V c n' hn' y' := by
  subst e; subst ey; rfl

/-- A column slice's contents at an index depend on the slice's and the row's numbers and the index only. -/
theorem colAcc1_congr (c : Dev nD) {mi mi' ni ni' : ℕ} (e : mi = mi') (e' : ni = ni') (hm : mi < 16) (hm' : mi' < 16)
    (hn : ni < 16) (hn' : ni' < 16) {y y' : S4x512.Idx} (ey : y = y') :
    colAcc1 V c mi hm ni hn y = colAcc1 V c mi' hm' ni' hn' y' := by
  subst e; subst e'; subst ey; rfl

theorem G1_2_apply (c : Dev nD) (b : Fin 4) (ni : Fin 16) (r : Fin 512) :
    G1_2 V c (ValueIdx.ix2 b ⟨512 * ni.val + r.val, by omega⟩)
      = acc1 V c (16 * ni.val + 15) (by have hN : cfg1.N = 256 := N_1; omega) (ValueIdx.ix2 b r) := by
  have hni := ni.isLt
  have hr := r.isLt
  show acc1 V c (16 * ((512 * ni.val + r.val) / 512) + 15) _ (ValueIdx.ix2 b (⟨(512 * ni.val + r.val) % 512, _⟩ : Fin 512)) = _
  exact acc1_congr V c (show 16 * ((512 * ni.val + r.val) / 512) + 15 = 16 * ni.val + 15 by omega) _ _
    (congrArg (ValueIdx.ix2 b) (Fin.ext (by show (512 * ni.val + r.val) % 512 = r.val; omega)))

theorem G1_3_apply (c : Dev nD) (b : Fin 4) (mi : Fin 16) (s : Fin 512) :
    G1_3 V c (ValueIdx.ix2 b ⟨512 * mi.val + s.val, by omega⟩) = colAcc1 V c mi.val mi.isLt 15 (by decide) (ValueIdx.ix2 b s) := by
  have hmi := mi.isLt
  have hs := s.isLt
  show colAcc1 V c ((512 * mi.val + s.val) / 512) _ 15 _ (ValueIdx.ix2 b (⟨(512 * mi.val + s.val) % 512, _⟩ : Fin 512)) = _
  exact colAcc1_congr V c (show (512 * mi.val + s.val) / 512 = mi.val by omega) rfl _ _ _ _
    (congrArg (ValueIdx.ix2 b) (Fin.ext (by show (512 * mi.val + s.val) % 512 = s.val; omega)))

/-! ## The grid and the printed index maps -/

/-- A point of the grid is below 256. -/
theorem point1_lt (t : Fin cfg1.N) : t.val < 256 := lt_of_lt_of_eq t.isLt N_1

/-- The printed index maps and coordinates, decided over the grid: the row output's window moves along axis 1 with the
    tile row; the column output's window stays at block (0, 0); the point's coordinates are its quotient and remainder
    by 16; neither output window is ever fetched. -/
theorem index_facts1 : ∀ t : Fin cfg1.N,
    win1_2.index t (0 : Fin 2) = 0 ∧ win1_2.index t (1 : Fin 2) = t.val / 16
    ∧ win1_3.index t (0 : Fin 2) = 0 ∧ win1_3.index t (1 : Fin 2) = 0
    ∧ (grid1.coords t 0).val = t.val / 16 ∧ (grid1.coords t 1).val = t.val % 16
    ∧ win1_2.fetch t = false ∧ win1_3.fetch t = false :=
  (by decide +kernel : ∀ t : Fin grid1.N, _)

/-! ## The row output: what each flushing point writes back, the cover, and the array after the run -/

/-- An element of the row output's block at point `t` sits at row `y 0`, column `512 (t / 16) + y 1` of the array. -/
theorem blk1_2_emb (t : Fin cfg1.N) (y : S4x512.Idx) :
    (((cfg1.win 2).blk t).view.emb y : S4x8192.Idx)
      = ValueIdx.ix2 (y 0 : Fin 4) (⟨512 * (t.val / 16) + (y 1).val, by have := point1_lt t; have : (y 1).val < 512 := (y 1).isLt; omega⟩ : Fin 8192) := by
  obtain ⟨e0, e1, -⟩ := index_facts1 t
  funext a
  apply Fin.ext
  match a with
  | ⟨0, _⟩ => show win1_2.index t (0 : Fin 2) * 4 + 1 * (y 0).val = (y 0).val; rw [e0]; omega
  | ⟨1, _⟩ => show win1_2.index t (1 : Fin 2) * 512 + 1 * (y 1).val = 512 * (t.val / 16) + (y 1).val; rw [e1]; omega

/-- Whatever the body may leave at a flushing point has, as its moved part, that point's block of `G1_2`. -/
theorem flushed1_2_eq (c : Dev nD) (t : Fin cfg1.N) (X : (cfg1.win 2).block.Idx → Elt F (cfg1.win 2).elt)
    (hf : (cfg1.win 2).flush t = true) (hX : (rdat1 V c).Leaves 2 t X) :
    (cfg1.win 2).cut (cfg1.grid.coords t) X = ((cfg1.win 2).blk t).view.read (Elt F) (G1_2 V c) := by
  have h15 : t.val % 16 = 15 := (flush1_2 t).mp hf
  have ht := point1_lt t
  obtain ⟨Y, -, hafter⟩ := hX
  rw [rdat1_after_2] at hafter
  have hXe : X = acc1 V c t.val t.isLt := hafter.1 ((hcond1_3 t).mpr h15)
  subst hXe
  refine funext fun (y : S4x512.Idx) => ?_
  rw [View.read_apply]
  show acc1 V c t.val t.isLt y = G1_2 V c (((cfg1.win 2).blk t).view.emb y)
  rw [blk1_2_emb]
  have hG := G1_2_apply V c (y 0) (⟨t.val / 16, by omega⟩ : Fin 16) (y 1)
  refine Eq.trans ?_ hG.symm
  exact acc1_congr V c (show t.val = 16 * (t.val / 16) + 15 by omega) _ _ (ValueIdx.eq_ix2 y)

/-- An index of the array is in point `t`'s block iff each coordinate is in the block's range on its axis. -/
theorem mem_blk1_2 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1_0).slice (win1_2.rect t)).set ↔ _
  rw [View.set_slice_whole, Rect.mem_set_unit]
  exact Iff.rfl

/-- Every index of the array is in some flushing point's block: column `r` is in the tile flushed at 16 (r / 512) + 15. -/
theorem cover1_2_arr (i : S4x8192.Idx) : ∃ t : Fin cfg1.N, (cfg1.win 2).flush t = true ∧ i ∈ ((cfg1.win 2).blk t).view.set := by
  have h0 : (i 0).val < 4 := (i 0).isLt
  have h1 : (i 1).val < 8192 := (i 1).isLt
  have hlt : 16 * ((i 1).val / 512) + 15 < cfg1.N := lt_of_lt_of_eq (by omega : 16 * ((i 1).val / 512) + 15 < 256) N_1.symm
  refine ⟨⟨16 * ((i 1).val / 512) + 15, hlt⟩, (flush1_2 _).mpr (by show (16 * ((i 1).val / 512) + 15) % 16 = 15; omega), ?_⟩
  obtain ⟨e0, e1, -⟩ := index_facts1 ⟨16 * ((i 1).val / 512) + 15, hlt⟩
  rw [mem_blk1_2]
  intro a
  match a with
  | ⟨0, _⟩ =>
    show win1_2.index ⟨16 * ((i 1).val / 512) + 15, hlt⟩ (0 : Fin 2) * 4 ≤ (i 0).val ∧ (i 0).val < win1_2.index ⟨16 * ((i 1).val / 512) + 15, hlt⟩ (0 : Fin 2) * 4 + 4
    rw [e0]; omega
  | ⟨1, _⟩ =>
    show win1_2.index ⟨16 * ((i 1).val / 512) + 15, hlt⟩ (1 : Fin 2) * 512 ≤ (i 1).val ∧ (i 1).val < win1_2.index ⟨16 * ((i 1).val / 512) + 15, hlt⟩ (1 : Fin 2) * 512 + 512
    rw [e1]; show (16 * ((i 1).val / 512) + 15) / 16 * 512 ≤ (i 1).val ∧ (i 1).val < (16 * ((i 1).val / 512) + 15) / 16 * 512 + 512; omega

/-- Whatever the row output's array may hold after every write-back is `G1_2`. -/
theorem final1_2 (c : Dev nD) (Fb : Buf (Elt F) ((cfg1.win 2).arr.view.loc (c.tc : Thread nD τ)))
    (h : (rdat1 V c).ArrAt 2 cfg1.N Fb) : Fb = G1_2 V c :=
  (rdat1 V c).ArrAt_eq_of_cover 2 (G1_2 V c) (fun t X hf hX => flushed1_2_eq V c t X hf hX) cover1_2_arr Fb h

/-! ## The column output: the resident buffer slice by slice, and the array after the run -/

/-- An element of the column output's block (the whole array) sits at its own coordinates. -/
theorem blk1_3_emb (t : Fin cfg1.N) (y : S4x8192.Idx) : (((cfg1.win 3).blk t).view.emb y : S4x8192.Idx) = y := by
  obtain ⟨-, -, e0, e1, -⟩ := index_facts1 t
  funext a
  apply Fin.ext
  match a with
  | ⟨0, _⟩ => show win1_3.index t (0 : Fin 2) * 4 + 1 * (y 0).val = (y 0).val; rw [e0]; omega
  | ⟨1, _⟩ => show win1_3.index t (1 : Fin 2) * 8192 + 1 * (y 1).val = (y 1).val; rw [e1]; omega

/-- The slice a point seeds starts at column 512 · (t % 16). -/
theorem off1_facts (t : Fin cfg1.N) : k1_off1 (grid1.coords t) 0 = 0 ∧ k1_off1 (grid1.coords t) 1 = 512 * (t.val % 16) := by
  obtain ⟨-, -, -, -, -, e, -⟩ := index_facts1 t
  rw [k1_off1_eq]
  exact ⟨rfl, by show 512 * (grid1.coords t 1).val = _; rw [e]⟩

/-- The slice a point refines starts at column 512 · (t % 16). -/
theorem off2_facts (t : Fin cfg1.N) : k1_off2 (grid1.coords t) 0 = 0 ∧ k1_off2 (grid1.coords t) 1 = 512 * (t.val % 16) := by
  obtain ⟨-, -, -, -, -, e, -⟩ := index_facts1 t
  rw [k1_off2_eq]
  exact ⟨rfl, by show 512 * (grid1.coords t 1).val = _; rw [e]⟩

/-- A 512-column slice overlaid on the [4, 8192] buffer, read inside the slice: the payload. -/
theorem overlay_slice_in (off : Fin 2 → ℕ) (inb : ∀ a, off a + S4x512.size a ≤ S4x8192.size a) (mi : ℕ) (h0 : off 0 = 0)
    (h1 : off 1 = 512 * mi) (Y : Vec F S4x8192 .f32) (G : Vec F S4x512 .f32) (b : Fin 4) (s : Fin 512)
    (hlt : 512 * mi + s.val < 8192) :
    (Rect.unit (s := S4x8192) off S4x512.size inb).overlay Y G (ValueIdx.ix2 b ⟨512 * mi + s.val, hlt⟩) = G (ValueIdx.ix2 b s) := by
  refine OverlayStore.overlay_unit_of_mem inb Y G _ (ValueIdx.ix2 b s) ?_
  intro a
  match a with
  | ⟨0, _⟩ => show b.val = off 0 + b.val; rw [h0]; omega
  | ⟨1, _⟩ => show 512 * mi + s.val = off 1 + s.val; rw [h1]

/-- Read in another slice: what was there. -/
theorem overlay_slice_out (off : Fin 2 → ℕ) (inb : ∀ a, off a + S4x512.size a ≤ S4x8192.size a) (mi : ℕ)
    (h1 : off 1 = 512 * mi) (Y : Vec F S4x8192 .f32) (G : Vec F S4x512 .f32) (b : Fin 4) (mi' : ℕ) (s : Fin 512)
    (hne : mi' ≠ mi) (hlt : 512 * mi' + s.val < 8192) :
    (Rect.unit (s := S4x8192) off S4x512.size inb).overlay Y G (ValueIdx.ix2 b ⟨512 * mi' + s.val, hlt⟩)
      = Y (ValueIdx.ix2 b ⟨512 * mi' + s.val, hlt⟩) := by
  refine OverlayStore.overlay_unit_of_not_mem inb Y G _ (1 : Fin 2) ?_
  show 512 * mi' + s.val < off 1 ∨ off 1 + 512 ≤ 512 * mi' + s.val
  rw [h1]
  have := s.isLt
  omega

/-- The slice loaded from the buffer, at an index: the buffer at the slice's column. -/
theorem ld_slice (off : Fin 2 → ℕ) (inb : ∀ a, off a + S4x512.size a ≤ S4x8192.size a) (mi : ℕ) (h0 : off 0 = 0)
    (h1 : off 1 = 512 * mi) (Y : Vec F S4x8192 .f32) (b : Fin 4) (s : Fin 512) (hlt : 512 * mi + s.val < 8192) :
    View.ld Y (Rect.unit (s := S4x8192) off S4x512.size inb) (ValueIdx.ix2 b s) = Y (ValueIdx.ix2 b ⟨512 * mi + s.val, hlt⟩) := by
  show Y ((Rect.unit (s := S4x8192) off S4x512.size inb).emb (ValueIdx.ix2 b s)) = _
  congr 1
  funext a
  apply Fin.ext
  match a with
  | ⟨0, _⟩ => show off 0 + 1 * b.val = b.val; rw [h0]; omega
  | ⟨1, _⟩ => show off 1 + 1 * s.val = 512 * mi + s.val; rw [h1]; omega

/-- What the resident column buffer holds after point `t`, slice by slice: the slices up to the point's own column are
    at the current row's contents; the later ones, from the second row on, at the previous row's. -/
def Inv1_3 (c : Dev nD) (t : ℕ) (X : Vec F S4x8192 .f32) : Prop :=
  ∀ (b : Fin 4) (mi' : Fin 16) (s : Fin 512) (n : ℕ) (hn : n < 16),
    ((mi'.val ≤ t % 16 ∧ n = t / 16) ∨ (t % 16 < mi'.val ∧ n + 1 = t / 16)) →
    X (ValueIdx.ix2 b ⟨512 * mi'.val + s.val, by omega⟩) = colAcc1 V c mi'.val mi'.isLt n hn (ValueIdx.ix2 b s)

/-- One point: if the buffer was as described after the point before (nothing is asked at the first point), it is as
    described after this one. -/
theorem step1_3 (c : Dev nD) (t : Fin cfg1.N) (Y X : Vec F S4x8192 .f32) (hafter : after1_3 V c t Y X)
    (hY : t.val ≠ 0 → Inv1_3 V c (t.val - 1) Y) : Inv1_3 V c t.val X := by
  have ht := point1_lt t
  intro b mi' s k hk hcase
  have hmi' := mi'.isLt
  have hs := s.isLt
  by_cases h16 : t.val < 16
  · -- the first row: the point's slice is seeded
    have hc : cond1_4 (grid1.coords t) := (hcond1_4 t).mpr h16
    have hXe := hafter.1 hc
    obtain ⟨o0, o1⟩ := off1_facts t
    by_cases hm : mi'.val = t.val % 16
    · have hk0 : k = 0 := by omega
      subst hk0
      rw [hXe]
      refine (congrArg (fun z => (slice1 (grid1.coords t) hc).overlay Y (colMin1 V c t) (ValueIdx.ix2 b z))
        (Fin.ext (by show 512 * mi'.val + s.val = 512 * (t.val % 16) + s.val; rw [hm]) :
          (⟨512 * mi'.val + s.val, by omega⟩ : Fin 8192) = ⟨512 * (t.val % 16) + s.val, by omega⟩)).trans ?_
      refine (overlay_slice_in _ _ (t.val % 16) o0 o1 Y (colMin1 V c t) b s (by omega)).trans ?_
      have e1 : pt1 0 mi'.val hk mi'.isLt = t := Fin.ext (by show 16 * 0 + mi'.val = t.val; omega)
      show colMin1 V c t (ValueIdx.ix2 b s) = colMin1 V c (pt1 0 mi'.val hk mi'.isLt) (ValueIdx.ix2 b s)
      rw [e1]
    · have ht0 : t.val ≠ 0 := by omega
      rw [hXe]
      refine (overlay_slice_out _ _ (t.val % 16) o1 Y (colMin1 V c t) b mi'.val s hm (by omega)).trans ?_
      exact hY ht0 b mi' s k hk (by omega)
  · -- a later row: the point's slice is refined
    have hc : cond1_5 (grid1.coords t) := (hcond1_5 t).mpr (by omega)
    have hXe := hafter.2 hc
    have ht0 : t.val ≠ 0 := by omega
    obtain ⟨o0, o1⟩ := off2_facts t
    by_cases hm : mi'.val = t.val % 16
    · obtain ⟨k', rfl⟩ : ∃ k', k = k' + 1 := ⟨k - 1, by omega⟩
      rw [hXe]
      refine (congrArg (fun z => (slice2 (grid1.coords t) hc).overlay Y
          (k1_pay3 (colMin1 V c t) (View.ld Y (slice2 (grid1.coords t) hc))) (ValueIdx.ix2 b z))
        (Fin.ext (by show 512 * mi'.val + s.val = 512 * (t.val % 16) + s.val; rw [hm]) :
          (⟨512 * mi'.val + s.val, by omega⟩ : Fin 8192) = ⟨512 * (t.val % 16) + s.val, by omega⟩)).trans ?_
      refine (overlay_slice_in _ _ (t.val % 16) o0 o1 Y _ b s (by omega)).trans ?_
      have e1 : pt1 (k' + 1) mi'.val hk mi'.isLt = t := Fin.ext (by show 16 * (k' + 1) + mi'.val = t.val; omega)
      have e2 : View.ld Y (slice2 (grid1.coords t) hc) = colAcc1 V c mi'.val mi'.isLt k' (Nat.lt_of_succ_lt hk) := by
        refine funext fun (x : S4x512.Idx) => ?_
        have hx1 : (x 1).val < 512 := (x 1).isLt
        rw [ValueIdx.eq_ix2 x]
        refine (ld_slice _ _ (t.val % 16) o0 o1 Y (x 0) (x 1) (by omega)).trans ?_
        refine (congrArg (fun z => Y (ValueIdx.ix2 (x 0) z))
          (Fin.ext (by show 512 * (t.val % 16) + (x 1).val = 512 * mi'.val + (x 1).val; rw [hm]) :
            (⟨512 * (t.val % 16) + (x 1).val, by omega⟩ : Fin 8192) = ⟨512 * mi'.val + (x 1).val, by omega⟩)).trans ?_
        exact hY ht0 (x 0) mi' (x 1) k' (Nat.lt_of_succ_lt hk) (by omega)
      show k1_pay3 (colMin1 V c t) (View.ld Y (slice2 (grid1.coords t) hc)) (ValueIdx.ix2 b s)
        = k1_pay3 (colMin1 V c (pt1 (k' + 1) mi'.val hk mi'.isLt)) (colAcc1 V c mi'.val mi'.isLt k' (Nat.lt_of_succ_lt hk)) (ValueIdx.ix2 b s)
      rw [e1, e2]
    · rw [hXe]
      refine (overlay_slice_out _ _ (t.val % 16) o1 Y _ b mi'.val s hm (by omega)).trans ?_
      exact hY ht0 b mi' s k hk (by omega)

/-- After every point the resident buffer is as described, whatever it held before the first. -/
theorem leaves1_3_inv (c : Dev nD) : ∀ (n : ℕ) (hn : n < cfg1.N) (X : Vec F S4x8192 .f32),
    (rdat1 V c).Leaves 3 ⟨n, hn⟩ X → Inv1_3 V c n X := by
  intro n
  induction n with
  | zero =>
    intro hn X hL
    obtain ⟨Y, -, hafter⟩ := hL
    exact step1_3 V c ⟨0, hn⟩ Y X ((rdat1_after_3 V c ⟨0, hn⟩ Y X).mp hafter) (fun h => absurd rfl h)
  | succ n ih =>
    intro hn X hL
    obtain ⟨Y, hfinds, hafter⟩ := hL
    refine step1_3 V c ⟨n + 1, hn⟩ Y X ((rdat1_after_3 V c ⟨n + 1, hn⟩ Y X).mp hafter) (fun _ => ?_)
    have hfe : (cfg1.win 3).fetch ⟨n + 1, hn⟩ = false := (index_facts1 ⟨n + 1, hn⟩).2.2.2.2.2.2.2
    have hn' : n < cfg1.N := Nat.lt_of_succ_lt hn
    have e : (⟨(⟨n + 1, hn⟩ : Fin cfg1.N).val - 1, Nat.lt_of_le_of_lt (Nat.sub_le _ _) (⟨n + 1, hn⟩ : Fin cfg1.N).isLt⟩ : Fin cfg1.N) = ⟨n, hn'⟩ :=
      Fin.ext (by show n + 1 - 1 = n; omega)
    rcases ((rdat1 V c).finds_of_pos hfe (Nat.succ_ne_zero n) Y).mp hfinds with hfl | hL'
    · rw [e] at hfl
      have h255 := (flush1_3 ⟨n, hn'⟩).mp hfl
      have hlt : n + 1 < 256 := lt_of_lt_of_eq hn N_1
      exact absurd h255 (by show ¬ n % 256 = 255; omega)
    · rw [e] at hL'
      exact ih hn' Y hL'

/-- Whatever the body may leave at the one flushing point has, as its moved part, the whole of `G1_3`. -/
theorem flushed1_3_eq (c : Dev nD) (t : Fin cfg1.N) (X : (cfg1.win 3).block.Idx → Elt F (cfg1.win 3).elt)
    (hf : (cfg1.win 3).flush t = true) (hX : (rdat1 V c).Leaves 3 t X) :
    (cfg1.win 3).cut (cfg1.grid.coords t) X = ((cfg1.win 3).blk t).view.read (Elt F) (G1_3 V c) := by
  have h255 : t.val % 256 = 255 := (flush1_3 t).mp hf
  have ht := point1_lt t
  have hinv : Inv1_3 V c t.val X := leaves1_3_inv V c t.val t.isLt X hX
  refine funext fun (y : S4x8192.Idx) => ?_
  rw [View.read_apply]
  show X y = G1_3 V c (((cfg1.win 3).blk t).view.emb y)
  rw [blk1_3_emb]
  have hy1 : (y 1).val < 8192 := (y 1).isLt
  have hyy : y = ValueIdx.ix2 (y 0) (⟨512 * ((y 1).val / 512) + (y 1).val % 512, by omega⟩ : Fin 8192) :=
    (ValueIdx.eq_ix2 y).trans (congrArg (ValueIdx.ix2 (y 0)) (Fin.ext (by show (y 1).val = 512 * ((y 1).val / 512) + (y 1).val % 512; omega)))
  rw [hyy]
  have hG := G1_3_apply V c (y 0) (⟨(y 1).val / 512, by omega⟩ : Fin 16) (⟨(y 1).val % 512, Nat.mod_lt _ (by decide)⟩ : Fin 512)
  have hI := hinv (y 0) (⟨(y 1).val / 512, by omega⟩ : Fin 16) (⟨(y 1).val % 512, Nat.mod_lt _ (by decide)⟩ : Fin 512) 15 (by decide)
    (Or.inl ⟨by show (y 1).val / 512 ≤ t.val % 16; omega, by omega⟩)
  exact hI.trans hG.symm

/-- Every index of the array is in the last point's block, which is the whole array. -/
theorem cover1_3_arr (i : S4x8192.Idx) : ∃ t : Fin cfg1.N, (cfg1.win 3).flush t = true ∧ i ∈ ((cfg1.win 3).blk t).view.set := by
  have hlt : 255 < cfg1.N := lt_of_lt_of_eq (by decide : 255 < 256) N_1.symm
  refine ⟨⟨255, hlt⟩, (flush1_3 _).mpr (by show 255 % 256 = 255; omega), ?_⟩
  have hm := ((cfg1.win 3).blk ⟨255, hlt⟩).view.emb_mem_set i
  rw [blk1_3_emb] at hm
  exact hm

/-- Whatever the column output's array may hold after its one write-back is `G1_3`. -/
theorem final1_3 (c : Dev nD) (Fb : Buf (Elt F) ((cfg1.win 3).arr.view.loc (c.tc : Thread nD τ)))
    (h : (rdat1 V c).ArrAt 3 cfg1.N Fb) : Fb = G1_3 V c :=
  (rdat1 V c).ArrAt_eq_of_cover 3 (G1_3 V c) (fun t X hf hX => flushed1_3_eq V c t X hf hX) cover1_3_arr Fb h

end Cert.Kernel.Hand

end
-- ==== Proof.K.Exit1.lean ====
/-
  Region 1's four arrays at its exit, named, for any float instance.

  The two point clouds the region reads are never written back, so at the exit they are as the region found them; the
  row output holds `G1_2` and the column output `G1_3`, whatever contents the write-backs may have gone through on the
  way. So the arrays "at some contents they may hold after every write-back" are the arrays at these four contents.
-/
import proofs.«161975_j33079838114187_2_alg».proof.Proof.K.Final1
import proofs.«161975_j33079838114187_2_alg».proof.Proof.Gen.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What region 1's four arrays hold at its exit: the two inputs as found, the outputs at `G1_2` and `G1_3`. -/
def exit1 (c : Dev nD) : (w : Fin cfg1.W) → Buf (Elt F) ((cfg1.win w).arr.view.loc (c.tc : Thread nD τ))
  | ⟨0, _⟩ => V c (Pipeline.arrRef spec1 0)
  | ⟨1, _⟩ => V c (Pipeline.arrRef spec1 1)
  | ⟨2, _⟩ => G1_2 V c
  | ⟨3, _⟩ => G1_3 V c

/-- Whatever an array of region 1 may hold after every write-back is what `exit1` names. -/
theorem exit1_of_arrAt (c : Dev nD) (w : Fin cfg1.W) (Fb : Buf (Elt F) ((cfg1.win w).arr.view.loc (c.tc : Thread nD τ)))
    (h : (rdat1 V c).ArrAt w cfg1.N Fb) : Fb = exit1 V c w := by
  match w with
  | ⟨0, hw⟩ =>
    have e : (rdat1 V c).ArrAt ⟨0, hw⟩ cfg1.N Fb = (Fb = (rdat1 V c).A ⟨0, hw⟩) :=
      congrFun ((rdat1 V c).ArrAt_in ⟨0, hw⟩ rfl cfg1.N) Fb
    exact (Eq.mp e h).trans (rdat1_A V c ⟨0, hw⟩)
  | ⟨1, hw⟩ =>
    have e : (rdat1 V c).ArrAt ⟨1, hw⟩ cfg1.N Fb = (Fb = (rdat1 V c).A ⟨1, hw⟩) :=
      congrFun ((rdat1 V c).ArrAt_in ⟨1, hw⟩ rfl cfg1.N) Fb
    exact (Eq.mp e h).trans (rdat1_A V c ⟨1, hw⟩)
  | ⟨2, _⟩ => exact final1_2 V c Fb h
  | ⟨3, _⟩ => exact final1_3 V c Fb h

/-- The arrays after every write-back are the arrays at the contents `exit1` names. -/
theorem arraysAt1_named (c : Dev nD) : ((rdat1 V c).arraysAt cfg1.N : sProp 𝕄) ⊢ (rdat1 V c).arrays (exit1 V c) := by
  unfold RDat.arraysAt RDat.arrays
  exact BI.bigSep_mono fun w _ =>
    show iprop(∃ Fb, ⌜(rdat1 V c).ArrAt w cfg1.N Fb⌝ ∗ (cfg1.win w).arr.view.loc (c.tc : Thread nD τ) ↦[(cfg1.win w).arr.view.set]{(rdat1 V c).share w} Fb)
        ⊢ ((cfg1.win w).arr.view.loc (c.tc : Thread nD τ) ↦[(cfg1.win w).arr.view.set]{(rdat1 V c).share w} exit1 V c w : sProp 𝕄) from by
      iintro ⟨%Fb, %hF, H⟩; rw [exit1_of_arrAt V c w Fb hF]; iexact H

end Cert.Kernel.Hand

end
-- ==== Proof.K.Tail.lean ====
/-
  The kernel program's last host operations as ONE function of the three distance arrays, for any float instance.

  After the two kernel regions the program holds three arrays cp, ic, ci : [4, 8192] (the least squared distance from
  each complete point to the partial cloud, from each inferred point to the complete cloud, from each complete point
  to the inferred cloud) and computes on the host
      Σ ic / 32768  +  Σ (cp · ci / max cp) / 32768 ,
  the greatest entry of cp taken from the value of the −infinity word and put beside every entry by a broadcast, each
  sum taken from the zero word, 32768 the value of its word. `tailK` is that function, spelled operation by operation
  as the program spells it; the result buffer after the host operations is `tailK` of the three arrays' buffers
  before them, whatever else the memory holds.
-/
import proofs.«161975_j33079838114187_2_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]

/-- The loss from the three distance arrays: the mean of ic plus the mean of cp · ci / max cp, as the program's host
    operations after the two regions spell it. -/
def tailK (cp ic ci : FVec F S4x8192 .f32) : FVec F S_ .f32 :=
  addf
    (Host.divf
      (Host.reduceAdd ic (constant S_ .f32 0x00000000#32) reducesTo_S4x8192_S_d0_1 h_S_)
      (constant S_ .f32 0x47000000#32))
    (Host.divf
      (Host.reduceAdd
        (Host.divf (mulf cp ci)
          (broadcastInDim S4x8192 ![] bcast_S_S4x8192
            (Host.reduce FloatOps.maximumf cp (constant S_ .f32 0xFF800000#32) reducesTo_S4x8192_S_d0_1 h_S_)))
        (constant S_ .f32 0x00000000#32) reducesTo_S4x8192_S_d0_1 h_S_)
      (constant S_ .f32 0x47000000#32))

/-- The result buffer after the host operations is `tailK` of the three arrays' buffers before them. -/
theorem after_tail (W : Valuation τ sig (Elt F)) :
    StableHlo.after hostOps2 W (Proc.devRef .tc main_v10)
      = tailK (W (Proc.devRef .tc main_v0)) (W (Proc.devRef .tc main_v1_0)) (W (Proc.devRef .tc main_v1_1)) := by
  after_results
  rfl

end Cert.Kernel.Hand

end
-- ==== Proof.K.Run.lean ====
/- The whole program's run with its result named, for any float instance: the two kernel regions and the host
   operations after them as segments over the thread state "every unscoped buffer at the boundary's contents", the
   contents at each boundary given in closed form (region 0's result array at its tile function, region 1's two result
   arrays at theirs), and the last buffer read back as one function of those three arrays. -/
import proofs.«161975_j33079838114187_2_alg».proof.Proof.Gen.Kernel.Launch
import proofs.«161975_j33079838114187_2_alg».proof.Proof.Gen.Kernel.Skeleton
import proofs.«161975_j33079838114187_2_alg».proof.Proof.Gen.Kernel.Points
import proofs.«161975_j33079838114187_2_alg».proof.Proof.Gen.Kernel.Regions
import proofs.«161975_j33079838114187_2_alg».proof.Proof.K.Body0
import proofs.«161975_j33079838114187_2_alg».proof.Proof.K.Final0
import proofs.«161975_j33079838114187_2_alg».proof.Proof.K.Data1
import proofs.«161975_j33079838114187_2_alg».proof.Proof.K.Body1
import proofs.«161975_j33079838114187_2_alg».proof.Proof.K.Exit1
import proofs.«161975_j33079838114187_2_alg».proof.Proof.K.Tail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, as a valuation of every buffer, -/
abbrev WA : Dev nD → Valuation τ sig (Elt F) := fun c b => m (c, b)
/-- and read at the TensorCore's references (what region 0's proof data take). -/
abbrev VA : (c : Dev nD) → (b : Ref sig .tc) → Buf (Elt F) ((c : Thread nD τ).loc b) := fun c b => WA m c b

/-- What region 0 leaves in its three arrays: the two inputs as found, the result at its tile function. -/
def exit0 (c : Dev nD) : (w : Fin cfg0.W) → Buf (Elt F) ((spec0 w).arr.view.loc (c.tc : Thread nD τ))
  | ⟨0, _⟩ => VA m c (Pipeline.arrRef spec0 0)
  | ⟨1, _⟩ => VA m c (Pipeline.arrRef spec0 1)
  | ⟨2, _⟩ => G0 (VA m) c

/-- At region 0's exit: its arrays at `exit0`, every other buffer as launched. -/
def WB (c : Dev nD) : Valuation τ sig (Elt F) := Pipeline.withArrays spec0 c (WA m c) (exit0 m c)
/-- The same read at the TensorCore's references (what region 1's proof data take). -/
abbrev VB : (c : Dev nD) → (b : Ref sig .tc) → Buf (Elt F) ((c : Thread nD τ).loc b) := fun c b => WB m c b

theorem WB_arr (c : Dev nD) (w : Fin cfg0.W) : WB m c (Proc.devRef .tc (Pipeline.arrRef spec0 w)) = exit0 m c w := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb

/-- What the pipeline's write-backs leave in region 0's arrays is `exit0`: the result array by the cover of its
    tiles, the inputs because an input window is never written back. -/
theorem arrAt0_exit (c : Dev nD) (w : Fin cfg0.W) : (dat0 (VA m) c).arrAt w cfg0.N = exit0 m c w := by
  match w with
  | ⟨0, _⟩ => exact arrAt0_in (VA m) c 0 (Or.inl rfl)
  | ⟨1, _⟩ => exact arrAt0_in (VA m) c 1 (Or.inr rfl)
  | ⟨2, _⟩ => exact final0 (VA m) c

theorem hF0 (c : Dev nD) (w : Fin cfg0.W) : (dat0 (VA m) c).arrAt w cfg0.N = VB m c (Pipeline.arrRef spec0 w) :=
  (arrAt0_exit m c w).trans (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- Region 1's two input arrays are as launched when it is entered: region 0 stages other arrays. -/
theorem VB_main_arg1 (c : Dev nD) : VB m c main_arg1 = m ((c.tc : Thread nD τ).loc main_arg1) :=
  WB_of_ne m c main_arg1 (by decide)

/-- `main_arg2` is region 0's second input array: at region 0's exit it holds what it held at launch. -/
theorem VB_main_arg2 (c : Dev nD) : VB m c main_arg2 = m ((c.tc : Thread nD τ).loc main_arg2) :=
  WB_arr m c 1

/-! ## The proof data family and the thread state -/

/-- Every pipeline's proof data, each at its region's entry contents: region 0's exact data read as relational
    data, region 1's relational data — a literal `match`, so that the family at a numeral reduces. -/
def rdats : (p : Fin 2) → (c : Dev nD) → RDat τ (Elt F) Unit ℕ (UR sig nD τ) ℕ (Pipeline.pin (pcfgs (F := F)) adm p) c
  | ⟨0, _⟩ => fun c => (dat0 (VA m) c).toR
  | ⟨1, _⟩ => fun c => rdat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, at nothing. -/
abbrev R (c : Dev nD) : sProp 𝕄 := iprop((∃ r, prngReg c r) ∗ ∃ W, owes (c : Thread nD τ) (0 : CellTallies nD τ sig Unit) W)

/-- A pipeline's arrays at contents `A` and the unscoped rest at `V` are the core's unscoped buffers at any valuation
    `V'` that has the arrays at `A` and agrees with `V` off them — for a family of relational proof data. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the launch contents, left at `WB`. Its
    arrays are split out of the unscoped buffers and put back at the exit contents; the generator register goes into
    the class invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (VA m) c).loose).toR
  hwaits := Pipeline.RDat.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VA m c) fun _ => rfl
    rw [Pipeline.unscopedBufs_held] at hsplit
    rw [show (rdats m 0 c).owesAt () 0 = (dat0 (VA m) c).owesAt () 0 from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((dat0 (VA m) c).arrays ((dat0 (VA m) c).arrAt · cfg0.N) : sProp 𝕄)
          ∗ Pipeline.unscopedRest (Ix := Unit) (Name := ℕ) (U := UR sig nD τ) (Lvl := ℕ) spec0 c (VA m c))
        ⊢ (StableHlo.held (c : Thread nD τ) (Pipeline.ucRefs τ sig) (WB m c) : sProp 𝕄) := by
      have h := unscopedBufs_of_arraysR (p := 0) launch0.win launch0.arr_whole c (rdats m) ((rdats m 0 c).share_full fun _ => rfl)
        (VA m c) (VB m c) ((dat0 (VA m) c).arrAt · cfg0.N) (hF0 m c) (hrest0 m c)
      rw [Pipeline.unscopedBufs_held] at h
      exact h
    rw [show (rdats m 0 c).arraysAt (Pipeline.pin (pcfgs (F := F)) adm 0).N = ((dat0 (VA m) c).arrays ((dat0 (VA m) c).arrAt · cfg0.N) : sProp 𝕄)
        from (dat0 (VA m) c).toR_arraysAt_eq cfg0.N,
      show (rdats m 0 c).owesAt () (Fin.last (Pipeline.pin (pcfgs (F := F)) adm 0).N) = (dat0 (VA m) c).owesAt () (Fin.last cfg0.N) from rfl]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's exit contents and region 1 as a segment -/

/-- At region 1's exit: its arrays at what it leaves, every other buffer as at its entry. -/
def WC (c : Dev nD) : Valuation τ sig (Elt F) := Pipeline.withArrays spec1 c (WB m c) (exit1 (VB m) c)
abbrev VC : (c : Dev nD) → (b : Ref sig .tc) → Buf (Elt F) ((c : Thread nD τ).loc b) := fun c b => WC m c b

theorem WC_arr (c : Dev nD) (w : Fin cfg1.W) : WC m c (Proc.devRef .tc (Pipeline.arrRef spec1 w)) = exit1 (VB m) c w := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
theorem hF1 (c : Dev nD) (w : Fin cfg1.W) : exit1 (VB m) c w = VC m c (Pipeline.arrRef spec1 w) := (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

set_option backward.isDefEq.respectTransparency.types false in
/-- Region 1 over the thread state: entered from every unscoped buffer at `WB`, left at `WC`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (VB m) c
  hwaits := Pipeline.RDat.hwaits_of_owed_zero _ _ _ _ L lv 1 fun c t => rdat1_owed (VB m) c t
  pre c := iprop(StableHlo.held (c : Thread nD τ) (Pipeline.ucRefs τ sig) (WB m c) ∗ R c)
  post c := iprop(StableHlo.held (c : Thread nD τ) (Pipeline.ucRefs τ sig) (WC m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VB m c) fun w => rdat1_A (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 1 c).owesAt () 0 = (rdat1 (VB m) c).owesAt () 0 from rfl]
      unfold Pipeline.RDat.owesAt Pipeline.owesWithin
      rw [rdat1_owed]
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (hin1 (VB m) c)
  hout c := by
    rw [Pipeline.ownSems0_none]
    have hA : (Pipeline.ΦA spec1 c : sProp 𝕄) ⊢ iprop((∃ r, prngReg c r) ∗ BI.emp
          ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (VB m) c).trans hA
  hexit c := by
    have hjoin : iprop(((rdat1 (VB m) c).arrays (exit1 (VB m) c) : sProp 𝕄)
          ∗ Pipeline.unscopedRest (Ix := Unit) (Name := ℕ) (U := UR sig nD τ) (Lvl := ℕ) spec1 c (VB m c))
        ⊢ (StableHlo.held (c : Thread nD τ) (Pipeline.ucRefs τ sig) (WC m c) : sProp 𝕄) := by
      have h := unscopedBufs_of_arraysR (p := 1) launch1.win launch1.arr_whole c (rdats m) ((rdats m 1 c).share_full fun _ => rfl)
        (VB m c) (VC m c) (exit1 (VB m) c) (hF1 m c) (hrest1 m c)
      rw [Pipeline.unscopedBufs_held] at h
      exact h
    rw [show (rdats m 1 c).arraysAt (Pipeline.pin (pcfgs (F := F)) adm 1).N = ((rdat1 (VB m) c).arraysAt cfg1.N : sProp 𝕄) from rfl,
      show (rdats m 1 c).owesAt () (Fin.last (Pipeline.pin (pcfgs (F := F)) adm 1).N) = (rdat1 (VB m) c).owesAt () (Fin.last cfg1.N) from rfl]
    iintro ⟨Ha, HO, HY, Hrest⟩
    ihave Ha' := (arraysAt1_named (VB m) c) $$ Ha
    imodintro
    isplitl [Ha' Hrest]
    · iapply hjoin; isplitl [Ha'] <;> iassumption
    isplitl [HY]; · iexact HY
    unfold Pipeline.RDat.owesAt Pipeline.owesWithin
    rw [rdat1_owed]
    icases HO with ⟨%W, -, HO⟩; iexists W; iexact HO

/-! ## The last boundary: after the host operations -/

/-- After the host operations (what the launch reads at the end). -/
abbrev WD : Dev nD → Valuation τ sig (Elt F) := fun c => StableHlo.after hostOps2 (WC m c)

/-- At region 1's exit region 0's result array still holds its tile function: region 1 stages other arrays. -/
theorem WC_main_v0 (c : Dev nD) : WC m c (Proc.devRef .tc main_v0) = G0 (VA m) c :=
  (WC_of_ne m c main_v0 (by decide)).trans (WB_arr m c 2)
/-- Region 1's two result arrays at its exit. -/
theorem WC_main_v1_0 (c : Dev nD) : WC m c (Proc.devRef .tc main_v1_0) = G1_2 (VB m) c := WC_arr m c 2
theorem WC_main_v1_1 (c : Dev nD) : WC m c (Proc.devRef .tc main_v1_1) = G1_3 (VB m) c := WC_arr m c 3

/-- The program's result buffer after the run: the host operations' function of the three arrays the regions leave. -/
theorem WD_main_v10 (c : Dev nD) :
    WD m c (Proc.devRef .tc main_v10) = tailK (G0 (VA m) c) (G1_2 (VB m) c) (G1_3 (VB m) c) := by
  show StableHlo.after hostOps2 (WC m c) (Proc.devRef .tc main_v10) = _
  rw [after_tail (WC m c), WC_main_v0, WC_main_v1_0, WC_main_v1_1]

/-- No host operation writes an argument, region 1 only reads `main_arg1` and `main_arg2`, region 0 only reads
    `main_arg0` and `main_arg2`: each argument ends as launched. -/
theorem WD_main_arg0 (c : Dev nD) : WD m c (Proc.devRef .tc main_arg0) = m ((c.tc : Thread nD τ).loc main_arg0) :=
  (StableHlo.after_of_writes_sub hostOps2 _ hostOps2_writes (by decide : main_arg0 ∉ hostOps2_W)).trans
    ((WC_of_ne m c main_arg0 (by decide)).trans (WB_arr m c 0))
theorem WD_main_arg1 (c : Dev nD) : WD m c (Proc.devRef .tc main_arg1) = m ((c.tc : Thread nD τ).loc main_arg1) :=
  (StableHlo.after_of_writes_sub hostOps2 _ hostOps2_writes (by decide : main_arg1 ∉ hostOps2_W)).trans
    ((WC_arr m c 0).trans (VB_main_arg1 m c))
theorem WD_main_arg2 (c : Dev nD) : WD m c (Proc.devRef .tc main_arg2) = m ((c.tc : Thread nD τ).loc main_arg2) :=
  (StableHlo.after_of_writes_sub hostOps2 _ hostOps2_writes (by decide : main_arg2 ∉ hostOps2_W)).trans
    ((WC_arr m c 1).trans (VB_main_arg2 m c))

/-! ## @main as segments, and the launch -/

/-- The host stretch after the regions as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last boundary's contents, the
    generator register at some state. -/
abbrev Tₙ (c : Dev nD) : sProp 𝕄 := iprop(StableHlo.held (c : Thread nD τ) (Pipeline.ucRefs τ sig) (WD m c) ∗ ∃ r, prngReg c r)

/-- @main's three segments in order: the two regions, then the host stretch from region 1's exit contents. -/
abbrev segs : List (Pipeline.RDat.Seg (pcfgs (F := F)) adm (rdats m) () defs₀ 𝒱₀ L lv) :=
  [ .region (reg0 m),
    .region (reg1 m),
    .host (hseg hostOps2 hostOps2_sub hostOps2_fresh (WC m)) ]

/-- @main is the run of the segments. -/
theorem main_run (c : Dev nD) : main (F := F) c = Pipeline.RDat.Seg.run (segs m) := (main_chain c).trans (by chain_rfl)

set_option backward.isDefEq.respectTransparency.types false in
/-- The run, read: at the compiled mesh, from any memory with zero counters, every weakly fair execution of @main on
    the TensorCores terminates, nothing faulting, and every final state has the result buffer at the host operations'
    function of the three arrays the regions leave, and the argument arrays as launched. -/
theorem run_main : θ_run defs (onTc (τ := τ) (main (F := F))) ⟨m, fun _ => 0, ρ⟩ (fun r => ∀ c : Dev nD,
      r.2.mem ((c.tc : Thread nD τ).loc main_v10) = tailK (G0 (VA m) c) (G1_2 (VB m) c) (G1_3 (VB m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun c => by
      show iprop(StableHlo.held (c : Thread nD τ) (Pipeline.ucRefs τ sig) (WD m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h c =>
      ⟨(h c _ (mem_uc main_v10 (by decide))).trans (WD_main_v10 m c),
       (h c _ (mem_uc main_arg0 (by decide))).trans (WD_main_arg0 m c),
       (h c _ (mem_uc main_arg1 (by decide))).trans (WD_main_arg1 m c),
       (h c _ (mem_uc main_arg2 (by decide))).trans (WD_main_arg2 m c)⟩)

end Cert.Kernel.Hand

end
-- ==== Proof.KI.Body0.lean ====
/- Region 0 of the program (the distance kernel's pipeline), class A, generic in the float instance:
   the windows' blocks at a point, what the body leaves in the output window's buffer, the body's triple, the
   pipeline's proof data at a parameter `V` (the TensorCore's buffer contents when the region is entered), and the
   body obligation at every point. -/
import proofs.«161975_j33079838114187_2_alg».proof.Proof.Gen.KernelIdeal.Launch
import proofs.«161975_j33079838114187_2_alg».proof.Proof.Gen.KernelIdeal.Skeleton
import proofs.«161975_j33079838114187_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents unfolds once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, which is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S4x2048x3 := Rect.unit (s := S4x2048x3) ![0, 0, 0] S4x2048x3.size inb_S4x2048x3_S4x2048x3_0_0_0
abbrev r0_1 : Rect S4x256x3 := Rect.unit (s := S4x256x3) ![0, 0, 0] S4x256x3.size inb_S4x256x3_S4x256x3_0_0_0
abbrev r0_2 : Rect S4x256 := Rect.unit (s := S4x256) ![0, 0] S4x256.size inb_S4x256_S4x256_0_0

/-! ## What the body leaves in the output window's buffer -/

/-- Window 2's staging buffer after the body, from the input windows' blocks: its one store as a piece. -/
def out0_2 (x0 : Vec F S4x2048x3 .f32) (x1 : Vec F S4x256x3 .f32) : Vec F S4x256 .f32 :=
  View.canon [⟨r0_2, k0_pay1 (View.ld x0 r0_0) (View.ld x1 r0_1)⟩]

/-- The one store fills the buffer. -/
theorem cover0_2 (p0 : Vec F S4x256 .f32) (y : S4x256.Idx) :
    ∃ pc ∈ ([⟨r0_2, p0⟩] : List (View.Piece (Elt F) S4x256 .f32)), y ∈ pc.1.set :=
  View.cover_of_tiled [⟨r0_2, p0⟩] S4x256.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords)
    (arg1 : Memref sig .tc .vmem S4x2048x3 .f32) (harg1 : arg1.IsWhole)
    (arg2 : Memref sig .tc .vmem S4x256x3 .f32) (harg2 : arg2.IsWhole)
    (arg3 : Memref sig .tc .vmem S4x256 .f32) (harg3 : arg3.IsWhole)
    (x0 : Vec F S4x2048x3 .f32) (x1 : Vec F S4x256x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dist_cp_kernel i arg1 harg1 arg2 harg2 arg3 harg3) K := by
  simp only [cc0__dist_cp_kernel_eq_skeleton]; unfold cc0__dist_cp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! ## The output buffer after the body is the payload of the blocks -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- One store that fills the buffer leaves its payload, and a load through the whole rectangle reads the contents:
    the output buffer after the body is the payload of the two input blocks. -/
theorem out0_2_eq (x0 : Vec F S4x2048x3 .f32) (x1 : Vec F S4x256x3 .f32) : out0_2 x0 x1 = k0_pay1 x0 x1 := by
  unfold out0_2
  rw [View.canon_unit_zero hz2]
  rw [View.ld_unit_zero (S := S4x2048x3) hz3, View.ld_unit_zero (S := S4x256x3) hz3]

end Cert.KernelIdeal.Hand

end
-- ==== Proof.KI.Final0.lean ====
/- Region 0's output array after the run, as one function of the arrays the region finds, tile by tile. Each
   point writes one [4,256] tile of the [4,8192] result; tile `t` is the body's payload (kept as one named function,
   never opened here) of the whole first argument and of the `t`-th [4,256,3] block of the second. The tiles cover the
   array, so the array ends holding that function; the two input arrays are never written back. -/
import proofs.«161975_j33079838114187_2_alg».proof.Proof.KI.Body0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The grid and the printed index maps -/

/-- A point of the grid is below 32. -/
theorem point0_lt (t : Fin cfg0.N) : t.val < 32 := lt_of_lt_of_eq t.isLt N_0

/-- Tile `t` of 32 as a point of the grid. -/
theorem tile0_lt (t : Fin 32) : t.val < cfg0.N := lt_of_lt_of_eq t.isLt N_0.symm

/-- The printed index maps, decided over the grid: the first argument's window stays at block (0, 0, 0); the second
    argument's moves along axis 1 with the point; the result's moves along axis 1 with the point. -/
theorem index_facts0 : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-! ## The result array as one function -/

/-- Tile `T` of the result: what the body leaves in the output buffer at point `T`, from the two input blocks there. -/
def tile0 (V : (c : Dev nD) → (b : Ref sig .tc) → Buf (Elt F) ((c : Thread nD τ).loc b)) (c : Dev nD) (T : Fin cfg0.N) : Vec F S4x256 .f32 :=
  out0_2 (iblk0 V c 0 T) (iblk0 V c 1 T)

/-- The point whose tile holds column `r` of the result: `r / 256`. -/
theorem col_tile_lt (j : S4x8192.Idx) : (j 1).val / 256 < cfg0.N := by
  have h : (j 1).val < 8192 := (j 1).isLt
  exact lt_of_lt_of_eq (by omega : (j 1).val / 256 < 32) N_0.symm

/-- The result array, index by index: at row `j 0` and column `j 1`, tile `j 1 / 256` at position `j 1 % 256`. -/
def G0 (V : (c : Dev nD) → (b : Ref sig .tc) → Buf (Elt F) ((c : Thread nD τ).loc b)) (c : Dev nD) : Vec F S4x8192 .f32 := fun j =>
  tile0 V c ⟨(j 1).val / 256, col_tile_lt j⟩ (ix2 (j 0 : Fin 4) (⟨(j 1).val % 256, Nat.mod_lt _ (by decide)⟩ : Fin 256))

variable (V : (c : Dev nD) → (b : Ref sig .tc) → Buf (Elt F) ((c : Thread nD τ).loc b))

/-- Read at row `b`, column `256 T + q`: tile `T` at `(b, q)`. -/
theorem G0_tile (c : Dev nD) (T : Fin cfg0.N) (b : Fin 4) (q : Fin 256) :
    G0 V c (ix2 b (⟨256 * T.val + q.val, by have := point0_lt T; have := q.isLt; omega⟩ : Fin 8192)) = tile0 V c T (ix2 b q) := by
  have hT := point0_lt T
  have hq := q.isLt
  have h1 : (⟨(256 * T.val + q.val) / 256, col_tile_lt (ix2 b (⟨256 * T.val + q.val, by omega⟩ : Fin 8192))⟩ : Fin cfg0.N) = T :=
    Fin.ext (by show (256 * T.val + q.val) / 256 = T.val; omega)
  have h2 : (⟨(256 * T.val + q.val) % 256, Nat.mod_lt _ (by decide)⟩ : Fin 256) = q :=
    Fin.ext (by show (256 * T.val + q.val) % 256 = q.val; omega)
  show tile0 V c ⟨(256 * T.val + q.val) / 256, _⟩ (ix2 b (⟨(256 * T.val + q.val) % 256, _⟩ : Fin 256)) = _
  rw [h1, h2]

/-- The same over tiles numbered below 32, with the payload in place of the buffer it fills. -/
theorem G0_apply (c : Dev nD) (b : Fin 4) (t : Fin 32) (q : Fin 256) :
    G0 V c (ix2 b (⟨256 * t.val + q.val, by have := t.isLt; have := q.isLt; omega⟩ : Fin 8192))
      = k0_pay1 (iblk0 V c 0 ⟨t.val, tile0_lt t⟩) (iblk0 V c 1 ⟨t.val, tile0_lt t⟩) (ix2 b q) := by
  have h := G0_tile V c ⟨t.val, tile0_lt t⟩ b q
  rw [show tile0 V c ⟨t.val, tile0_lt t⟩ = k0_pay1 (iblk0 V c 0 ⟨t.val, tile0_lt t⟩) (iblk0 V c 1 ⟨t.val, tile0_lt t⟩) from out0_2_eq _ _] at h
  exact h

/-! ## The input blocks, read at an index -/

/-- The first argument's window holds the whole array at every point. -/
theorem iblk0_0_apply (c : Dev nD) (t : Fin cfg0.N) (b : Fin 4) (n : Fin 2048) (k : Fin 3) :
    (iblk0 V c 0 t : Vec F S4x2048x3 .f32) (ix3 b n k) = (V c main_arg0 : S4x2048x3.Idx → Elt F .f32) (ix3 b n k) := by
  obtain ⟨e0, e1, e2, -⟩ := index_facts0 t
  unfold iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 2048 + 1 * n.val = n.val; rw [e1]; omega
  | ⟨2, _⟩ => show win0_0.index t (2 : Fin 3) * 3 + 1 * k.val = k.val; rw [e2]; omega

/-- The second argument's window at point `t` holds rows `256 t … 256 t + 255` (axis 1) of the array. -/
theorem iblk0_1_apply (c : Dev nD) (t : Fin cfg0.N) (b : Fin 4) (q : Fin 256) (k : Fin 3) :
    (iblk0 V c 1 t : Vec F S4x256x3 .f32) (ix3 b q k)
      = (V c main_arg2 : S4x8192x3.Idx → Elt F .f32) (ix3 b (⟨256 * t.val + q.val, by have := point0_lt t; have := q.isLt; omega⟩ : Fin 8192) k) := by
  obtain ⟨-, -, -, e0, e1, e2, -⟩ := index_facts0 t
  unfold iblk0
  rw [View.read_apply]
  show V c main_arg2 _ = V c main_arg2 _
  congr 1
  funext a
  apply Fin.ext
  match a with
  | ⟨0, _⟩ => show win0_1.index t (0 : Fin 3) * 4 + 1 * b.val = b.val; rw [e0]; omega
  | ⟨1, _⟩ => show win0_1.index t (1 : Fin 3) * 256 + 1 * q.val = 256 * t.val + q.val; rw [e1]; omega
  | ⟨2, _⟩ => show win0_1.index t (2 : Fin 3) * 3 + 1 * k.val = k.val; rw [e2]; omega

/-! ## What each point writes back, the cover, and the array after the run -/

/-- An element of the result's block at point `t` sits at row `y 0`, column `256 t + y 1` of the array. -/
theorem blk0_2_emb (t : Fin cfg0.N) (y : S4x256.Idx) :
    (((cfg0.win 2).blk t).view.emb y : S4x8192.Idx)
      = ix2 (y 0 : Fin 4) (⟨256 * t.val + (y 1).val, by have := point0_lt t; have : (y 1).val < 256 := (y 1).isLt; omega⟩ : Fin 8192) := by
  obtain ⟨-, -, -, -, -, -, e0, e1⟩ := index_facts0 t
  funext a
  apply Fin.ext
  match a with
  | ⟨0, _⟩ => show win0_2.index t (0 : Fin 2) * 4 + 1 * (y 0).val = (y 0).val; rw [e0]; omega
  | ⟨1, _⟩ => show win0_2.index t (1 : Fin 2) * 256 + 1 * (y 1).val = 256 * t.val + (y 1).val; rw [e1]; omega

/-- What point `t` writes back is block `t` of `G0`. -/
theorem flushed0_2_eq (c : Dev nD) (t : Fin cfg0.N) :
    (dat0 V c).flushed 2 t = ((cfg0.win 2).blk t).view.read (Elt F) (G0 V c) := by
  show (cfg0.win 2).cut (grid0.coords t) ((dat0 V c).after 2 t) = _
  rw [after0_2]
  refine funext fun (y : S4x256.Idx) => ?_
  rw [View.read_apply]
  show tile0 V c t y = G0 V c (((cfg0.win 2).blk t).view.emb y)
  rw [blk0_2_emb]
  exact ((G0_tile V c t (y 0) (y 1)).trans (congrArg (tile0 V c t) (eq_ix2 y).symm)).symm

/-- An index of the array is in point `t`'s block iff each coordinate is in the block's range on its axis. -/
theorem mem_blk0_2 (t : Fin cfg0.N) (i : S4x8192.Idx) :
    i ∈ ((cfg0.win 2).blk t).view.set ↔ ∀ a : Fin 2, win0_2.index t a * S4x256.size a ≤ (i a).val ∧ (i a).val < win0_2.index t a * S4x256.size a + S4x256.size a := by
  show i ∈ ((View.whole main_v0).slice (win0_2.rect t)).set ↔ _
  rw [View.set_slice_whole, Rect.mem_set_unit]
  exact Iff.rfl

/-- Every index of the array is in some point's block: column `r` is in tile `r / 256`. -/
theorem cover0_2_arr (i : S4x8192.Idx) : ∃ t : Fin cfg0.N, (cfg0.win 2).flush t = true ∧ i ∈ ((cfg0.win 2).blk t).view.set := by
  have h0 : (i 0).val < 4 := (i 0).isLt
  have h1 : (i 1).val < 8192 := (i 1).isLt
  refine ⟨⟨(i 1).val / 256, col_tile_lt i⟩, flush0_2 _, ?_⟩
  obtain ⟨-, -, -, -, -, -, e0, e1⟩ := index_facts0 ⟨(i 1).val / 256, col_tile_lt i⟩
  rw [mem_blk0_2]
  intro a
  match a with
  | ⟨0, _⟩ =>
    show win0_2.index ⟨(i 1).val / 256, col_tile_lt i⟩ (0 : Fin 2) * 4 ≤ (i 0).val ∧ (i 0).val < win0_2.index ⟨(i 1).val / 256, col_tile_lt i⟩ (0 : Fin 2) * 4 + 4
    rw [e0]; omega
  | ⟨1, _⟩ =>
    show win0_2.index ⟨(i 1).val / 256, col_tile_lt i⟩ (1 : Fin 2) * 256 ≤ (i 1).val ∧ (i 1).val < win0_2.index ⟨(i 1).val / 256, col_tile_lt i⟩ (1 : Fin 2) * 256 + 256
    rw [e1]; show (i 1).val / 256 * 256 ≤ (i 1).val ∧ (i 1).val < (i 1).val / 256 * 256 + 256; omega

/-- The result array after the run is `G0`. -/
theorem final0 (c : Dev nD) : (dat0 V c).arrAt 2 cfg0.N = G0 V c :=
  (dat0 V c).arrAt_eq_of_cover 2 (G0 V c) (fun t _ => flushed0_2_eq V c t) cover0_2_arr

/-- The two input arrays are never written back: after the run they are as the region found them. -/
theorem arrAt0_in (c : Dev nD) (w : Fin cfg0.W) (hw : w = 0 ∨ w = 1) : (dat0 V c).arrAt w cfg0.N = V c (Pipeline.arrRef spec0 w) := by
  rcases hw with rfl | rfl
  · exact ((dat0 V c).arrAt_in 0 rfl _).trans (A_eq0 V c 0)
  · exact ((dat0 V c).arrAt_in 1 rfl _).trans (A_eq0 V c 1)

end Cert.KernelIdeal.Hand

end
-- ==== Proof.KI.Runs1.lean ====
/-
  Region 1 (the two-sided minimum-distance kernel over a 16 × 16 grid of 512-point tiles): what its case runs share.
  A grid point is t = 16·ni + mi: tile ni of the first cloud against tile mi of the second. The body branches five
  times on the coordinates: the row-minimum accumulator is seeded when mi = 0 and refined when mi ≠ 0, copied out when
  mi = 15; the resident column-minimum buffer has its mi-th 512-slice seeded when ni = 0 and refined when ni ≠ 0. Each
  condition is decided over the 256 points in closed form.
-/
import proofs.«161975_j33079838114187_2_alg».proof.Proof.Gen.KernelIdeal.Launch
import proofs.«161975_j33079838114187_2_alg».proof.Proof.Gen.KernelIdeal.Skeleton
import proofs.«161975_j33079838114187_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branch conditions, from the grid coordinates -/

/-- The accumulator is seeded: mi = 0. -/
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)

/-- The accumulator is refined: mi ≠ 0. -/
abbrev cond1_2 (i : grid1.Coords) : Prop := (Scalar.cmpi .ne (Scalar.extui (Scalar.cmpi .ne (BitVec.ofNat 32 (i 1).val) 0#32)) 0#32) = 1#1
theorem hcond1_2 : ∀ t : Fin cfg1.N, cond1_2 (grid1.coords t) ↔ t.val % 16 ≠ 0 :=
  (by decide +kernel : ∀ t : Fin grid1.N, cond1_2 (grid1.coords t) ↔ t.val % 16 ≠ 0)

/-- The accumulator is copied out: mi = 15. -/
abbrev cond1_3 (i : grid1.Coords) : Prop := k1_cond3 i = 1#1
theorem hcond1_3 : ∀ t : Fin cfg1.N, cond1_3 (grid1.coords t) ↔ t.val % 16 = 15 :=
  (by decide +kernel : ∀ t : Fin grid1.N, cond1_3 (grid1.coords t) ↔ t.val % 16 = 15)

/-- The column slice is seeded: ni = 0. -/
abbrev cond1_4 (i : grid1.Coords) : Prop := k1_cond4 i = 1#1
theorem hcond1_4 : ∀ t : Fin cfg1.N, cond1_4 (grid1.coords t) ↔ t.val < 16 :=
  (by decide +kernel : ∀ t : Fin grid1.N, cond1_4 (grid1.coords t) ↔ t.val < 16)

/-- The column slice is refined: ni ≠ 0. -/
abbrev cond1_5 (i : grid1.Coords) : Prop := k1_cond5 i = 1#1
theorem hcond1_5 : ∀ t : Fin cfg1.N, cond1_5 (grid1.coords t) ↔ 16 ≤ t.val :=
  (by decide +kernel : ∀ t : Fin grid1.N, cond1_5 (grid1.coords t) ↔ 16 ≤ t.val)

/-! ## The memrefs the body is called with -/

abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x8192 .f32 := win1_3.stage (cfg1.slots t 3)
abbrev hs1_3 (t : Fin cfg1.N) : (ms1_3 t).IsWhole := hstage1_3 ((cfg1.slots t 3).cast nbuf1_3)
/-- The row-minimum accumulator: a whole scoped buffer of the kernel's own. -/
abbrev scM1 : Memref sig .tc .vmem S4x512 .f32 := Memref.whole cc1_scratch0

/-- The region's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KI.Data1.lean ====
/-
  Region 1's proof data, for any float instance: what the two-sided minimum-distance kernel leaves, point by point.

  At grid point t = 16·ni + mi the body sees tile ni of the first cloud and tile mi of the second, and computes the
  512 × 512 squared distances of the pair; `rowMin1` is their minimum along the second tile (one value per point of
  the first) and `colMin1` along the first. The accumulator (a scratch buffer carried from point to point) holds after
  point t the running minimum of the row minima of the points 16·ni … t (`acc1`): seeded when mi = 0, refined
  otherwise. The row output's staging buffer receives the accumulator when mi = 15 and is left alone otherwise; the
  column output's staging buffer, resident over the whole grid, has its mi-th 512-slice seeded with the column minima
  when ni = 0 and refined with them when ni ≠ 0, the rest of it left as found. What a buffer holds after a point is
  stated relative to what the point found there, since the resident buffer is never overwritten whole.
-/
import proofs.«161975_j33079838114187_2_alg».proof.Proof.KI.Runs1
import proofs.«161975_j33079838114187_2_alg».proof.Proof.LibOverlayStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row minima of the tile pair at point `t`. -/
def rowMin1 (c : Dev nD) (t : Fin cfg1.N) : Vec F S4x512 .f32 := k1_pay5 (iblk1 V c 0 t) (iblk1 V c 1 t)
/-- The column minima of the tile pair at point `t`. -/
def colMin1 (c : Dev nD) (t : Fin cfg1.N) : Vec F S4x512 .f32 := k1_pay6 (iblk1 V c 0 t) (iblk1 V c 1 t)

/-- The accumulator after point `n`: seeded with the row minima where mi = 0, else refined by them. -/
def acc1 (c : Dev nD) : (n : ℕ) → n < cfg1.N → Vec F S4x512 .f32
  | 0, hn => k1_pay1 (rowMin1 V c ⟨0, hn⟩)
  | n + 1, hn =>
    if (n + 1) % 16 = 0 then k1_pay1 (rowMin1 V c ⟨n + 1, hn⟩)
    else k1_pay2 (rowMin1 V c ⟨n + 1, hn⟩) (acc1 c n (Nat.lt_of_succ_lt hn))

theorem acc1_seed (c : Dev nD) (t : Fin cfg1.N) (h : t.val % 16 = 0) : acc1 V c t.val t.isLt = k1_pay1 (rowMin1 V c t) := by
  obtain ⟨n, hn⟩ := t
  cases n with
  | zero => rfl
  | succ n => exact if_pos h

theorem acc1_step (c : Dev nD) (t : Fin cfg1.N) (h : t.val % 16 ≠ 0) :
    acc1 V c t.val t.isLt = k1_pay2 (rowMin1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant with the accumulator at given contents `S`: the other scoped buffers at anything, the
    generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_with (c : Dev nD) : (Pipeline.ΦA spec1 c : sProp 𝕄) = PhiWith1 c iprop(∃ d, owns (c : Thread nD τ) scM1 fullShare d) :=
  PhiA1_eq c

/-- The invariant before position `n`: at the start the accumulator at anything; afterwards at `acc1` of the point before. -/
def PhiS1 (c : Dev nD) : (n : ℕ) → n ≤ cfg1.N → sProp 𝕄
  | 0, _ => Pipeline.ΦA spec1 c
  | n + 1, hn => PhiWith1 c (owns (c : Thread nD τ) scM1 fullShare (acc1 V c n hn))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith1 c (owns (c : Thread nD τ) scM1 fullShare (acc1 V c n hn)) := rfl
theorem PhiS1_pos (c : Dev nD) (n : ℕ) (h : n ≤ cfg1.N) (hz : n ≠ 0) :
    PhiS1 V c n h = PhiWith1 c (owns (c : Thread nD τ) scM1 fullShare (acc1 V c (n - 1) (by omega))) := by
  cases n with
  | zero => exact absurd rfl hz
  | succ n => rfl

/-- The 512-slice of the resident column buffer that a point with ni = 0 seeds, -/
abbrev slice1 (i : grid1.Coords) (h : cond1_4 i) : Rect S4x8192 := Rect.unit (s := S4x8192) (k1_off1 i) S4x512.size (k1_off1_inb i h)
/-- and the one a point with ni ≠ 0 refines. -/
abbrev slice2 (i : grid1.Coords) (h : cond1_5 i) : Rect S4x8192 := Rect.unit (s := S4x8192) (k1_off2 i) S4x512.size (k1_off2_inb i h)

/-- What the row output's buffer may hold after point `t`, given what it held before: the accumulator where mi = 15,
    else what it held. -/
def after1_2 (c : Dev nD) (t : Fin cfg1.N) (Y X : Vec F S4x512 .f32) : Prop :=
  (cond1_3 (grid1.coords t) → X = acc1 V c t.val t.isLt) ∧ (¬cond1_3 (grid1.coords t) → X = Y)

/-- What the resident column buffer may hold after point `t`, given what it held before. -/
def after1_3 (c : Dev nD) (t : Fin cfg1.N) (Y X : Vec F S4x8192 .f32) : Prop :=
  (∀ h : cond1_4 (grid1.coords t), X = (slice1 (grid1.coords t) h).overlay Y (colMin1 V c t))
  ∧ (∀ h : cond1_5 (grid1.coords t), X = (slice2 (grid1.coords t) h).overlay Y (k1_pay3 (colMin1 V c t) (View.ld Y (slice2 (grid1.coords t) h))))

/-- The proof data of pipeline 1 on core `c`: the arrays as the region finds them; each input's buffer left as found;
    the outputs' buffers related as above; the invariant carrying the accumulator; nothing owed; full shares. -/
def rdat1 (c : Dev nD) : RDat τ (Elt F) Unit ℕ (UR sig nD τ) ℕ cfg1 c where
  A w := V c (Pipeline.arrRef spec1 w)
  after w := match w with
    | ⟨0, _⟩ => fun _ Y X => X = Y
    | ⟨1, _⟩ => fun _ Y X => X = Y
    | ⟨2, _⟩ => fun t Y X => after1_2 V c t Y X
    | ⟨3, _⟩ => fun t Y X => after1_3 V c t Y X
  Φ t := PhiS1 V c t.val (Nat.le_of_lt_succ t.isLt)
  q _ := fullShare
  owed _ := 0

theorem rdat1_A (c : Dev nD) (w : Fin cfg1.W) : (rdat1 V c).A w = V c (Pipeline.arrRef spec1 w) := by dsimp only [rdat1]
theorem rdat1_after_0 (c : Dev nD) (t : Fin cfg1.N) (Y X) : (rdat1 V c).after 0 t Y X ↔ X = Y := by dsimp only [rdat1]; exact Iff.rfl
theorem rdat1_after_1 (c : Dev nD) (t : Fin cfg1.N) (Y X) : (rdat1 V c).after 1 t Y X ↔ X = Y := by dsimp only [rdat1]; exact Iff.rfl
theorem rdat1_after_2 (c : Dev nD) (t : Fin cfg1.N) (Y X) : (rdat1 V c).after 2 t Y X ↔ after1_2 V c t Y X := by dsimp only [rdat1]; exact Iff.rfl
theorem rdat1_after_3 (c : Dev nD) (t : Fin cfg1.N) (Y X) : (rdat1 V c).after 3 t Y X ↔ after1_3 V c t Y X := by dsimp only [rdat1]; exact Iff.rfl
theorem rdat1_Phi (c : Dev nD) (t : Fin (cfg1.N + 1)) : (rdat1 V c).Φ t = PhiS1 V c t.val (Nat.le_of_lt_succ t.isLt) := by dsimp only [rdat1]
theorem rdat1_owed (c : Dev nD) (t : Fin (cfg1.N + 1)) : (rdat1 V c).owed t = 0 := by dsimp only [rdat1]

end Cert.KernelIdeal.Hand

end
-- ==== Proof.KI.Cases1.lean ====
/-
  Region 1's body, run once per control case, for any float instance.

  With r the row minima and q the column minima of the tile pair the point sees (`k1_pay5`, `k1_pay6` of the two
  input blocks), xs what the accumulator held, xi2 the row output's buffer and xi3 the resident column buffer:
    * the accumulator ends at r (as `k1_pay1`) where mi = 0 and at the elementwise minimum of xs and r (`k1_pay2`)
      where mi ≠ 0;
    * the row output's buffer ends at the accumulator's new contents where mi = 15, and as it was elsewhere;
    * the column buffer ends as it was but for the point's 512-slice, which holds q where ni = 0 and the minimum of
      the slice's old values and q (`k1_pay3`) where ni ≠ 0.
  The six theorems are the six combinations the grid meets (mi = 0, 0 < mi < 15, mi = 15) × (ni = 0, ni ≠ 0); each
  branch of the body is decided by the case's hypotheses, and the buffers are read back through the overlay lemmas.
-/
import proofs.«161975_j33079838114187_2_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option hygiene false in
/-- Reading a buffer back after the body's stores: one store is an overlay, a load through the whole rectangle reads
    the contents, an overlay through it is the payload. -/
local macro "run1_close" : tactic => `(tactic| first
  | exact harg4.read_unread _
  | (simp only [OverlayStore.read_write_one, View.readAt_eq_ld, harg2.read_unread, harg3.read_unread, harg4.read_unread, harg5.read_unread, harg6.read_unread, View.ld_unit_zero (S := S4x512x3) hz3, View.ld_unit_zero (S := S4x512) hz2, OverlayStore.overlay_unit_zero (S := S4x512) hz2, View.readCov_unit_zero _ (S := S4x512) hz2]
     sl_unfold_run_names
     simp only [OverlayStore.read_write_one, View.readAt_eq_ld, harg2.read_unread, harg3.read_unread, harg4.read_unread, harg5.read_unread, harg6.read_unread, View.ld_unit_zero (S := S4x512x3) hz3, View.ld_unit_zero (S := S4x512) hz2, OverlayStore.overlay_unit_zero (S := S4x512) hz2, View.readCov_unit_zero _ (S := S4x512) hz2]
     try rfl))

set_option hygiene false in
/-- The run of the body in one control case: the printed function is its skeleton, the executor runs it with every
    branch decided by the case's hypotheses, and each buffer is handed back at its contents read back. -/
local macro "run1_script" : tactic => `(tactic| (
  simp only [cc1__chamfer2_kernel_eq_skeleton]; unfold cc1__chamfer2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc1 | exact hc2 | exact hc3 | exact hc4 | exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    run1_close
  isplitl [H3]
  · iexists _; isplitr
    swap; · iexact H3
    ipureintro
    run1_close
  iexists _; isplitr
  swap; · iexact HS
  ipureintro
  run1_close))

set_option maxHeartbeats 2000000 in
/-- mi = 0 and ni = 0: the accumulator and the point's column slice are seeded. -/
theorem run1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : cond1_1 i) (hc2 : ¬cond1_2 i) (hc3 : ¬cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice1 i hc4).overlay xi3 (k1_pay6 x0 x1))
            ∗ owns (c : Thread nD τ) arg6 fullShare (k1_pay1 (k1_pay5 x0 x1))) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- 0 < mi < 15 and ni = 0: the accumulator is refined, the column slice seeded. -/
theorem run1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : ¬cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice1 i hc4).overlay xi3 (k1_pay6 x0 x1))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 15 and ni = 0: the accumulator is refined and copied out, the column slice seeded. -/
theorem run1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : cond1_3 i) (hc4 : cond1_4 i) (hc5 : ¬cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k1_pay2 (k1_pay5 x0 x1) xs)
            ∗ owns (c : Thread nD τ) arg5 fullShare ((slice1 i hc4).overlay xi3 (k1_pay6 x0 x1))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 0 and ni ≠ 0: the accumulator is seeded, the column slice refined. -/
theorem run1_D (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : cond1_1 i) (hc2 : ¬cond1_2 i) (hc3 : ¬cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice2 i hc5).overlay xi3 (k1_pay3 (k1_pay6 x0 x1) (View.ld xi3 (slice2 i hc5))))
            ∗ owns (c : Thread nD τ) arg6 fullShare (k1_pay1 (k1_pay5 x0 x1))) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- 0 < mi < 15 and ni ≠ 0: the accumulator and the column slice are refined. -/
theorem run1_E (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : ¬cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (xi2)
            ∗ owns (c : Thread nD τ) arg5 fullShare ((slice2 i hc5).overlay xi3 (k1_pay3 (k1_pay6 x0 x1) (View.ld xi3 (slice2 i hc5))))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

set_option maxHeartbeats 2000000 in
/-- mi = 15 and ni ≠ 0: the accumulator is refined and copied out, the column slice refined. -/
theorem run1_G (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x8192 .f32) (harg5 : arg5.IsWhole) (arg6 : Memref sig .tc .vmem S4x512 .f32) (harg6 : arg6.IsWhole)
    (hc1 : ¬cond1_1 i) (hc2 : cond1_2 i) (hc3 : cond1_3 i) (hc4 : ¬cond1_4 i) (hc5 : cond1_5 i)
    (x0 x1 : Vec F S4x512x3 .f32) (xi2 : Vec F S4x512 .f32) (xi3 : Vec F S4x8192 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare (k1_pay2 (k1_pay5 x0 x1) xs)
            ∗ owns (c : Thread nD τ) arg5 fullShare ((slice2 i hc5).overlay xi3 (k1_pay3 (k1_pay6 x0 x1) (View.ld xi3 (slice2 i hc5))))
            ∗ owns (c : Thread nD τ) arg6 fullShare (k1_pay2 (k1_pay5 x0 x1) xs)) -∗ K ⟨⟩))
      ⊢ wp frame (wpE (defs₀ (F := F)) Variants.none c none) E (cc1__chamfer2_kernel i arg2 harg2 arg3 harg3 arg4 harg4 arg5 harg5 arg6 harg6) K := by
  run1_script

end Cert.KernelIdeal.Hand

end
-- ==== Proof.KI.Body1.lean ====
/-
  Region 1's body obligation over the relational proof data, for any float instance.

  At every grid point the two input windows' buffers hold their blocks (an input left as found holds what its last
  fetch put there, and an unfetched point has the same block index as the fetch before it); the accumulator holds
  what the point before left (anything at the first point). The point's control case is read off its number
  t = 16·ni + mi, the case's run applies, and what it leaves is what the proof data says: the accumulator's new
  contents are `acc1` at t by its recursion, the row output's buffer is the accumulator where mi = 15 and untouched
  elsewhere, the column buffer is overlaid on the point's slice.
-/
import proofs.«161975_j33079838114187_2_alg».proof.Proof.KI.Cases1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's buffer holds its block at every point, fetched there or not. -/
theorem finds1_0 (c : Dev nD) (t : Fin cfg1.N) (Y) (h : (rdat1 V c).Finds 0 t Y) : Y = iblk1 V c 0 t := by
  obtain ⟨d, hd⟩ := RDat.finds_in_eq_fetched (rdat1 V c) 0 rfl (fun _ _ _ => rfl) (fun t Y X h => (rdat1_after_0 V c t Y X).mp h) t Y h
  rw [hd]; unfold RDat.fetched RDat.blockOf iblk1; rw [rdat1_A]; try rfl

theorem finds1_1 (c : Dev nD) (t : Fin cfg1.N) (Y) (h : (rdat1 V c).Finds 1 t Y) : Y = iblk1 V c 1 t := by
  obtain ⟨d, hd⟩ := RDat.finds_in_eq_fetched (rdat1 V c) 1 rfl (fun _ _ _ => rfl) (fun t Y X h => (rdat1_after_1 V c t Y X).mp h) t Y h
  rw [hd]; unfold RDat.fetched RDat.blockOf iblk1; rw [rdat1_A]; try rfl

/-- A point with ni = 0 that leaves the column buffer with its slice seeded leaves admissible contents. -/
theorem after1_3_seed (c : Dev nD) (t : Fin cfg1.N) (h4 : cond1_4 (grid1.coords t)) (Y3 : Vec F S4x8192 .f32) :
    (rdat1 V c).after 3 t Y3 ((slice1 (grid1.coords t) h4).overlay Y3 (k1_pay6 (iblk1 V c 0 t) (iblk1 V c 1 t))) := by
  refine (rdat1_after_3 V c t Y3 _).mpr ⟨fun _ => ?_, fun h5 => ?_⟩
  · unfold colMin1; rfl
  · exact absurd ((hcond1_5 t).mp h5) (by have := (hcond1_4 t).mp h4; omega)

/-- A point with ni ≠ 0 that leaves the column buffer with its slice refined leaves admissible contents. -/
theorem after1_3_refine (c : Dev nD) (t : Fin cfg1.N) (h5 : cond1_5 (grid1.coords t)) (Y3 : Vec F S4x8192 .f32) :
    (rdat1 V c).after 3 t Y3 ((slice2 (grid1.coords t) h5).overlay Y3 (k1_pay3 (k1_pay6 (iblk1 V c 0 t) (iblk1 V c 1 t)) (View.ld Y3 (slice2 (grid1.coords t) h5)))) := by
  refine (rdat1_after_3 V c t Y3 _).mpr ⟨fun h4 => ?_, fun _ => ?_⟩
  · exact absurd ((hcond1_5 t).mp h5) (by have := (hcond1_4 t).mp h4; omega)
  · unfold colMin1; rfl

/-- The invariant at a point's start, restated at the point's number. -/
theorem Phi_castSucc1 (c : Dev nD) (t : Fin cfg1.N) :
    (rdat1 V c).Φ t.castSucc = PhiS1 V c t.val (Nat.le_of_lt t.isLt) := by
  dsimp only [rdat1]; simp only [Fin.coe_castSucc]

/-- What the body is called with at point `t`, the windows' buffers at given contents, -/
def bodyPre1 (c : Dev nD) (t : Fin cfg1.N) (Y2 : Vec F S4x512 .f32) (Y3 : Vec F S4x8192 .f32) : sProp 𝕄 :=
  iprop((rdat1 V c).Φ t.castSucc ∗ (rdat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare Y2
    ∗ owns (c : Thread nD τ) (st1_3 t) fullShare Y3)

/-- and what it returns. -/
def bodyPost1 (c : Dev nD) (t : Fin cfg1.N) (Y2 : Vec F S4x512 .f32) (Y3 : Vec F S4x8192 .f32) : sProp 𝕄 :=
  iprop((rdat1 V c).Φ t.succ ∗ (rdat1 V c).owesAt () t.succ
    ∗ (∃ X, ⌜(rdat1 V c).after 0 t (iblk1 V c 0 t) X⌝ ∗ owns (c : Thread nD τ) (st1_0 t) fullShare X)
    ∗ (∃ X, ⌜(rdat1 V c).after 1 t (iblk1 V c 1 t) X⌝ ∗ owns (c : Thread nD τ) (st1_1 t) fullShare X)
    ∗ (∃ X, ⌜(rdat1 V c).after 2 t Y2 X⌝ ∗ owns (c : Thread nD τ) (st1_2 t) fullShare X)
    ∗ (∃ X, ⌜(rdat1 V c).after 3 t Y3 X⌝ ∗ owns (c : Thread nD τ) (st1_3 t) fullShare X))

set_option hygiene false in
/-- After a case's run: the invariant reassembled around the accumulator's new contents, the core's dues unchanged,
    each window's buffer at contents the proof data admits. -/
local macro "body1_finish" : tactic => `(tactic| (
  iintro ⟨H0, H1, H2, H3, HS⟩
  isplitl [B0 B1 B2 B3 B4 HS Hg]
  · isplitr [Hg]
    · isplitl [B0]; · iexact B0
      isplitl [B1]; · iexact B1
      isplitl [B2]; · iexact B2
      isplitl [B3]; · iexact B3
      isplitl [B4]; · iexact B4
      iexact HS
    iexact Hg
  isplitl [Ho]; · iexact Ho
  isplitl [H0]
  · iexists _; isplitr
    swap; · iexact H0
    ipureintro; exact (rdat1_after_0 V c t _ _).mpr rfl
  isplitl [H1]
  · iexists _; isplitr
    swap; · iexact H1
    ipureintro; exact (rdat1_after_1 V c t _ _).mpr rfl
  isplitl [H2]
  · iexists _; isplitr
    swap; · iexact H2
    ipureintro
    first
      | exact (rdat1_after_2 V c t _ _).mpr ⟨fun h => absurd h hc3, fun _ => rfl⟩
      | exact (rdat1_after_2 V c t _ _).mpr ⟨fun _ => hacc.symm, fun hn => absurd hc3 hn⟩
  iexists _; isplitr
  swap; · iexact H3
  ipureintro
  first
    | exact after1_3_seed V c t hc4 Y3
    | exact after1_3_refine V c t hc5 Y3))

set_option hygiene false in
/-- Before a case's run at a point that is not the first: the invariant opened around the accumulator at what the
    point before left, the windows' buffers handed to the run. -/
local macro "body1_start" r:term : tactic => `(tactic| (
  rw [Phi_castSucc1 V c t, PhiS1_pos V c _ _ hz]
  unfold PhiWith1
  iintro ⟨⟨⟨B0, B1, B2, B3, B4, HS⟩, Hg⟩, Ho, H0, H1, H2, H3⟩
  iapply ($r c (grid1.coords t) _ _ _ _ _ _ _ _ _ _ hc1 hc2 hc3 hc4 hc5 (iblk1 V c 0 t) (iblk1 V c 1 t) Y2 Y3 _ Set.univ _)
  isplitl [H0]; · iexact H0
  isplitl [H1]; · iexact H1
  isplitl [H2]; · iexact H2
  isplitl [H3]; · iexact H3
  isplitl [HS]; · iexact HS))

set_option maxHeartbeats 4000000 in
/-- The body at any point, from the windows' buffers at the blocks and at any contents of the two outputs' buffers. -/
theorem sound_body1 (c : Dev nD) (t : Fin cfg1.N) (Y2 : Vec F S4x512 .f32) (Y3 : Vec F S4x8192 .f32) :
    bodyPre1 V c t Y2 Y3 ⊢ wp frame (wpE (defs₀ (F := F)) Variants.none c none) Set.univ (bodyAt1 t) (fun _ => bodyPost1 V c t Y2 Y3) := by
  unfold bodyPre1 bodyPost1 bodyAt1
  rw [show (rdat1 V c).owesAt () t.succ = (rdat1 V c).owesAt () t.castSucc from rfl]
  have hΦs : (rdat1 V c).Φ t.succ = PhiWith1 c (owns (c : Thread nD τ) scM1 fullShare (acc1 V c t.val t.isLt)) := by
    rw [rdat1_Phi]; exact PhiS1_succ V c t.val t.isLt
  rw [hΦs]
  have hN : t.val < 256 := lt_of_lt_of_eq t.isLt (show cfg1.N = 256 from N_1)
  by_cases h1 : t.val % 16 = 0
  · -- mi = 0: the accumulator is seeded
    have hacc : acc1 V c t.val t.isLt = k1_pay1 (k1_pay5 (iblk1 V c 0 t) (iblk1 V c 1 t)) := acc1_seed V c t h1
    rw [hacc]
    have hc1 : cond1_1 (grid1.coords t) := (hcond1_1 t).mpr h1
    have hc2 : ¬cond1_2 (grid1.coords t) := fun h => (hcond1_2 t).mp h h1
    have hc3 : ¬cond1_3 (grid1.coords t) := fun h => by have := (hcond1_3 t).mp h; omega
    by_cases h4 : t.val < 16
    · have hc4 : cond1_4 (grid1.coords t) := (hcond1_4 t).mpr h4
      have hc5 : ¬cond1_5 (grid1.coords t) := fun h => by have := (hcond1_5 t).mp h; omega
      have hz : t.val = 0 := by omega
      rw [Phi_castSucc1 V c t, PhiS1_zero V c _ _ hz, PhiA1_with]
      unfold PhiWith1
      iintro ⟨⟨⟨B0, B1, B2, B3, B4, ⟨%d, HS⟩⟩, Hg⟩, Ho, H0, H1, H2, H3⟩
      iapply (run1_A c (grid1.coords t) _ _ _ _ _ _ _ _ _ _ hc1 hc2 hc3 hc4 hc5 (iblk1 V c 0 t) (iblk1 V c 1 t) Y2 Y3 d Set.univ _)
      isplitl [H0]; · iexact H0
      isplitl [H1]; · iexact H1
      isplitl [H2]; · iexact H2
      isplitl [H3]; · iexact H3
      isplitl [HS]; · iexact HS
      body1_finish
    · have hc4 : ¬cond1_4 (grid1.coords t) := fun h => h4 ((hcond1_4 t).mp h)
      have hc5 : cond1_5 (grid1.coords t) := (hcond1_5 t).mpr (by omega)
      have hz : t.val ≠ 0 := by omega
      body1_start run1_D
      body1_finish
  · -- mi ≠ 0: the accumulator is refined
    have hacc : acc1 V c t.val t.isLt = k1_pay2 (k1_pay5 (iblk1 V c 0 t) (iblk1 V c 1 t)) (acc1 V c (t.val - 1) (Nat.lt_of_le_of_lt (Nat.sub_le _ _) t.isLt)) :=
      acc1_step V c t h1
    rw [hacc]
    have hc1 : ¬cond1_1 (grid1.coords t) := fun h => h1 ((hcond1_1 t).mp h)
    have hc2 : cond1_2 (grid1.coords t) := (hcond1_2 t).mpr h1
    have hz : t.val ≠ 0 := fun h => h1 (by rw [h])
    by_cases h3 : t.val % 16 = 15
    · have hc3 : cond1_3 (grid1.coords t) := (hcond1_3 t).mpr h3
      by_cases h4 : t.val < 16
      · have hc4 : cond1_4 (grid1.coords t) := (hcond1_4 t).mpr h4
        have hc5 : ¬cond1_5 (grid1.coords t) := fun h => by have := (hcond1_5 t).mp h; omega
        body1_start run1_C
        body1_finish
      · have hc4 : ¬cond1_4 (grid1.coords t) := fun h => h4 ((hcond1_4 t).mp h)
        have hc5 : cond1_5 (grid1.coords t) := (hcond1_5 t).mpr (by omega)
        body1_start run1_G
        body1_finish
    · have hc3 : ¬cond1_3 (grid1.coords t) := fun h => h3 ((hcond1_3 t).mp h)
      by_cases h4 : t.val < 16
      · have hc4 : cond1_4 (grid1.coords t) := (hcond1_4 t).mpr h4
        have hc5 : ¬cond1_5 (grid1.coords t) := fun h => by have := (hcond1_5 t).mp h; omega
        body1_start run1_B
        body1_finish
      · have hc4 : ¬cond1_4 (grid1.coords t) := fun h => h4 ((hcond1_4 t).mp h)
        have hc5 : cond1_5 (grid1.coords t) := (hcond1_5 t).mpr (by omega)
        body1_start run1_E
        body1_finish

/-- The body obligation of the relational proof data, at every point. -/
theorem body_obligation1 (c : Dev nD) : (rdat1 (F := F) V c).BodyObligation (defs₀ (F := F)) Variants.none () Set.univ := fun t Y hY => by
  rw [bigSep_W1, bigSep_W1]
  have e0 := finds1_0 V c t (Y 0) (hY 0)
  have e1 := finds1_1 V c t (Y 1) (hY 1)
  rw [e0, e1]
  exact sound_body1 V c t (Y 2) (Y 3)

/-- What the launch hands the region is the invariant before the first point. -/
theorem hin1 (c : Dev nD) : (Pipeline.ΦA spec1 c : sProp 𝕄) ⊢ (rdat1 V c).Φ 0 := by
  rw [rdat1_Phi]; exact .rfl

/-- After the last point the invariant gives the launch's back: the accumulator's named contents are forgotten. -/
theorem hout1 (c : Dev nD) : (rdat1 V c).Φ (Fin.last cfg1.N) ⊢ (Pipeline.ΦA spec1 c : sProp 𝕄) := by
  rw [rdat1_Phi, PhiS1_pos V c _ _ (by rw [Fin.val_last]; have : cfg1.N = 256 := N_1; omega), PhiA1_with]
  unfold PhiWith1
  iintro ⟨⟨B0, B1, B2, B3, B4, HS⟩, Hg⟩
  isplitr [Hg]
  · isplitl [B0]; · iexact B0
    isplitl [B1]; · iexact B1
    isplitl [B2]; · iexact B2
    isplitl [B3]; · iexact B3
    isplitl [B4]; · iexact B4
    iexists _; iexact HS
  iexact Hg

end Cert.KernelIdeal.Hand

end
-- ==== Proof.KI.Final1.lean ====
/-
  Region 1's two result arrays after the whole grid, for any float instance.

  The row output [4, 8192] is written back tile by tile: tile ni is flushed after the point (ni, 15), when its staging
  buffer holds the accumulator over the sixteen points of row ni; so entry (b, 512·ni + r) is `acc1` at the point
  16·ni + 15, at (b, r). The column output [4, 8192] is one resident block flushed once, after the last point; its
  mi-th 512-slice was seeded at the point (0, mi) and refined at the points (1, mi), …, (15, mi) (`colAcc1`), and no
  other point touches that slice; so entry (b, 512·mi + s) is `colAcc1` of slice mi after sixteen rows, at (b, s) —
  whatever the staging buffer held before the first point.
-/
import proofs.«161975_j33079838114187_2_alg».proof.Proof.KI.Data1
import proofs.«161975_j33079838114187_2_alg».proof.Proof.LibRelCover
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The grid point of tile row `ni` and tile column `mi`. -/
def pt1 (ni mi : ℕ) (hn : ni < 16) (hm : mi < 16) : Fin cfg1.N :=
  ⟨16 * ni + mi, by have hN : cfg1.N = 256 := N_1; omega⟩

/-- Slice `mi` of the column buffer after rows 0 … ni: seeded with the column minima of row 0, refined by each later row's. -/
def colAcc1 (c : Dev nD) (mi : ℕ) (hm : mi < 16) : (ni : ℕ) → ni < 16 → Vec F S4x512 .f32
  | 0, hn => colMin1 V c (pt1 0 mi hn hm)
  | ni + 1, hn => k1_pay3 (colMin1 V c (pt1 (ni + 1) mi hn hm)) (colAcc1 c mi hm ni (Nat.lt_of_succ_lt hn))

/-- The row output after the grid. -/
def G1_2 (c : Dev nD) : Vec F S4x8192 .f32 := fun j =>
  acc1 V c (16 * ((j 1).val / 512) + 15) (by have hN : cfg1.N = 256 := N_1; have := (show (j 1).val < 8192 from (j 1).isLt); omega)
    (ValueIdx.ix2 (j 0) ⟨(j 1).val % 512, Nat.mod_lt _ (by decide)⟩)

/-- The column output after the grid. -/
def G1_3 (c : Dev nD) : Vec F S4x8192 .f32 := fun j =>
  colAcc1 V c ((j 1).val / 512) (by have := (show (j 1).val < 8192 from (j 1).isLt); omega) 15 (by decide)
    (ValueIdx.ix2 (j 0) ⟨(j 1).val % 512, Nat.mod_lt _ (by decide)⟩)

/-! ## The two functions read at a tile's coordinates -/

/-- The accumulator at an index depends on the point's number and the index only. -/
theorem acc1_congr (c : Dev nD) {n n' : ℕ} (e : n = n') (hn : n < cfg1.N) (hn' : n' < cfg1.N) {y y' : S4x512.Idx} (ey : y = y') :
    acc1 V c n hn y = acc1 V c n' hn' y' := by
  subst e; subst ey; rfl

/-- A column slice's contents at an index depend on the slice's and the row's numbers and the index only. -/
theorem colAcc1_congr (c : Dev nD) {mi mi' ni ni' : ℕ} (e : mi = mi') (e' : ni = ni') (hm : mi < 16) (hm' : mi' < 16)
    (hn : ni < 16) (hn' : ni' < 16) {y y' : S4x512.Idx} (ey : y = y') :
    colAcc1 V c mi hm ni hn y = colAcc1 V c mi' hm' ni' hn' y' := by
  subst e; subst e'; subst ey; rfl

theorem G1_2_apply (c : Dev nD) (b : Fin 4) (ni : Fin 16) (r : Fin 512) :
    G1_2 V c (ValueIdx.ix2 b ⟨512 * ni.val + r.val, by omega⟩)
      = acc1 V c (16 * ni.val + 15) (by have hN : cfg1.N = 256 := N_1; omega) (ValueIdx.ix2 b r) := by
  have hni := ni.isLt
  have hr := r.isLt
  show acc1 V c (16 * ((512 * ni.val + r.val) / 512) + 15) _ (ValueIdx.ix2 b (⟨(512 * ni.val + r.val) % 512, _⟩ : Fin 512)) = _
  exact acc1_congr V c (show 16 * ((512 * ni.val + r.val) / 512) + 15 = 16 * ni.val + 15 by omega) _ _
    (congrArg (ValueIdx.ix2 b) (Fin.ext (by show (512 * ni.val + r.val) % 512 = r.val; omega)))

theorem G1_3_apply (c : Dev nD) (b : Fin 4) (mi : Fin 16) (s : Fin 512) :
    G1_3 V c (ValueIdx.ix2 b ⟨512 * mi.val + s.val, by omega⟩) = colAcc1 V c mi.val mi.isLt 15 (by decide) (ValueIdx.ix2 b s) := by
  have hmi := mi.isLt
  have hs := s.isLt
  show colAcc1 V c ((512 * mi.val + s.val) / 512) _ 15 _ (ValueIdx.ix2 b (⟨(512 * mi.val + s.val) % 512, _⟩ : Fin 512)) = _
  exact colAcc1_congr V c (show (512 * mi.val + s.val) / 512 = mi.val by omega) rfl _ _ _ _
    (congrArg (ValueIdx.ix2 b) (Fin.ext (by show (512 * mi.val + s.val) % 512 = s.val; omega)))

/-! ## The grid and the printed index maps -/

/-- A point of the grid is below 256. -/
theorem point1_lt (t : Fin cfg1.N) : t.val < 256 := lt_of_lt_of_eq t.isLt N_1

/-- The printed index maps and coordinates, decided over the grid: the row output's window moves along axis 1 with the
    tile row; the column output's window stays at block (0, 0); the point's coordinates are its quotient and remainder
    by 16; neither output window is ever fetched. -/
theorem index_facts1 : ∀ t : Fin cfg1.N,
    win1_2.index t (0 : Fin 2) = 0 ∧ win1_2.index t (1 : Fin 2) = t.val / 16
    ∧ win1_3.index t (0 : Fin 2) = 0 ∧ win1_3.index t (1 : Fin 2) = 0
    ∧ (grid1.coords t 0).val = t.val / 16 ∧ (grid1.coords t 1).val = t.val % 16
    ∧ win1_2.fetch t = false ∧ win1_3.fetch t = false :=
  (by decide +kernel : ∀ t : Fin grid1.N, _)

/-! ## The row output: what each flushing point writes back, the cover, and the array after the run -/

/-- An element of the row output's block at point `t` sits at row `y 0`, column `512 (t / 16) + y 1` of the array. -/
theorem blk1_2_emb (t : Fin cfg1.N) (y : S4x512.Idx) :
    (((cfg1.win 2).blk t).view.emb y : S4x8192.Idx)
      = ValueIdx.ix2 (y 0 : Fin 4) (⟨512 * (t.val / 16) + (y 1).val, by have := point1_lt t; have : (y 1).val < 512 := (y 1).isLt; omega⟩ : Fin 8192) := by
  obtain ⟨e0, e1, -⟩ := index_facts1 t
  funext a
  apply Fin.ext
  match a with
  | ⟨0, _⟩ => show win1_2.index t (0 : Fin 2) * 4 + 1 * (y 0).val = (y 0).val; rw [e0]; omega
  | ⟨1, _⟩ => show win1_2.index t (1 : Fin 2) * 512 + 1 * (y 1).val = 512 * (t.val / 16) + (y 1).val; rw [e1]; omega

/-- Whatever the body may leave at a flushing point has, as its moved part, that point's block of `G1_2`. -/
theorem flushed1_2_eq (c : Dev nD) (t : Fin cfg1.N) (X : (cfg1.win 2).block.Idx → Elt F (cfg1.win 2).elt)
    (hf : (cfg1.win 2).flush t = true) (hX : (rdat1 V c).Leaves 2 t X) :
    (cfg1.win 2).cut (cfg1.grid.coords t) X = ((cfg1.win 2).blk t).view.read (Elt F) (G1_2 V c) := by
  have h15 : t.val % 16 = 15 := (flush1_2 t).mp hf
  have ht := point1_lt t
  obtain ⟨Y, -, hafter⟩ := hX
  rw [rdat1_after_2] at hafter
  have hXe : X = acc1 V c t.val t.isLt := hafter.1 ((hcond1_3 t).mpr h15)
  subst hXe
  refine funext fun (y : S4x512.Idx) => ?_
  rw [View.read_apply]
  show acc1 V c t.val t.isLt y = G1_2 V c (((cfg1.win 2).blk t).view.emb y)
  rw [blk1_2_emb]
  have hG := G1_2_apply V c (y 0) (⟨t.val / 16, by omega⟩ : Fin 16) (y 1)
  refine Eq.trans ?_ hG.symm
  exact acc1_congr V c (show t.val = 16 * (t.val / 16) + 15 by omega) _ _ (ValueIdx.eq_ix2 y)

/-- An index of the array is in point `t`'s block iff each coordinate is in the block's range on its axis. -/
theorem mem_blk1_2 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1_0).slice (win1_2.rect t)).set ↔ _
  rw [View.set_slice_whole, Rect.mem_set_unit]
  exact Iff.rfl

/-- Every index of the array is in some flushing point's block: column `r` is in the tile flushed at 16 (r / 512) + 15. -/
theorem cover1_2_arr (i : S4x8192.Idx) : ∃ t : Fin cfg1.N, (cfg1.win 2).flush t = true ∧ i ∈ ((cfg1.win 2).blk t).view.set := by
  have h0 : (i 0).val < 4 := (i 0).isLt
  have h1 : (i 1).val < 8192 := (i 1).isLt
  have hlt : 16 * ((i 1).val / 512) + 15 < cfg1.N := lt_of_lt_of_eq (by omega : 16 * ((i 1).val / 512) + 15 < 256) N_1.symm
  refine ⟨⟨16 * ((i 1).val / 512) + 15, hlt⟩, (flush1_2 _).mpr (by show (16 * ((i 1).val / 512) + 15) % 16 = 15; omega), ?_⟩
  obtain ⟨e0, e1, -⟩ := index_facts1 ⟨16 * ((i 1).val / 512) + 15, hlt⟩
  rw [mem_blk1_2]
  intro a
  match a with
  | ⟨0, _⟩ =>
    show win1_2.index ⟨16 * ((i 1).val / 512) + 15, hlt⟩ (0 : Fin 2) * 4 ≤ (i 0).val ∧ (i 0).val < win1_2.index ⟨16 * ((i 1).val / 512) + 15, hlt⟩ (0 : Fin 2) * 4 + 4
    rw [e0]; omega
  | ⟨1, _⟩ =>
    show win1_2.index ⟨16 * ((i 1).val / 512) + 15, hlt⟩ (1 : Fin 2) * 512 ≤ (i 1).val ∧ (i 1).val < win1_2.index ⟨16 * ((i 1).val / 512) + 15, hlt⟩ (1 : Fin 2) * 512 + 512
    rw [e1]; show (16 * ((i 1).val / 512) + 15) / 16 * 512 ≤ (i 1).val ∧ (i 1).val < (16 * ((i 1).val / 512) + 15) / 16 * 512 + 512; omega

/-- Whatever the row output's array may hold after every write-back is `G1_2`. -/
theorem final1_2 (c : Dev nD) (Fb : Buf (Elt F) ((cfg1.win 2).arr.view.loc (c.tc : Thread nD τ)))
    (h : (rdat1 V c).ArrAt 2 cfg1.N Fb) : Fb = G1_2 V c :=
  (rdat1 V c).ArrAt_eq_of_cover 2 (G1_2 V c) (fun t X hf hX => flushed1_2_eq V c t X hf hX) cover1_2_arr Fb h

/-! ## The column output: the resident buffer slice by slice, and the array after the run -/

/-- An element of the column output's block (the whole array) sits at its own coordinates. -/
theorem blk1_3_emb (t : Fin cfg1.N) (y : S4x8192.Idx) : (((cfg1.win 3).blk t).view.emb y : S4x8192.Idx) = y := by
  obtain ⟨-, -, e0, e1, -⟩ := index_facts1 t
  funext a
  apply Fin.ext
  match a with
  | ⟨0, _⟩ => show win1_3.index t (0 : Fin 2) * 4 + 1 * (y 0).val = (y 0).val; rw [e0]; omega
  | ⟨1, _⟩ => show win1_3.index t (1 : Fin 2) * 8192 + 1 * (y 1).val = (y 1).val; rw [e1]; omega

/-- The slice a point seeds starts at column 512 · (t % 16). -/
theorem off1_facts (t : Fin cfg1.N) : k1_off1 (grid1.coords t) 0 = 0 ∧ k1_off1 (grid1.coords t) 1 = 512 * (t.val % 16) := by
  obtain ⟨-, -, -, -, -, e, -⟩ := index_facts1 t
  rw [k1_off1_eq]
  exact ⟨rfl, by show 512 * (grid1.coords t 1).val = _; rw [e]⟩

/-- The slice a point refines starts at column 512 · (t % 16). -/
theorem off2_facts (t : Fin cfg1.N) : k1_off2 (grid1.coords t) 0 = 0 ∧ k1_off2 (grid1.coords t) 1 = 512 * (t.val % 16) := by
  obtain ⟨-, -, -, -, -, e, -⟩ := index_facts1 t
  rw [k1_off2_eq]
  exact ⟨rfl, by show 512 * (grid1.coords t 1).val = _; rw [e]⟩

/-- A 512-column slice overlaid on the [4, 8192] buffer, read inside the slice: the payload. -/
theorem overlay_slice_in (off : Fin 2 → ℕ) (inb : ∀ a, off a + S4x512.size a ≤ S4x8192.size a) (mi : ℕ) (h0 : off 0 = 0)
    (h1 : off 1 = 512 * mi) (Y : Vec F S4x8192 .f32) (G : Vec F S4x512 .f32) (b : Fin 4) (s : Fin 512)
    (hlt : 512 * mi + s.val < 8192) :
    (Rect.unit (s := S4x8192) off S4x512.size inb).overlay Y G (ValueIdx.ix2 b ⟨512 * mi + s.val, hlt⟩) = G (ValueIdx.ix2 b s) := by
  refine OverlayStore.overlay_unit_of_mem inb Y G _ (ValueIdx.ix2 b s) ?_
  intro a
  match a with
  | ⟨0, _⟩ => show b.val = off 0 + b.val; rw [h0]; omega
  | ⟨1, _⟩ => show 512 * mi + s.val = off 1 + s.val; rw [h1]

/-- Read in another slice: what was there. -/
theorem overlay_slice_out (off : Fin 2 → ℕ) (inb : ∀ a, off a + S4x512.size a ≤ S4x8192.size a) (mi : ℕ)
    (h1 : off 1 = 512 * mi) (Y : Vec F S4x8192 .f32) (G : Vec F S4x512 .f32) (b : Fin 4) (mi' : ℕ) (s : Fin 512)
    (hne : mi' ≠ mi) (hlt : 512 * mi' + s.val < 8192) :
    (Rect.unit (s := S4x8192) off S4x512.size inb).overlay Y G (ValueIdx.ix2 b ⟨512 * mi' + s.val, hlt⟩)
      = Y (ValueIdx.ix2 b ⟨512 * mi' + s.val, hlt⟩) := by
  refine OverlayStore.overlay_unit_of_not_mem inb Y G _ (1 : Fin 2) ?_
  show 512 * mi' + s.val < off 1 ∨ off 1 + 512 ≤ 512 * mi' + s.val
  rw [h1]
  have := s.isLt
  omega

/-- The slice loaded from the buffer, at an index: the buffer at the slice's column. -/
theorem ld_slice (off : Fin 2 → ℕ) (inb : ∀ a, off a + S4x512.size a ≤ S4x8192.size a) (mi : ℕ) (h0 : off 0 = 0)
    (h1 : off 1 = 512 * mi) (Y : Vec F S4x8192 .f32) (b : Fin 4) (s : Fin 512) (hlt : 512 * mi + s.val < 8192) :
    View.ld Y (Rect.unit (s := S4x8192) off S4x512.size inb) (ValueIdx.ix2 b s) = Y (ValueIdx.ix2 b ⟨512 * mi + s.val, hlt⟩) := by
  show Y ((Rect.unit (s := S4x8192) off S4x512.size inb).emb (ValueIdx.ix2 b s)) = _
  congr 1
  funext a
  apply Fin.ext
  match a with
  | ⟨0, _⟩ => show off 0 + 1 * b.val = b.val; rw [h0]; omega
  | ⟨1, _⟩ => show off 1 + 1 * s.val = 512 * mi + s.val; rw [h1]; omega

/-- What the resident column buffer holds after point `t`, slice by slice: the slices up to the point's own column are
    at the current row's contents; the later ones, from the second row on, at the previous row's. -/
def Inv1_3 (c : Dev nD) (t : ℕ) (X : Vec F S4x8192 .f32) : Prop :=
  ∀ (b : Fin 4) (mi' : Fin 16) (s : Fin 512) (n : ℕ) (hn : n < 16),
    ((mi'.val ≤ t % 16 ∧ n = t / 16) ∨ (t % 16 < mi'.val ∧ n + 1 = t / 16)) →
    X (ValueIdx.ix2 b ⟨512 * mi'.val + s.val, by omega⟩) = colAcc1 V c mi'.val mi'.isLt n hn (ValueIdx.ix2 b s)

/-- One point: if the buffer was as described after the point before (nothing is asked at the first point), it is as
    described after this one. -/
theorem step1_3 (c : Dev nD) (t : Fin cfg1.N) (Y X : Vec F S4x8192 .f32) (hafter : after1_3 V c t Y X)
    (hY : t.val ≠ 0 → Inv1_3 V c (t.val - 1) Y) : Inv1_3 V c t.val X := by
  have ht := point1_lt t
  intro b mi' s k hk hcase
  have hmi' := mi'.isLt
  have hs := s.isLt
  by_cases h16 : t.val < 16
  · -- the first row: the point's slice is seeded
    have hc : cond1_4 (grid1.coords t) := (hcond1_4 t).mpr h16
    have hXe := hafter.1 hc
    obtain ⟨o0, o1⟩ := off1_facts t
    by_cases hm : mi'.val = t.val % 16
    · have hk0 : k = 0 := by omega
      subst hk0
      rw [hXe]
      refine (congrArg (fun z => (slice1 (grid1.coords t) hc).overlay Y (colMin1 V c t) (ValueIdx.ix2 b z))
        (Fin.ext (by show 512 * mi'.val + s.val = 512 * (t.val % 16) + s.val; rw [hm]) :
          (⟨512 * mi'.val + s.val, by omega⟩ : Fin 8192) = ⟨512 * (t.val % 16) + s.val, by omega⟩)).trans ?_
      refine (overlay_slice_in _ _ (t.val % 16) o0 o1 Y (colMin1 V c t) b s (by omega)).trans ?_
      have e1 : pt1 0 mi'.val hk mi'.isLt = t := Fin.ext (by show 16 * 0 + mi'.val = t.val; omega)
      show colMin1 V c t (ValueIdx.ix2 b s) = colMin1 V c (pt1 0 mi'.val hk mi'.isLt) (ValueIdx.ix2 b s)
      rw [e1]
    · have ht0 : t.val ≠ 0 := by omega
      rw [hXe]
      refine (overlay_slice_out _ _ (t.val % 16) o1 Y (colMin1 V c t) b mi'.val s hm (by omega)).trans ?_
      exact hY ht0 b mi' s k hk (by omega)
  · -- a later row: the point's slice is refined
    have hc : cond1_5 (grid1.coords t) := (hcond1_5 t).mpr (by omega)
    have hXe := hafter.2 hc
    have ht0 : t.val ≠ 0 := by omega
    obtain ⟨o0, o1⟩ := off2_facts t
    by_cases hm : mi'.val = t.val % 16
    · obtain ⟨k', rfl⟩ : ∃ k', k = k' + 1 := ⟨k - 1, by omega⟩
      rw [hXe]
      refine (congrArg (fun z => (slice2 (grid1.coords t) hc).overlay Y
          (k1_pay3 (colMin1 V c t) (View.ld Y (slice2 (grid1.coords t) hc))) (ValueIdx.ix2 b z))
        (Fin.ext (by show 512 * mi'.val + s.val = 512 * (t.val % 16) + s.val; rw [hm]) :
          (⟨512 * mi'.val + s.val, by omega⟩ : Fin 8192) = ⟨512 * (t.val % 16) + s.val, by omega⟩)).trans ?_
      refine (overlay_slice_in _ _ (t.val % 16) o0 o1 Y _ b s (by omega)).trans ?_
      have e1 : pt1 (k' + 1) mi'.val hk mi'.isLt = t := Fin.ext (by show 16 * (k' + 1) + mi'.val = t.val; omega)
      have e2 : View.ld Y (slice2 (grid1.coords t) hc) = colAcc1 V c mi'.val mi'.isLt k' (Nat.lt_of_succ_lt hk) := by
        refine funext fun (x : S4x512.Idx) => ?_
        have hx1 : (x 1).val < 512 := (x 1).isLt
        rw [ValueIdx.eq_ix2 x]
        refine (ld_slice _ _ (t.val % 16) o0 o1 Y (x 0) (x 1) (by omega)).trans ?_
        refine (congrArg (fun z => Y (ValueIdx.ix2 (x 0) z))
          (Fin.ext (by show 512 * (t.val % 16) + (x 1).val = 512 * mi'.val + (x 1).val; rw [hm]) :
            (⟨512 * (t.val % 16) + (x 1).val, by omega⟩ : Fin 8192) = ⟨512 * mi'.val + (x 1).val, by omega⟩)).trans ?_
        exact hY ht0 (x 0) mi' (x 1) k' (Nat.lt_of_succ_lt hk) (by omega)
      show k1_pay3 (colMin1 V c t) (View.ld Y (slice2 (grid1.coords t) hc)) (ValueIdx.ix2 b s)
        = k1_pay3 (colMin1 V c (pt1 (k' + 1) mi'.val hk mi'.isLt)) (colAcc1 V c mi'.val mi'.isLt k' (Nat.lt_of_succ_lt hk)) (ValueIdx.ix2 b s)
      rw [e1, e2]
    · rw [hXe]
      refine (overlay_slice_out _ _ (t.val % 16) o1 Y _ b mi'.val s hm (by omega)).trans ?_
      exact hY ht0 b mi' s k hk (by omega)

/-- After every point the resident buffer is as described, whatever it held before the first. -/
theorem leaves1_3_inv (c : Dev nD) : ∀ (n : ℕ) (hn : n < cfg1.N) (X : Vec F S4x8192 .f32),
    (rdat1 V c).Leaves 3 ⟨n, hn⟩ X → Inv1_3 V c n X := by
  intro n
  induction n with
  | zero =>
    intro hn X hL
    obtain ⟨Y, -, hafter⟩ := hL
    exact step1_3 V c ⟨0, hn⟩ Y X ((rdat1_after_3 V c ⟨0, hn⟩ Y X).mp hafter) (fun h => absurd rfl h)
  | succ n ih =>
    intro hn X hL
    obtain ⟨Y, hfinds, hafter⟩ := hL
    refine step1_3 V c ⟨n + 1, hn⟩ Y X ((rdat1_after_3 V c ⟨n + 1, hn⟩ Y X).mp hafter) (fun _ => ?_)
    have hfe : (cfg1.win 3).fetch ⟨n + 1, hn⟩ = false := (index_facts1 ⟨n + 1, hn⟩).2.2.2.2.2.2.2
    have hn' : n < cfg1.N := Nat.lt_of_succ_lt hn
    have e : (⟨(⟨n + 1, hn⟩ : Fin cfg1.N).val - 1, Nat.lt_of_le_of_lt (Nat.sub_le _ _) (⟨n + 1, hn⟩ : Fin cfg1.N).isLt⟩ : Fin cfg1.N) = ⟨n, hn'⟩ :=
      Fin.ext (by show n + 1 - 1 = n; omega)
    rcases ((rdat1 V c).finds_of_pos hfe (Nat.succ_ne_zero n) Y).mp hfinds with hfl | hL'
    · rw [e] at hfl
      have h255 := (flush1_3 ⟨n, hn'⟩).mp hfl
      have hlt : n + 1 < 256 := lt_of_lt_of_eq hn N_1
      exact absurd h255 (by show ¬ n % 256 = 255; omega)
    · rw [e] at hL'
      exact ih hn' Y hL'

/-- Whatever the body may leave at the one flushing point has, as its moved part, the whole of `G1_3`. -/
theorem flushed1_3_eq (c : Dev nD) (t : Fin cfg1.N) (X : (cfg1.win 3).block.Idx → Elt F (cfg1.win 3).elt)
    (hf : (cfg1.win 3).flush t = true) (hX : (rdat1 V c).Leaves 3 t X) :
    (cfg1.win 3).cut (cfg1.grid.coords t) X = ((cfg1.win 3).blk t).view.read (Elt F) (G1_3 V c) := by
  have h255 : t.val % 256 = 255 := (flush1_3 t).mp hf
  have ht := point1_lt t
  have hinv : Inv1_3 V c t.val X := leaves1_3_inv V c t.val t.isLt X hX
  refine funext fun (y : S4x8192.Idx) => ?_
  rw [View.read_apply]
  show X y = G1_3 V c (((cfg1.win 3).blk t).view.emb y)
  rw [blk1_3_emb]
  have hy1 : (y 1).val < 8192 := (y 1).isLt
  have hyy : y = ValueIdx.ix2 (y 0) (⟨512 * ((y 1).val / 512) + (y 1).val % 512, by omega⟩ : Fin 8192) :=
    (ValueIdx.eq_ix2 y).trans (congrArg (ValueIdx.ix2 (y 0)) (Fin.ext (by show (y 1).val = 512 * ((y 1).val / 512) + (y 1).val % 512; omega)))
  rw [hyy]
  have hG := G1_3_apply V c (y 0) (⟨(y 1).val / 512, by omega⟩ : Fin 16) (⟨(y 1).val % 512, Nat.mod_lt _ (by decide)⟩ : Fin 512)
  have hI := hinv (y 0) (⟨(y 1).val / 512, by omega⟩ : Fin 16) (⟨(y 1).val % 512, Nat.mod_lt _ (by decide)⟩ : Fin 512) 15 (by decide)
    (Or.inl ⟨by show (y 1).val / 512 ≤ t.val % 16; omega, by omega⟩)
  exact hI.trans hG.symm

/-- Every index of the array is in the last point's block, which is the whole array. -/
theorem cover1_3_arr (i : S4x8192.Idx) : ∃ t : Fin cfg1.N, (cfg1.win 3).flush t = true ∧ i ∈ ((cfg1.win 3).blk t).view.set := by
  have hlt : 255 < cfg1.N := lt_of_lt_of_eq (by decide : 255 < 256) N_1.symm
  refine ⟨⟨255, hlt⟩, (flush1_3 _).mpr (by show 255 % 256 = 255; omega), ?_⟩
  have hm := ((cfg1.win 3).blk ⟨255, hlt⟩).view.emb_mem_set i
  rw [blk1_3_emb] at hm
  exact hm

/-- Whatever the column output's array may hold after its one write-back is `G1_3`. -/
theorem final1_3 (c : Dev nD) (Fb : Buf (Elt F) ((cfg1.win 3).arr.view.loc (c.tc : Thread nD τ)))
    (h : (rdat1 V c).ArrAt 3 cfg1.N Fb) : Fb = G1_3 V c :=
  (rdat1 V c).ArrAt_eq_of_cover 3 (G1_3 V c) (fun t X hf hX => flushed1_3_eq V c t X hf hX) cover1_3_arr Fb h

end Cert.KernelIdeal.Hand

end
-- ==== Proof.KI.Exit1.lean ====
/-
  Region 1's four arrays at its exit, named, for any float instance.

  The two point clouds the region reads are never written back, so at the exit they are as the region found them; the
  row output holds `G1_2` and the column output `G1_3`, whatever contents the write-backs may have gone through on the
  way. So the arrays "at some contents they may hold after every write-back" are the arrays at these four contents.
-/
import proofs.«161975_j33079838114187_2_alg».proof.Proof.KI.Final1
import proofs.«161975_j33079838114187_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What region 1's four arrays hold at its exit: the two inputs as found, the outputs at `G1_2` and `G1_3`. -/
def exit1 (c : Dev nD) : (w : Fin cfg1.W) → Buf (Elt F) ((cfg1.win w).arr.view.loc (c.tc : Thread nD τ))
  | ⟨0, _⟩ => V c (Pipeline.arrRef spec1 0)
  | ⟨1, _⟩ => V c (Pipeline.arrRef spec1 1)
  | ⟨2, _⟩ => G1_2 V c
  | ⟨3, _⟩ => G1_3 V c

/-- Whatever an array of region 1 may hold after every write-back is what `exit1` names. -/
theorem exit1_of_arrAt (c : Dev nD) (w : Fin cfg1.W) (Fb : Buf (Elt F) ((cfg1.win w).arr.view.loc (c.tc : Thread nD τ)))
    (h : (rdat1 V c).ArrAt w cfg1.N Fb) : Fb = exit1 V c w := by
  match w with
  | ⟨0, hw⟩ =>
    have e : (rdat1 V c).ArrAt ⟨0, hw⟩ cfg1.N Fb = (Fb = (rdat1 V c).A ⟨0, hw⟩) :=
      congrFun ((rdat1 V c).ArrAt_in ⟨0, hw⟩ rfl cfg1.N) Fb
    exact (Eq.mp e h).trans (rdat1_A V c ⟨0, hw⟩)
  | ⟨1, hw⟩ =>
    have e : (rdat1 V c).ArrAt ⟨1, hw⟩ cfg1.N Fb = (Fb = (rdat1 V c).A ⟨1, hw⟩) :=
      congrFun ((rdat1 V c).ArrAt_in ⟨1, hw⟩ rfl cfg1.N) Fb
    exact (Eq.mp e h).trans (rdat1_A V c ⟨1, hw⟩)
  | ⟨2, _⟩ => exact final1_2 V c Fb h
  | ⟨3, _⟩ => exact final1_3 V c Fb h

/-- The arrays after every write-back are the arrays at the contents `exit1` names. -/
theorem arraysAt1_named (c : Dev nD) : ((rdat1 V c).arraysAt cfg1.N : sProp 𝕄) ⊢ (rdat1 V c).arrays (exit1 V c) := by
  unfold RDat.arraysAt RDat.arrays
  exact BI.bigSep_mono fun w _ =>
    show iprop(∃ Fb, ⌜(rdat1 V c).ArrAt w cfg1.N Fb⌝ ∗ (cfg1.win w).arr.view.loc (c.tc : Thread nD τ) ↦[(cfg1.win w).arr.view.set]{(rdat1 V c).share w} Fb)
        ⊢ ((cfg1.win w).arr.view.loc (c.tc : Thread nD τ) ↦[(cfg1.win w).arr.view.set]{(rdat1 V c).share w} exit1 V c w : sProp 𝕄) from by
      iintro ⟨%Fb, %hF, H⟩; rw [exit1_of_arrAt V c w Fb hF]; iexact H

end Cert.KernelIdeal.Hand

end
-- ==== Proof.KI.Tail.lean ====
/-
  The kernel program's last host operations as ONE function of the three distance arrays, for any float instance.

  After the two kernel regions the program holds three arrays cp, ic, ci : [4, 8192] (the least squared distance from
  each complete point to the partial cloud, from each inferred point to the complete cloud, from each complete point
  to the inferred cloud) and computes on the host
      Σ ic / 32768  +  Σ (cp · ci / max cp) / 32768 ,
  the greatest entry of cp taken from the value of the −infinity word and put beside every entry by a broadcast, each
  sum taken from the zero word, 32768 the value of its word. `tailK` is that function, spelled operation by operation
  as the program spells it; the result buffer after the host operations is `tailK` of the three arrays' buffers
  before them, whatever else the memory holds.
-/
import proofs.«161975_j33079838114187_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The loss from the three distance arrays: the mean of ic plus the mean of cp · ci / max cp, as the program's host
    operations after the two regions spell it. -/
def tailK (cp ic ci : FVec F S4x8192 .f32) : FVec F S_ .f32 :=
  addf
    (Host.divf
      (Host.reduceAdd ic (constant S_ .f32 0x00000000#32) reducesTo_S4x8192_S_d0_1 h_S_)
      (constant S_ .f32 0x47000000#32))
    (Host.divf
      (Host.reduceAdd
        (Host.divf (mulf cp ci)
          (broadcastInDim S4x8192 ![] bcast_S_S4x8192
            (Host.reduce FloatOps.maximumf cp (constant S_ .f32 0xFF800000#32) reducesTo_S4x8192_S_d0_1 h_S_)))
        (constant S_ .f32 0x00000000#32) reducesTo_S4x8192_S_d0_1 h_S_)
      (constant S_ .f32 0x47000000#32))

/-- The result buffer after the host operations is `tailK` of the three arrays' buffers before them. -/
theorem after_tail (W : Valuation τ sig (Elt F)) :
    StableHlo.after hostOps2 W (Proc.devRef .tc main_v10)
      = tailK (W (Proc.devRef .tc main_v0)) (W (Proc.devRef .tc main_v1_0)) (W (Proc.devRef .tc main_v1_1)) := by
  after_results
  rfl

end Cert.KernelIdeal.Hand

end
-- ==== Proof.KI.Run.lean ====
/- The whole program's run with its result named, for any float instance: the two kernel regions and the host
   operations after them as segments over the thread state "every unscoped buffer at the boundary's contents", the
   contents at each boundary given in closed form (region 0's result array at its tile function, region 1's two result
   arrays at theirs), and the last buffer read back as one function of those three arrays. -/
import proofs.«161975_j33079838114187_2_alg».proof.Proof.Gen.KernelIdeal.Launch
import proofs.«161975_j33079838114187_2_alg».proof.Proof.Gen.KernelIdeal.Skeleton
import proofs.«161975_j33079838114187_2_alg».proof.Proof.Gen.KernelIdeal.Points
import proofs.«161975_j33079838114187_2_alg».proof.Proof.Gen.KernelIdeal.Regions
import proofs.«161975_j33079838114187_2_alg».proof.Proof.KI.Body0
import proofs.«161975_j33079838114187_2_alg».proof.Proof.KI.Final0
import proofs.«161975_j33079838114187_2_alg».proof.Proof.KI.Data1
import proofs.«161975_j33079838114187_2_alg».proof.Proof.KI.Body1
import proofs.«161975_j33079838114187_2_alg».proof.Proof.KI.Exit1
import proofs.«161975_j33079838114187_2_alg».proof.Proof.KI.Tail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, as a valuation of every buffer, -/
abbrev WA : Dev nD → Valuation τ sig (Elt F) := fun c b => m (c, b)
/-- and read at the TensorCore's references (what region 0's proof data take). -/
abbrev VA : (c : Dev nD) → (b : Ref sig .tc) → Buf (Elt F) ((c : Thread nD τ).loc b) := fun c b => WA m c b

/-- What region 0 leaves in its three arrays: the two inputs as found, the result at its tile function. -/
def exit0 (c : Dev nD) : (w : Fin cfg0.W) → Buf (Elt F) ((spec0 w).arr.view.loc (c.tc : Thread nD τ))
  | ⟨0, _⟩ => VA m c (Pipeline.arrRef spec0 0)
  | ⟨1, _⟩ => VA m c (Pipeline.arrRef spec0 1)
  | ⟨2, _⟩ => G0 (VA m) c

/-- At region 0's exit: its arrays at `exit0`, every other buffer as launched. -/
def WB (c : Dev nD) : Valuation τ sig (Elt F) := Pipeline.withArrays spec0 c (WA m c) (exit0 m c)
/-- The same read at the TensorCore's references (what region 1's proof data take). -/
abbrev VB : (c : Dev nD) → (b : Ref sig .tc) → Buf (Elt F) ((c : Thread nD τ).loc b) := fun c b => WB m c b

theorem WB_arr (c : Dev nD) (w : Fin cfg0.W) : WB m c (Proc.devRef .tc (Pipeline.arrRef spec0 w)) = exit0 m c w := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb

/-- What the pipeline's write-backs leave in region 0's arrays is `exit0`: the result array by the cover of its
    tiles, the inputs because an input window is never written back. -/
theorem arrAt0_exit (c : Dev nD) (w : Fin cfg0.W) : (dat0 (VA m) c).arrAt w cfg0.N = exit0 m c w := by
  match w with
  | ⟨0, _⟩ => exact arrAt0_in (VA m) c 0 (Or.inl rfl)
  | ⟨1, _⟩ => exact arrAt0_in (VA m) c 1 (Or.inr rfl)
  | ⟨2, _⟩ => exact final0 (VA m) c

theorem hF0 (c : Dev nD) (w : Fin cfg0.W) : (dat0 (VA m) c).arrAt w cfg0.N = VB m c (Pipeline.arrRef spec0 w) :=
  (arrAt0_exit m c w).trans (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- Region 1's two input arrays are as launched when it is entered: region 0 stages other arrays. -/
theorem VB_main_arg1 (c : Dev nD) : VB m c main_arg1 = m ((c.tc : Thread nD τ).loc main_arg1) :=
  WB_of_ne m c main_arg1 (by decide)

/-- `main_arg2` is region 0's second input array: at region 0's exit it holds what it held at launch. -/
theorem VB_main_arg2 (c : Dev nD) : VB m c main_arg2 = m ((c.tc : Thread nD τ).loc main_arg2) :=
  WB_arr m c 1

/-! ## The proof data family and the thread state -/

/-- Every pipeline's proof data, each at its region's entry contents: region 0's exact data read as relational
    data, region 1's relational data — a literal `match`, so that the family at a numeral reduces. -/
def rdats : (p : Fin 2) → (c : Dev nD) → RDat τ (Elt F) Unit ℕ (UR sig nD τ) ℕ (Pipeline.pin (pcfgs (F := F)) adm p) c
  | ⟨0, _⟩ => fun c => (dat0 (VA m) c).toR
  | ⟨1, _⟩ => fun c => rdat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, at nothing. -/
abbrev R (c : Dev nD) : sProp 𝕄 := iprop((∃ r, prngReg c r) ∗ ∃ W, owes (c : Thread nD τ) (0 : CellTallies nD τ sig Unit) W)

/-- A pipeline's arrays at contents `A` and the unscoped rest at `V` are the core's unscoped buffers at any valuation
    `V'` that has the arrays at `A` and agrees with `V` off them — for a family of relational proof data. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the launch contents, left at `WB`. Its
    arrays are split out of the unscoped buffers and put back at the exit contents; the generator register goes into
    the class invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (VA m) c).loose).toR
  hwaits := Pipeline.RDat.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VA m c) fun _ => rfl
    rw [Pipeline.unscopedBufs_held] at hsplit
    rw [show (rdats m 0 c).owesAt () 0 = (dat0 (VA m) c).owesAt () 0 from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop(((dat0 (VA m) c).arrays ((dat0 (VA m) c).arrAt · cfg0.N) : sProp 𝕄)
          ∗ Pipeline.unscopedRest (Ix := Unit) (Name := ℕ) (U := UR sig nD τ) (Lvl := ℕ) spec0 c (VA m c))
        ⊢ (StableHlo.held (c : Thread nD τ) (Pipeline.ucRefs τ sig) (WB m c) : sProp 𝕄) := by
      have h := unscopedBufs_of_arraysR (p := 0) launch0.win launch0.arr_whole c (rdats m) ((rdats m 0 c).share_full fun _ => rfl)
        (VA m c) (VB m c) ((dat0 (VA m) c).arrAt · cfg0.N) (hF0 m c) (hrest0 m c)
      rw [Pipeline.unscopedBufs_held] at h
      exact h
    rw [show (rdats m 0 c).arraysAt (Pipeline.pin (pcfgs (F := F)) adm 0).N = ((dat0 (VA m) c).arrays ((dat0 (VA m) c).arrAt · cfg0.N) : sProp 𝕄)
        from (dat0 (VA m) c).toR_arraysAt_eq cfg0.N,
      show (rdats m 0 c).owesAt () (Fin.last (Pipeline.pin (pcfgs (F := F)) adm 0).N) = (dat0 (VA m) c).owesAt () (Fin.last cfg0.N) from rfl]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's exit contents and region 1 as a segment -/

/-- At region 1's exit: its arrays at what it leaves, every other buffer as at its entry. -/
def WC (c : Dev nD) : Valuation τ sig (Elt F) := Pipeline.withArrays spec1 c (WB m c) (exit1 (VB m) c)
abbrev VC : (c : Dev nD) → (b : Ref sig .tc) → Buf (Elt F) ((c : Thread nD τ).loc b) := fun c b => WC m c b

theorem WC_arr (c : Dev nD) (w : Fin cfg1.W) : WC m c (Proc.devRef .tc (Pipeline.arrRef spec1 w)) = exit1 (VB m) c w := by
  unfold WC; exact Pipeline.withArrays_arr spec1 launch1.win.arr_inj c _ _ w
theorem WC_of_ne (c : Dev nD) (b : Ref sig .tc) (hb : ∀ w, Pipeline.arrRef spec1 w ≠ b) :
    WC m c (Proc.devRef .tc b) = WB m c (Proc.devRef .tc b) := by
  unfold WC; exact Pipeline.withArrays_of_ne spec1 c _ _ b hb
theorem hF1 (c : Dev nD) (w : Fin cfg1.W) : exit1 (VB m) c w = VC m c (Pipeline.arrRef spec1 w) := (WC_arr m c w).symm
theorem hrest1 (c : Dev nD) : ∀ b, b ∉ Finset.univ.image (Pipeline.arrRef spec1) → VC m c b = VB m c b :=
  fun b hb => WC_of_ne m c b fun w e => hb (Finset.mem_image.mpr ⟨w, Finset.mem_univ _, e⟩)

set_option backward.isDefEq.respectTransparency.types false in
/-- Region 1 over the thread state: entered from every unscoped buffer at `WB`, left at `WC`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (VB m) c
  hwaits := Pipeline.RDat.hwaits_of_owed_zero _ _ _ _ L lv 1 fun c t => rdat1_owed (VB m) c t
  pre c := iprop(StableHlo.held (c : Thread nD τ) (Pipeline.ucRefs τ sig) (WB m c) ∗ R c)
  post c := iprop(StableHlo.held (c : Thread nD τ) (Pipeline.ucRefs τ sig) (WC m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VB m c) fun w => rdat1_A (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 1 c).owesAt () 0 = (rdat1 (VB m) c).owesAt () 0 from rfl]
      unfold Pipeline.RDat.owesAt Pipeline.owesWithin
      rw [rdat1_owed]
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (hin1 (VB m) c)
  hout c := by
    rw [Pipeline.ownSems0_none]
    have hA : (Pipeline.ΦA spec1 c : sProp 𝕄) ⊢ iprop((∃ r, prngReg c r) ∗ BI.emp
          ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (VB m) c).trans hA
  hexit c := by
    have hjoin : iprop(((rdat1 (VB m) c).arrays (exit1 (VB m) c) : sProp 𝕄)
          ∗ Pipeline.unscopedRest (Ix := Unit) (Name := ℕ) (U := UR sig nD τ) (Lvl := ℕ) spec1 c (VB m c))
        ⊢ (StableHlo.held (c : Thread nD τ) (Pipeline.ucRefs τ sig) (WC m c) : sProp 𝕄) := by
      have h := unscopedBufs_of_arraysR (p := 1) launch1.win launch1.arr_whole c (rdats m) ((rdats m 1 c).share_full fun _ => rfl)
        (VB m c) (VC m c) (exit1 (VB m) c) (hF1 m c) (hrest1 m c)
      rw [Pipeline.unscopedBufs_held] at h
      exact h
    rw [show (rdats m 1 c).arraysAt (Pipeline.pin (pcfgs (F := F)) adm 1).N = ((rdat1 (VB m) c).arraysAt cfg1.N : sProp 𝕄) from rfl,
      show (rdats m 1 c).owesAt () (Fin.last (Pipeline.pin (pcfgs (F := F)) adm 1).N) = (rdat1 (VB m) c).owesAt () (Fin.last cfg1.N) from rfl]
    iintro ⟨Ha, HO, HY, Hrest⟩
    ihave Ha' := (arraysAt1_named (VB m) c) $$ Ha
    imodintro
    isplitl [Ha' Hrest]
    · iapply hjoin; isplitl [Ha'] <;> iassumption
    isplitl [HY]; · iexact HY
    unfold Pipeline.RDat.owesAt Pipeline.owesWithin
    rw [rdat1_owed]
    icases HO with ⟨%W, -, HO⟩; iexists W; iexact HO

/-! ## The last boundary: after the host operations -/

/-- After the host operations (what the launch reads at the end). -/
abbrev WD : Dev nD → Valuation τ sig (Elt F) := fun c => StableHlo.after hostOps2 (WC m c)

/-- At region 1's exit region 0's result array still holds its tile function: region 1 stages other arrays. -/
theorem WC_main_v0 (c : Dev nD) : WC m c (Proc.devRef .tc main_v0) = G0 (VA m) c :=
  (WC_of_ne m c main_v0 (by decide)).trans (WB_arr m c 2)
/-- Region 1's two result arrays at its exit. -/
theorem WC_main_v1_0 (c : Dev nD) : WC m c (Proc.devRef .tc main_v1_0) = G1_2 (VB m) c := WC_arr m c 2
theorem WC_main_v1_1 (c : Dev nD) : WC m c (Proc.devRef .tc main_v1_1) = G1_3 (VB m) c := WC_arr m c 3

/-- The program's result buffer after the run: the host operations' function of the three arrays the regions leave. -/
theorem WD_main_v10 (c : Dev nD) :
    WD m c (Proc.devRef .tc main_v10) = tailK (G0 (VA m) c) (G1_2 (VB m) c) (G1_3 (VB m) c) := by
  show StableHlo.after hostOps2 (WC m c) (Proc.devRef .tc main_v10) = _
  rw [after_tail (WC m c), WC_main_v0, WC_main_v1_0, WC_main_v1_1]

/-- No host operation writes an argument, region 1 only reads `main_arg1` and `main_arg2`, region 0 only reads
    `main_arg0` and `main_arg2`: each argument ends as launched. -/
theorem WD_main_arg0 (c : Dev nD) : WD m c (Proc.devRef .tc main_arg0) = m ((c.tc : Thread nD τ).loc main_arg0) :=
  (StableHlo.after_of_writes_sub hostOps2 _ hostOps2_writes (by decide : main_arg0 ∉ hostOps2_W)).trans
    ((WC_of_ne m c main_arg0 (by decide)).trans (WB_arr m c 0))
theorem WD_main_arg1 (c : Dev nD) : WD m c (Proc.devRef .tc main_arg1) = m ((c.tc : Thread nD τ).loc main_arg1) :=
  (StableHlo.after_of_writes_sub hostOps2 _ hostOps2_writes (by decide : main_arg1 ∉ hostOps2_W)).trans
    ((WC_arr m c 0).trans (VB_main_arg1 m c))
theorem WD_main_arg2 (c : Dev nD) : WD m c (Proc.devRef .tc main_arg2) = m ((c.tc : Thread nD τ).loc main_arg2) :=
  (StableHlo.after_of_writes_sub hostOps2 _ hostOps2_writes (by decide : main_arg2 ∉ hostOps2_W)).trans
    ((WC_arr m c 1).trans (VB_main_arg2 m c))

/-! ## @main as segments, and the launch -/

/-- The host stretch after the regions as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last boundary's contents, the
    generator register at some state. -/
abbrev Tₙ (c : Dev nD) : sProp 𝕄 := iprop(StableHlo.held (c : Thread nD τ) (Pipeline.ucRefs τ sig) (WD m c) ∗ ∃ r, prngReg c r)

/-- @main's three segments in order: the two regions, then the host stretch from region 1's exit contents. -/
abbrev segs : List (Pipeline.RDat.Seg (pcfgs (F := F)) adm (rdats m) () defs₀ 𝒱₀ L lv) :=
  [ .region (reg0 m),
    .region (reg1 m),
    .host (hseg hostOps2 hostOps2_sub hostOps2_fresh (WC m)) ]

/-- @main is the run of the segments. -/
theorem main_run (c : Dev nD) : main (F := F) c = Pipeline.RDat.Seg.run (segs m) := (main_chain c).trans (by chain_rfl)

set_option backward.isDefEq.respectTransparency.types false in
/-- The run, read: at the compiled mesh, from any memory with zero counters, every weakly fair execution of @main on
    the TensorCores terminates, nothing faulting, and every final state has the result buffer at the host operations'
    function of the three arrays the regions leave, and the argument arrays as launched. -/
theorem run_main : θ_run defs (onTc (τ := τ) (main (F := F))) ⟨m, fun _ => 0, ρ⟩ (fun r => ∀ c : Dev nD,
      r.2.mem ((c.tc : Thread nD τ).loc main_v10) = tailK (G0 (VA m) c) (G1_2 (VB m) c) (G1_3 (VB m) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun c => by
      show iprop(StableHlo.held (c : Thread nD τ) (Pipeline.ucRefs τ sig) (WD m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h c =>
      ⟨(h c _ (mem_uc main_v10 (by decide))).trans (WD_main_v10 m c),
       (h c _ (mem_uc main_arg0 (by decide))).trans (WD_main_arg0 m c),
       (h c _ (mem_uc main_arg1 (by decide))).trans (WD_main_arg1 m c),
       (h c _ (mem_uc main_arg2 (by decide))).trans (WD_main_arg2 m c)⟩)

end Cert.KernelIdeal.Hand

end
-- ==== Proof.Spec.lean ====
/-
  The three distance arrays of the weighted chamfer loss, as functions of the point clouds, on the extended reals.

  For point clouds x : [4, N, 3] and y : [4, M, 3] the squared distance of point n of x to point m of y in batch b is
  written the way both programs compute it, |x|² + |y|² − 2·⟨x, y⟩ with each of the three terms a sum over the three
  coordinates (`d2`). The loss uses three arrays of shape [4, 8192]:
    * `cpAt p c b m`  — the least squared distance from point m of `c` to the 2048 points of `p`;
    * `icAt i c b n`  — the least squared distance from point n of `i` to the 8192 points of `c`;
    * `ciAt i c b m`  — the least squared distance from point m of `c` to the 8192 points of `i`.
  A least value over a finite family is the fold of `min` from the value of the +infinity word (`top`), the form a
  minimum reduction takes at the ideal values; `two` is the value of the word of 2.0. Both words are kept as words:
  the same word stands on both sides of the comparison and is never evaluated.
-/
import Idealize.ShloMosaic.PureOps.Ideal
import Idealize.ShloMosaic.Lib.ValueIdx

noncomputable section

namespace Cert.Chamfer

open Idealize.ShloMosaic Idealize.ShloMosaic.ValueIdx

/-- The value of the word of 2.0. -/
def two : EReal := (FloatOps.ofBits (F := Ideal) .f32 0x40000000#32 : Ideal .f32)
/-- The value of the +infinity word, from which every minimum here starts. -/
def top : EReal := (FloatOps.ofBits (F := Ideal) .f32 0x7F800000#32 : Ideal .f32)

/-- The squared distance of two points given by their three coordinates, as |x|² + |y|² − 2·⟨x, y⟩. -/
def d2 (x y : Fin 3 → EReal) : EReal :=
  ((∑ k : Fin 3, x k * x k) + (∑ k : Fin 3, y k * y k)) - two * (∑ k : Fin 3, x k * y k)

/-- The least of a finite family, from `top`. -/
def minOver {n : Nat} (f : Fin n → EReal) : EReal := (Finset.univ : Finset (Fin n)).fold min top f

/-- Point `n` of batch `b` of a cloud of `N` points, as its three coordinates. -/
def pt {N : Nat} (x : (⟨3, ![4, N, 3]⟩ : Shape).Idx → EReal) (b : Fin 4) (n : Fin N) : Fin 3 → EReal :=
  fun k => x (ix3 b n k)

/-- Least squared distance from point `m` of `c` to the points of `p`. -/
def cpAt (p : (⟨3, ![4, 2048, 3]⟩ : Shape).Idx → EReal) (c : (⟨3, ![4, 8192, 3]⟩ : Shape).Idx → EReal)
    (b : Fin 4) (m : Fin 8192) : EReal :=
  minOver fun n : Fin 2048 => d2 (pt p b n) (pt c b m)

/-- Least squared distance from point `n` of `i` to the points of `c`. -/
def icAt (i c : (⟨3, ![4, 8192, 3]⟩ : Shape).Idx → EReal) (b : Fin 4) (n : Fin 8192) : EReal :=
  minOver fun m : Fin 8192 => d2 (pt i b n) (pt c b m)

/-- Least squared distance from point `m` of `c` to the points of `i`. -/
def ciAt (i c : (⟨3, ![4, 8192, 3]⟩ : Shape).Idx → EReal) (b : Fin 4) (m : Fin 8192) : EReal :=
  minOver fun n : Fin 8192 => d2 (pt i b n) (pt c b m)

/-- A function of (batch, point) as an array of shape [4, 8192]. -/
def arr2 (f : Fin 4 → Fin 8192 → EReal) : (⟨2, ![4, 8192]⟩ : Shape).Idx → EReal := fun j => f (j 0) (j 1)

theorem arr2_ix2 (f : Fin 4 → Fin 8192 → EReal) (b : Fin 4) (m : Fin 8192) : arr2 f (ix2 b m) = f b m := rfl

end Cert.Chamfer

end
-- ==== Proof.LibMinReduce.lean ====
/-
  A float `vector.multi_reduction <minimumf>` over ONE axis, read at the ideal values: at each reduced index it is the
  fold of `min`, from the accumulator's value, over that axis's coordinates of the source (the reduced index with the
  coordinate inserted, `Shape.Reduces.lift`). This is the `<minimumf>` companion of the library's
  `Ideal.multiReduction_maximumf_single`, for any shapes, axis and float format.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's or a column's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibLastAxisRows.lean ====
/-
  Row statistics along the LAST axis of a rank-3 vector, at the ideal values, for any extents a, b, c.

  A softmax (or any normalisation with keepdims) over the last axis of an [a, b, c] vector takes a statistic of each
  row (p, q, ·) — its maximum, its sum — as a `vector.multi_reduction` over axis 2 into [a, b], and puts it back
  beside every entry of the row by a `vector.shape_cast` [a, b] → [a, b, 1] followed by a `vector.broadcast`
  [a, b, 1] → [a, b, c]. Read at (p, q, k):
  * `lift_last`: the reduced index (p, q) with coordinate `k` put back on axis 2 is (p, q, k);
  * `multiReduction_add_last`: the `<add>` reduction at (p, q) is `∑ k, src (p, q, k)`;
  * `multiReduction_maximumf_last`: the `<maximumf>` reduction at (p, q) is the fold of `max`, from the accumulator's
    value, over `k ↦ src (p, q, k)`;
  * `keepdims_last`: the cast and the broadcast read, at (p, q, k), the statistic at (p, q) — for `c = 1` too, and
    whatever `a` and `b` are.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.LastAxisRows

open Idealize.ShloMosaic Idealize.ShloMosaic.ValueIdx

variable {a b c : Nat}

/-- The reduced index (p, q) with coordinate `k` put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float `vector.multi_reduction <add>` over the last axis, at (p, q): the sum of the row's entries. -/
theorem multiReduction_add_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float `vector.multi_reduction <maximumf>` over the last axis, at (p, q): the fold of `max` over the row's
    entries, from the accumulator's value. -/
theorem multiReduction_maximumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] (⟨2, ![a, b]⟩ : Shape) src acc h hφ hacc (ix2 p q)
      = (Finset.univ : Finset (Fin c)).fold max (FloatOps.ofBits φ acc) (fun k => src (ix3 p q k)) := by
  refine (Ideal.multiReduction_maximumf_single src acc h hφ hacc (ix2 p q)).trans ?_
  have hf : (src ∘ h.lift (ix2 p q)) = fun k : Fin c => src (ix3 p q k) := funext fun k => congrArg src (lift_last h p q k)
  exact congrArg (fun f => Finset.fold max (FloatOps.ofBits φ acc) f (Finset.univ : Finset (Fin c))) hf

/-- A row statistic put back on its row (keepdims): the cast to a unit last axis and the broadcast along it read, at
    (p, q, k), the statistic at (p, q). -/
theorem keepdims_last {α : Type} (R : (⟨2, ![a, b]⟩ : Shape).Idx → α)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (k : Fin c) :
    broadcastTo (⟨3, ![a, b, c]⟩ : Shape) (shapeCast (⟨3, ![a, b, 1]⟩ : Shape) R h1) h2 (ix3 p q k) = R (ix2 p q) := by
  refine (broadcastTo_apply (shapeCast (⟨3, ![a, b, 1]⟩ : Shape) R h1) h2 (ix3 p q k) (ix3 p q (0 : Fin 1)) ?_).trans ?_
  · intro d
    match d with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => exact (if_pos rfl).symm
  · refine shapeCast_apply R h1 (ix3 p q (0 : Fin 1)) (ix2 p q) ?_
    rw [Shape.rowMajor_val_two, Shape.rowMajor_val_three]
    show p.val * b + q.val = (p.val * b + q.val) * 1 + 0
    omega

end Idealize.ShloMosaic.LastAxisRows

end
-- ==== Proof.LibMidAxisRows.lean ====
/-
  Row statistics along the MIDDLE axis of a rank-3 vector, and the layout steps beside them, at the ideal values, for
  any extents a, b, c.

  A normalisation over the middle axis of an [a, b, c] vector takes a statistic of each line (p, ·, k) — its maximum,
  its sum — as a `vector.multi_reduction` over axis 1 into [a, c], and puts it back beside every entry of the line by a
  `vector.shape_cast` [a, c] → [a, 1, c] followed by a `vector.broadcast` [a, 1, c] → [a, b, c]. Read at (p, q, k):
  * `lift_mid`: the reduced index (p, k) with coordinate `q` put back on axis 1 is (p, q, k);
  * `multiReduction_add_mid`: the `<add>` reduction at (p, k) is `∑ q, src (p, q, k)`;
  * `multiReduction_maximumf_mid`: the `<maximumf>` reduction at (p, k) is the fold of `max`, from the accumulator's
    value, over `q ↦ src (p, q, k)`;
  * `keepdims_mid`: the cast and the broadcast read, at (p, q, k), the statistic at (p, k) — for `b = 1` too, and
    whatever `a` and `c` are;
  * `squeeze_mid` / `unsqueeze_mid`: a shape cast that drops or adds a unit middle axis keeps (p, k) beside (p, 0, k);
  * `transpose_021`: the last two axes swapped, read at (p, k, q), is the operand at (p, q, k);
  * `concat_axis1` (and `concat_axis1_of_eq`, the joined extent a name of its own): two matrices joined along their
    columns read, at (p, j), the first at (p, j) when `j` is below its width and the second at (p, j − width) otherwise.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.MidAxisRows

open Idealize.ShloMosaic Idealize.ShloMosaic.ValueIdx

variable {a b c : Nat}

/-- The reduced index (p, k) with coordinate `q` put back on the middle axis is (p, q, k). -/
theorem lift_mid (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- A float `vector.multi_reduction <add>` over the middle axis, at (p, k): the sum over q of the entries (p, q, k). -/
theorem multiReduction_add_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.add.neutral φ hφ) (p : Fin a) (k : Fin c) :
    multiReduction .add [1] (⟨2, ![a, c]⟩ : Shape) src acc h hφ hacc (ix2 p k) = ∑ q : Fin b, src (ix3 p q k) := by
  refine (Ideal.multiReduction_add_single src acc h hφ hacc (ix2 p k)).trans ?_
  exact Finset.sum_congr rfl fun q _ => congrArg src (lift_mid h p k q)

/-- A float `vector.multi_reduction <maximumf>` over the middle axis, at (p, k): the fold of `max` over the entries
    (p, q, k), q running, from the accumulator's value. -/
theorem multiReduction_maximumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (k : Fin c) :
    multiReduction .maximumf [1] (⟨2, ![a, c]⟩ : Shape) src acc h hφ hacc (ix2 p k)
      = (Finset.univ : Finset (Fin b)).fold max (FloatOps.ofBits φ acc) (fun q => src (ix3 p q k)) := by
  refine (Ideal.multiReduction_maximumf_single src acc h hφ hacc (ix2 p k)).trans ?_
  have hf : (src ∘ h.lift (ix2 p k)) = fun q : Fin b => src (ix3 p q k) := funext fun q => congrArg src (lift_mid h p k q)
  exact congrArg (fun f => Finset.fold max (FloatOps.ofBits φ acc) f (Finset.univ : Finset (Fin b))) hf

/-- A line statistic put back on its line (keepdims): the cast to a unit middle axis and the broadcast along it read,
    at (p, q, k), the statistic at (p, k). -/
theorem keepdims_mid {α : Type} (R : (⟨2, ![a, c]⟩ : Shape).Idx → α)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (k : Fin c) :
    broadcastTo (⟨3, ![a, b, c]⟩ : Shape) (shapeCast (⟨3, ![a, 1, c]⟩ : Shape) R h1) h2 (ix3 p q k) = R (ix2 p k) := by
  refine (broadcastTo_apply (shapeCast (⟨3, ![a, 1, c]⟩ : Shape) R h1) h2 (ix3 p q k) (ix3 p (0 : Fin 1) k) ?_).trans ?_
  · intro d
    match d with
    | ⟨0, _⟩ =>
      show p.val = if a = 1 then 0 else p.val
      split
      · have := p.isLt; omega
      · rfl
    | ⟨1, _⟩ => exact (if_pos rfl).symm
    | ⟨2, _⟩ =>
      show k.val = if c = 1 then 0 else k.val
      split
      · have := k.isLt; omega
      · rfl
  · refine shapeCast_apply R h1 (ix3 p (0 : Fin 1) k) (ix2 p k) ?_
    rw [Shape.rowMajor_val_two, Shape.rowMajor_val_three]
    show p.val * c + k.val = (p.val * 1 + 0) * c + k.val
    rw [Nat.mul_one, Nat.add_zero]

/-- A shape cast that drops a unit middle axis reads, at (p, k), the operand at (p, 0, k). -/
theorem squeeze_mid {α : Type} (x : (⟨3, ![a, 1, c]⟩ : Shape).Idx → α)
    (h : (⟨3, ![a, 1, c]⟩ : Shape).ShapeCasts (⟨2, ![a, c]⟩ : Shape)) (p : Fin a) (k : Fin c) :
    shapeCast (⟨2, ![a, c]⟩ : Shape) x h (ix2 p k) = x (ix3 p (0 : Fin 1) k) := by
  refine shapeCast_apply x h (ix2 p k) (ix3 p (0 : Fin 1) k) ?_
  rw [Shape.rowMajor_val_two, Shape.rowMajor_val_three]
  show (p.val * 1 + 0) * c + k.val = p.val * c + k.val
  rw [Nat.mul_one, Nat.add_zero]

/-- A shape cast that adds a unit middle axis reads, at (p, 0, k), the operand at (p, k). -/
theorem unsqueeze_mid {α : Type} (y : (⟨2, ![a, c]⟩ : Shape).Idx → α)
    (h : (⟨2, ![a, c]⟩ : Shape).ShapeCasts (⟨3, ![a, 1, c]⟩ : Shape)) (p : Fin a) (k : Fin c) :
    shapeCast (⟨3, ![a, 1, c]⟩ : Shape) y h (ix3 p (0 : Fin 1) k) = y (ix2 p k) := by
  refine shapeCast_apply y h (ix3 p (0 : Fin 1) k) (ix2 p k) ?_
  rw [Shape.rowMajor_val_two, Shape.rowMajor_val_three]
  show p.val * c + k.val = (p.val * 1 + 0) * c + k.val
  rw [Nat.mul_one, Nat.add_zero]

/-- A stack of matrices, each transposed (the last two axes swapped), reads, at (p, k, q), the operand at (p, q, k). -/
theorem transpose_021 {α : Type} (x : (⟨3, ![a, b, c]⟩ : Shape).Idx → α)
    (h : (⟨3, ![a, b, c]⟩ : Shape).Transposes [0, 2, 1] (⟨3, ![a, c, b]⟩ : Shape)) (p : Fin a) (k : Fin c) (q : Fin b) :
    transpose (⟨3, ![a, c, b]⟩ : Shape) [0, 2, 1] x h (ix3 p k q) = x (ix3 p q k) :=
  transpose_apply _ x h _ _ fun d => match d with | ⟨0, _⟩ => rfl | ⟨1, _⟩ => rfl | ⟨2, _⟩ => rfl

/-- Two matrices with the same rows joined along their columns, the joined width named `n`: at (p, j) the first at
    (p, j) when `j` is below its width `b1`, the second at (p, j − b1) otherwise. -/
theorem concat_axis1_of_eq {α : Type} {b1 b2 n : Nat} (hn : n = b1 + b2) (x : (⟨2, ![a, b1]⟩ : Shape).Idx → α)
    (y : (⟨2, ![a, b2]⟩ : Shape).Idx → α)
    (h : Shape.Concatenates [(⟨2, ![a, b1]⟩ : Shape), (⟨2, ![a, b2]⟩ : Shape)] (⟨2, ![a, n]⟩ : Shape) 1) (p : Fin a)
    (j : Fin n) :
    concatenate (⟨2, ![a, n]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by have := j.isLt; omega⟩) := by
  by_cases hj : j.val < b1
  · rw [dif_pos hj]
    refine concatenate_pair_apply_left 1 x y h (ix2 p j) rfl (ix2 p ⟨j.val, hj⟩) ?_
    intro d
    match d with
    | ⟨0, _⟩ => rfl
    | ⟨1, _⟩ => rfl
  · rw [dif_neg hj]
    refine concatenate_pair_apply_right 1 x y h (ix2 p j) rfl rfl (ix2 p ⟨j.val - b1, by have := j.isLt; omega⟩) ?_ ?_
    · intro d hd
      match d, hd with
      | ⟨0, _⟩, _ => rfl
      | ⟨1, _⟩, hd => exact absurd rfl hd
    · show j.val - b1 + b1 = j.val
      omega

/-- Two matrices with the same rows joined along their columns: at (p, j) the first at (p, j) when `j` is below its
    width `b1`, the second at (p, j − b1) otherwise. -/
theorem concat_axis1 {α : Type} {b1 b2 : Nat} (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, b1 + b2]⟩ : Shape) 1) (p : Fin a)
    (j : Fin (b1 + b2)) :
    concatenate (⟨2, ![a, b1 + b2]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by omega⟩) :=
  concat_axis1_of_eq rfl x y h p j

end Idealize.ShloMosaic.MidAxisRows

end
-- ==== Proof.PayLayout.lean ====
/-
  The layout steps by which a program spreads the coordinates and the squared norms of two point clouds over the array
  of all pairs, read at an index, at the ideal values, for any extents a, b, c.

  For clouds x : [a, b, n] and y : [a, c, n] the array of pairs has shape [a, b, c]: entry (p, q, r) pairs point q of x
  with point r of y in batch p. A quantity of x's points (one number per (p, q)) is put along the rows by a cast
  [a, b] → [a, b, 1] and a broadcast [a, b, 1] → [a, b, c]; a quantity of y's points (one number per (p, r)) is put along
  the columns by a cast [a, c] → [a, 1, c] and a broadcast [a, 1, c] → [a, b, c]. The quantities are
  * coordinate k of each point: the slice [a, b, n] → [a, b, 1] at offset (0, 0, k) with its unit axis dropped
    (`coord_col`), spread along the rows (`coord_rows`) or along the columns (`coord_cols`);
  * the squared norm of each point: the sum over the last axis of the entrywise square, spread along the rows
    (`sqnorm_rows`) or along the columns (`sqnorm_cols`).
  `multiReduction_minimumf_last` and `multiReduction_minimumf_mid` read a minimum reduction of the array of pairs over
  its columns (axis 2) or its rows (axis 1) as a fold of `min`, and `d2_of_parts` puts the seven spread quantities
  together into the squared distance |x|² + |y|² − 2·⟨x, y⟩ of the specification.
-/
import proofs.«161975_j33079838114187_2_alg».proof.Proof.Spec
import proofs.«161975_j33079838114187_2_alg».proof.Proof.LibMinReduce
import proofs.«161975_j33079838114187_2_alg».proof.Proof.LibLastAxisRows
import proofs.«161975_j33079838114187_2_alg».proof.Proof.LibMidAxisRows

noncomputable section

namespace Cert.KernelIdeal.PayIdeal

open Cert.Chamfer Idealize.ShloMosaic Idealize.ShloMosaic.ValueIdx

section Layout

variable {a b c : Nat} {α : Type}

/-- A shape cast that drops a unit last axis reads, at (p, q), the operand at (p, q, 0). -/
theorem squeeze_last (x : (⟨3, ![a, b, 1]⟩ : Shape).Idx → α)
    (h : (⟨3, ![a, b, 1]⟩ : Shape).ShapeCasts (⟨2, ![a, b]⟩ : Shape)) (p : Fin a) (q : Fin b) :
    shapeCast (⟨2, ![a, b]⟩ : Shape) x h (ix2 p q) = x (ix3 p q (0 : Fin 1)) := by
  refine shapeCast_apply x h (ix2 p q) (ix3 p q (0 : Fin 1)) ?_
  rw [Shape.rowMajor_val_two, Shape.rowMajor_val_three]
  show (p.val * b + q.val) * 1 + 0 = p.val * b + q.val
  omega

/-- Coordinate `k` of every point of a cloud: the slice [a, b, n] → [a, b, 1] at offset (0, 0, k) with its unit axis
    dropped reads, at (p, q), the entry (p, q, k). -/
theorem coord_col {n : Nat} (ko : Nat) (k : Fin n) (hk : k.val = ko) (x : (⟨3, ![a, b, n]⟩ : Shape).Idx → α)
    (hs : (⟨3, ![a, b, n]⟩ : Shape).Slices ![0, 0, ko] (⟨3, ![a, b, 1]⟩ : Shape))
    (hc : (⟨3, ![a, b, 1]⟩ : Shape).ShapeCasts (⟨2, ![a, b]⟩ : Shape)) (p : Fin a) (q : Fin b) :
    shapeCast (⟨2, ![a, b]⟩ : Shape) (extractStridedSlice (⟨3, ![a, b, 1]⟩ : Shape) ![0, 0, ko] x hs) hc (ix2 p q)
      = x (ix3 p q k) := by
  refine (squeeze_last _ hc p q).trans ?_
  refine extractStridedSlice_apply _ x hs (ix3 p q (0 : Fin 1)) (ix3 p q k) ?_
  intro d
  match d with
  | ⟨0, _⟩ => show p.val = 0 + p.val; omega
  | ⟨1, _⟩ => show q.val = 0 + q.val; omega
  | ⟨2, _⟩ => show k.val = ko + 0; omega

/-- Coordinate `k` of the points of `x` along the rows of the array of pairs: at (p, q, r) it is x (p, q, k). -/
theorem coord_rows {n : Nat} (ko : Nat) (k : Fin n) (hk : k.val = ko) (x : (⟨3, ![a, b, n]⟩ : Shape).Idx → α)
    (hs : (⟨3, ![a, b, n]⟩ : Shape).Slices ![0, 0, ko] (⟨3, ![a, b, 1]⟩ : Shape))
    (hc : (⟨3, ![a, b, 1]⟩ : Shape).ShapeCasts (⟨2, ![a, b]⟩ : Shape))
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (r : Fin c) :
    broadcastTo (⟨3, ![a, b, c]⟩ : Shape) (shapeCast (⟨3, ![a, b, 1]⟩ : Shape)
        (shapeCast (⟨2, ![a, b]⟩ : Shape) (extractStridedSlice (⟨3, ![a, b, 1]⟩ : Shape) ![0, 0, ko] x hs) hc) h1) h2
        (ix3 p q r)
      = x (ix3 p q k) :=
  (LastAxisRows.keepdims_last _ h1 h2 p q r).trans (coord_col ko k hk x hs hc p q)

/-- Coordinate `k` of the points of `y` along the columns of the array of pairs: at (p, q, r) it is y (p, r, k). -/
theorem coord_cols {n : Nat} (ko : Nat) (k : Fin n) (hk : k.val = ko) (y : (⟨3, ![a, c, n]⟩ : Shape).Idx → α)
    (hs : (⟨3, ![a, c, n]⟩ : Shape).Slices ![0, 0, ko] (⟨3, ![a, c, 1]⟩ : Shape))
    (hc : (⟨3, ![a, c, 1]⟩ : Shape).ShapeCasts (⟨2, ![a, c]⟩ : Shape))
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (r : Fin c) :
    broadcastTo (⟨3, ![a, b, c]⟩ : Shape) (shapeCast (⟨3, ![a, 1, c]⟩ : Shape)
        (shapeCast (⟨2, ![a, c]⟩ : Shape) (extractStridedSlice (⟨3, ![a, c, 1]⟩ : Shape) ![0, 0, ko] y hs) hc) h1) h2
        (ix3 p q r)
      = y (ix3 p r k) :=
  (MidAxisRows.keepdims_mid _ h1 h2 p q r).trans (coord_col ko k hk y hs hc p r)

/-- The squared norm of the points of `x` along the rows of the array of pairs: at (p, q, r) it is ∑ k, x (p, q, k)². -/
theorem sqnorm_rows {φ : FTy} {n : Nat} (x : FVec Ideal (⟨3, ![a, b, n]⟩ : Shape) φ) (acc : BitVec φ.bits)
    (h : (⟨3, ![a, b, n]⟩ : Shape).Reduces [2] (⟨2, ![a, b]⟩ : Shape)) (hφ : FKind.Formats φ)
    (hacc : acc = FKind.add.neutral φ hφ)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (r : Fin c) :
    broadcastTo (⟨3, ![a, b, c]⟩ : Shape) (shapeCast (⟨3, ![a, b, 1]⟩ : Shape)
        (multiReduction .add [2] (⟨2, ![a, b]⟩ : Shape) (mulf x x) acc h hφ hacc) h1) h2 (ix3 p q r)
      = ∑ k : Fin n, x (ix3 p q k) * x (ix3 p q k) :=
  (LastAxisRows.keepdims_last _ h1 h2 p q r).trans
    (LastAxisRows.multiReduction_add_last (mulf x x) acc h hφ hacc p q)

/-- The squared norm of the points of `y` along the columns of the array of pairs: at (p, q, r) it is ∑ k, y (p, r, k)². -/
theorem sqnorm_cols {φ : FTy} {n : Nat} (y : FVec Ideal (⟨3, ![a, c, n]⟩ : Shape) φ) (acc : BitVec φ.bits)
    (h : (⟨3, ![a, c, n]⟩ : Shape).Reduces [2] (⟨2, ![a, c]⟩ : Shape)) (hφ : FKind.Formats φ)
    (hacc : acc = FKind.add.neutral φ hφ)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (r : Fin c) :
    broadcastTo (⟨3, ![a, b, c]⟩ : Shape) (shapeCast (⟨3, ![a, 1, c]⟩ : Shape)
        (multiReduction .add [2] (⟨2, ![a, c]⟩ : Shape) (mulf y y) acc h hφ hacc) h1) h2 (ix3 p q r)
      = ∑ k : Fin n, y (ix3 p r k) * y (ix3 p r k) :=
  (MidAxisRows.keepdims_mid _ h1 h2 p q r).trans
    (LastAxisRows.multiReduction_add_last (mulf y y) acc h hφ hacc p r)

/-- A float `vector.multi_reduction <minimumf>` over the last axis, at (p, q): the fold of `min` over the row's
    entries, from the accumulator's value. -/
theorem multiReduction_minimumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.minimumf.neutral φ hφ) (p : Fin a) (q : Fin b) :
    multiReduction .minimumf [2] (⟨2, ![a, b]⟩ : Shape) src acc h hφ hacc (ix2 p q)
      = (Finset.univ : Finset (Fin c)).fold min (FloatOps.ofBits φ acc) (fun k => src (ix3 p q k)) := by
  refine (Ideal.multiReduction_minimumf_single src acc h hφ hacc (ix2 p q)).trans ?_
  have hf : (src ∘ h.lift (ix2 p q)) = fun k : Fin c => src (ix3 p q k) :=
    funext fun k => congrArg src (LastAxisRows.lift_last h p q k)
  exact congrArg (fun f => Finset.fold min (FloatOps.ofBits φ acc) f (Finset.univ : Finset (Fin c))) hf

/-- A float `vector.multi_reduction <minimumf>` over the middle axis, at (p, k): the fold of `min` over the entries
    (p, q, k), q running, from the accumulator's value. -/
theorem multiReduction_minimumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.minimumf.neutral φ hφ) (p : Fin a) (k : Fin c) :
    multiReduction .minimumf [1] (⟨2, ![a, c]⟩ : Shape) src acc h hφ hacc (ix2 p k)
      = (Finset.univ : Finset (Fin b)).fold min (FloatOps.ofBits φ acc) (fun q => src (ix3 p q k)) := by
  refine (Ideal.multiReduction_minimumf_single src acc h hφ hacc (ix2 p k)).trans ?_
  have hf : (src ∘ h.lift (ix2 p k)) = fun q : Fin b => src (ix3 p q k) :=
    funext fun q => congrArg src (MidAxisRows.lift_mid h p k q)
  exact congrArg (fun f => Finset.fold min (FloatOps.ofBits φ acc) f (Finset.univ : Finset (Fin b))) hf

end Layout

/-- The squared distance of two points from its seven parts: the two squared norms and the three pairs of
    coordinates, the inner product summed as (x₀·y₀ + x₁·y₁) + x₂·y₂. -/
theorem d2_of_parts (x y : Fin 3 → EReal) (A B X0 Y0 X1 Y1 X2 Y2 : EReal)
    (hA : A = ∑ k : Fin 3, x k * x k) (hB : B = ∑ k : Fin 3, y k * y k)
    (hX0 : X0 = x 0) (hY0 : Y0 = y 0) (hX1 : X1 = x 1) (hY1 : Y1 = y 1) (hX2 : X2 = x 2) (hY2 : Y2 = y 2) :
    (A + B) - two * ((X0 * Y0 + X1 * Y1) + X2 * Y2) = d2 x y := by
  subst hA hB hX0 hY0 hX1 hY1 hX2 hY2
  unfold d2
  rw [Fin.sum_univ_three (fun k => x k * y k)]

end Cert.KernelIdeal.PayIdeal

end
-- ==== Proof.PayIdeal0.lean ====
/-
  Region 0 of the kernel read at an index, at the ideal values: for the 2048 points of the cloud `p` (rows) and a block
  of 256 points of the cloud `c` (columns), the column minima of the [4, 2048, 256] array of squared distances.
-/
import proofs.«161975_j33079838114187_2_alg».proof.Proof.Gen.KernelIdeal.Skeleton
import proofs.«161975_j33079838114187_2_alg».proof.Proof.PayLayout

noncomputable section

namespace Cert.KernelIdeal.PayIdeal

open Cert.KernelIdeal Cert.KernelIdeal.Gen Cert.Chamfer Idealize.ShloMosaic Idealize.ShloMosaic.ValueIdx

/-- The column minima of region 0, at (b, q): the least squared distance from point q of the column block to the 2048
    points of the row cloud. -/
theorem k0_pay1_apply (v0 : Vec Ideal S4x2048x3 .f32) (v1 : Vec Ideal S4x256x3 .f32) (b : Fin 4) (q : Fin 256) :
    k0_pay1 (F := Ideal) v0 v1 (ix2 b q)
      = minOver fun n : Fin 2048 => d2 (fun k => v0 (ix3 b n k)) (fun k => v1 (ix3 b q k)) := by
  unfold k0_pay1
  refine (multiReduction_minimumf_mid (a := 4) (b := 2048) (c := 256) _ _ _ _ _ b q).trans ?_
  refine congrArg (fun f => Finset.fold min top f (Finset.univ : Finset (Fin 2048))) (funext fun n => ?_)
  simp only [subf_apply, addf_apply, mulf_apply, broadcast_apply]
  refine d2_of_parts (fun k => v0 (ix3 b n k)) (fun k => v1 (ix3 b q k)) _ _ _ _ _ _ _ _ ?_ ?_ ?_ ?_ ?_ ?_ ?_ ?_
  · exact sqnorm_rows (c := 256) v0 _ _ _ _ _ _ b n q
  · exact sqnorm_cols (b := 2048) v1 _ _ _ _ _ _ b n q
  · exact coord_rows (c := 256) 0 (0 : Fin 3) rfl v0 _ _ _ _ b n q
  · exact coord_cols (b := 2048) 0 (0 : Fin 3) rfl v1 _ _ _ _ b n q
  · exact coord_rows (c := 256) 1 (1 : Fin 3) rfl v0 _ _ _ _ b n q
  · exact coord_cols (b := 2048) 1 (1 : Fin 3) rfl v1 _ _ _ _ b n q
  · exact coord_rows (c := 256) 2 (2 : Fin 3) rfl v0 _ _ _ _ b n q
  · exact coord_cols (b := 2048) 2 (2 : Fin 3) rfl v1 _ _ _ _ b n q

end Cert.KernelIdeal.PayIdeal

end
-- ==== Proof.PayIdeal1.lean ====
/-
  Region 1 of the kernel read at an index, at the ideal values: for a block of 512 points of the cloud `i` (rows) and a
  block of 512 points of the cloud `c` (columns), the [4, 512, 512] array of squared distances, its row minima and its
  column minima, and the three small values by which the running minima are kept.
-/
import proofs.«161975_j33079838114187_2_alg».proof.Proof.Gen.KernelIdeal.Skeleton
import proofs.«161975_j33079838114187_2_alg».proof.Proof.PayLayout

noncomputable section

namespace Cert.KernelIdeal.PayIdeal

open Cert.KernelIdeal Cert.KernelIdeal.Gen Cert.Chamfer Idealize.ShloMosaic Idealize.ShloMosaic.ValueIdx

/-- The array of squared distances of region 1, at (b, r, s): the squared distance of point r of the row block to
    point s of the column block, in batch b. -/
theorem k1_pay4_apply (v0 v1 : Vec Ideal S4x512x3 .f32) (b : Fin 4) (r s : Fin 512) :
    k1_pay4 (F := Ideal) v0 v1 (ix3 b r s) = d2 (fun k => v0 (ix3 b r k)) (fun k => v1 (ix3 b s k)) := by
  unfold k1_pay4
  simp only [subf_apply, addf_apply, mulf_apply, broadcast_apply]
  refine d2_of_parts (fun k => v0 (ix3 b r k)) (fun k => v1 (ix3 b s k)) _ _ _ _ _ _ _ _ ?_ ?_ ?_ ?_ ?_ ?_ ?_ ?_
  · exact sqnorm_rows (c := 512) v0 _ _ _ _ _ _ b r s
  · exact sqnorm_cols (b := 512) v1 _ _ _ _ _ _ b r s
  · exact coord_rows (c := 512) 0 (0 : Fin 3) rfl v0 _ _ _ _ b r s
  · exact coord_cols (b := 512) 0 (0 : Fin 3) rfl v1 _ _ _ _ b r s
  · exact coord_rows (c := 512) 1 (1 : Fin 3) rfl v0 _ _ _ _ b r s
  · exact coord_cols (b := 512) 1 (1 : Fin 3) rfl v1 _ _ _ _ b r s
  · exact coord_rows (c := 512) 2 (2 : Fin 3) rfl v0 _ _ _ _ b r s
  · exact coord_cols (b := 512) 2 (2 : Fin 3) rfl v1 _ _ _ _ b r s

/-- The row minima of region 1, at (b, r): the least squared distance from point r of the row block to the points of
    the column block. -/
theorem k1_pay5_apply (v0 v1 : Vec Ideal S4x512x3 .f32) (b : Fin 4) (r : Fin 512) :
    k1_pay5 (F := Ideal) v0 v1 (ix2 b r)
      = minOver fun s : Fin 512 => d2 (fun k => v0 (ix3 b r k)) (fun k => v1 (ix3 b s k)) := by
  unfold k1_pay5
  refine (multiReduction_minimumf_last (k1_pay4 (F := Ideal) v0 v1) _ _ _ _ b r).trans ?_
  exact congrArg (fun f => Finset.fold min top f (Finset.univ : Finset (Fin 512)))
    (funext fun s => k1_pay4_apply v0 v1 b r s)

/-- The column minima of region 1, at (b, s): the least squared distance from point s of the column block to the
    points of the row block. -/
theorem k1_pay6_apply (v0 v1 : Vec Ideal S4x512x3 .f32) (b : Fin 4) (s : Fin 512) :
    k1_pay6 (F := Ideal) v0 v1 (ix2 b s)
      = minOver fun r : Fin 512 => d2 (fun k => v0 (ix3 b r k)) (fun k => v1 (ix3 b s k)) := by
  unfold k1_pay6
  refine (multiReduction_minimumf_mid (k1_pay4 (F := Ideal) v0 v1) _ _ _ _ b s).trans ?_
  exact congrArg (fun f => Finset.fold min top f (Finset.univ : Finset (Fin 512)))
    (funext fun r => k1_pay4_apply v0 v1 b r s)

/-- The first value kept for the column block is the column minima themselves. -/
theorem k1_pay1_eq (v : FVec Ideal S4x512 .f32) : k1_pay1 (F := Ideal) v = v :=
  shapeCast_self v _

/-- A later value kept for the column block is the entrywise lesser of what was kept and the new column minima. -/
theorem k1_pay2_apply (v43 : FVec Ideal S4x512 .f32) (v62 : Vec Ideal S4x512 .f32) (j : S4x512.Idx) :
    k1_pay2 (F := Ideal) v43 v62 j = min (v62 j) (v43 j) :=
  congrFun (shapeCast_self (minimumf (F := Ideal) v62 v43) _) j

/-- The value kept for the row block is the entrywise lesser of what was kept and the new row minima. -/
theorem k1_pay3_apply (v44 : FVec Ideal S4x512 .f32) (v63 : Vec Ideal S4x512 .f32) (j : S4x512.Idx) :
    k1_pay3 (F := Ideal) v44 v63 j = min (v63 j) (v44 j) :=
  congrArg (fun w : FVec Ideal S4x512 .f32 => min (w j) (v44 j)) (shapeCast_self v63 _)

end Cert.KernelIdeal.PayIdeal

end
-- ==== Proof.BridgeMin.lean ====
/-
  Least values over a finite family of extended reals, and their tiling.

  `minOver f` is the fold of `min` from the value of the +infinity word. That value is the top element of the
  extended reals, so `minOver f` is the greatest lower bound of the family: `z ≤ minOver f` exactly when `z` is below
  every member (`le_minOver_iff`). A family over 8192 = 16 · 512 indices is below-bounded by `z` exactly when each of
  its sixteen tiles of 512 consecutive members is (`le_minOver_tiles`): index i is member i % 512 of tile i / 512.
  A running minimum built tile by tile is therefore the least value of the whole family, whatever the order and the
  nesting of the `min`s, because both are characterised by the same lower bounds.
-/
import proofs.«161975_j33079838114187_2_alg».proof.Proof.Spec
import Idealize.ShloMosaic.PureOps.Ideal.Laws

noncomputable section

namespace Cert.KernelIdeal.Bridge

open Cert.Chamfer Idealize.ShloMosaic

/-- The value of the +infinity word is the top of the extended reals. -/
theorem top_eq : top = (⊤ : EReal) := by
  show Ideal.ofBits .f32 0x7F800000#32 = ⊤
  simp [Ideal.ofBits, Ideal.ieee]

/-- `minOver f` is the greatest lower bound of the family `f`. -/
theorem le_minOver_iff {n : Nat} (f : Fin n → EReal) (z : EReal) : z ≤ minOver f ↔ ∀ i, z ≤ f i := by
  unfold minOver
  rw [Finset.le_fold_min, top_eq]
  constructor
  · intro h i; exact h.2 i (Finset.mem_univ i)
  · intro h; exact ⟨le_top, fun i _ => h i⟩

/-- Two points of a cloud with the same number are the same point. -/
theorem fin_eq_of_val {N : Nat} {i j : Fin N} (h : i.val = j.val) : i = j := Fin.ext h

/-- Member `s` of tile `mi` of a family over 8192 = 16 · 512 indices. -/
abbrev tileIdx (mi : Fin 16) (s : Fin 512) : Fin 8192 := ⟨512 * mi.val + s.val, by have := mi.isLt; have := s.isLt; omega⟩

/-- Every index is a member of a tile: index i is member i % 512 of tile i / 512. -/
theorem exists_tileIdx (i : Fin 8192) : ∃ (mi : Fin 16) (s : Fin 512), i = tileIdx mi s := by
  have hi := i.isLt
  refine ⟨⟨i.val / 512, by omega⟩, ⟨i.val % 512, Nat.mod_lt _ (by norm_num)⟩, Fin.ext ?_⟩
  show i.val = 512 * (i.val / 512) + i.val % 512
  omega

/-- A lower bound of a family over 8192 indices is a lower bound of each of its sixteen tiles of 512, and conversely. -/
theorem le_minOver_tiles (f : Fin 8192 → EReal) (z : EReal) :
    z ≤ minOver f ↔ ∀ (mi : Fin 16) (s : Fin 512), z ≤ f (tileIdx mi s) := by
  rw [le_minOver_iff]
  constructor
  · intro h mi s; exact h _
  · intro h i
    obtain ⟨mi, s, rfl⟩ := exists_tileIdx i
    exact h mi s

end Cert.KernelIdeal.Bridge

end
-- ==== Proof.BridgeBlocks.lean ====
/-
  Region 1's two input blocks read at an index, for any float instance.

  Region 1 runs over a 16 × 16 grid; point t = 16·ni + mi stages tile ni (512 points) of the first cloud and tile mi of
  the second. A block's coordinate in the array is always the block index times the block size plus the coordinate
  inside the block, so entry (b, r, k) of the first block is entry (b, 512·ni + r, k) of the first cloud and entry
  (b, s, k) of the second block is entry (b, 512·mi + s, k) of the second cloud, with ni = t / 16 and mi = t % 16. The
  printed index maps are decided once over the 256 points.
-/
import proofs.«161975_j33079838114187_2_alg».proof.Proof.KI.Data1
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Hand
open Idealize.ShloMosaic Idealize.ShloMosaic.TcCoe Idealize.SL.Sem
open Idealize.ShloMosaic.ValueIdx

variable {F : FTy → Type} [FloatOps F]

/-- A point of region 1's grid is below 256. -/
theorem point1_lt (t : Fin cfg1.N) : t.val < 256 := lt_of_lt_of_eq t.isLt N_1

/-- The printed index maps of the two input windows, decided over the grid: the first cloud's window moves along
    axis 1 with the tile row t / 16, the second cloud's with the tile column t % 16. -/
theorem index_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0 :=
  (by decide +kernel : ∀ t : Fin grid1.N, _)

variable (V : (c : Dev nD) → (b : Ref sig .tc) → Buf (Elt F) ((c : Thread nD τ).loc b))

/-- The first cloud's block at point `t` holds points 512·(t / 16) … 512·(t / 16) + 511 of the cloud. -/
theorem iblk1_0_apply (c : Dev nD) (t : Fin cfg1.N) (b : Fin 4) (r : Fin 512) (k : Fin 3) :
    (iblk1 V c 0 t : Vec F S4x512x3 .f32) (ix3 b r k)
      = (V c main_arg1 : S4x8192x3.Idx → Elt F .f32)
          (ix3 b (⟨512 * (t.val / 16) + r.val, by have := point1_lt t; have := r.isLt; omega⟩ : Fin 8192) k) := by
  obtain ⟨e0, e1, e2, -⟩ := index_facts1 t
  unfold iblk1
  rw [View.read_apply]
  show V c main_arg1 _ = V c main_arg1 _
  congr 1
  funext a
  apply Fin.ext
  match a with
  | ⟨0, _⟩ => show win1_0.index t (0 : Fin 3) * 4 + 1 * b.val = b.val; rw [e0]; omega
  | ⟨1, _⟩ => show win1_0.index t (1 : Fin 3) * 512 + 1 * r.val = 512 * (t.val / 16) + r.val; rw [e1]; omega
  | ⟨2, _⟩ => show win1_0.index t (2 : Fin 3) * 3 + 1 * k.val = k.val; rw [e2]; omega

/-- The second cloud's block at point `t` holds points 512·(t % 16) … 512·(t % 16) + 511 of the cloud. -/
theorem iblk1_1_apply (c : Dev nD) (t : Fin cfg1.N) (b : Fin 4) (s : Fin 512) (k : Fin 3) :
    (iblk1 V c 1 t : Vec F S4x512x3 .f32) (ix3 b s k)
      = (V c main_arg2 : S4x8192x3.Idx → Elt F .f32)
          (ix3 b (⟨512 * (t.val % 16) + s.val, by have := s.isLt; omega⟩ : Fin 8192) k) := by
  obtain ⟨-, -, -, e0, e1, e2⟩ := index_facts1 t
  unfold iblk1
  rw [View.read_apply]
  show V c main_arg2 _ = V c main_arg2 _
  congr 1
  funext a
  apply Fin.ext
  match a with
  | ⟨0, _⟩ => show win1_1.index t (0 : Fin 3) * 4 + 1 * b.val = b.val; rw [e0]; omega
  | ⟨1, _⟩ => show win1_1.index t (1 : Fin 3) * 512 + 1 * s.val = 512 * (t.val % 16) + s.val; rw [e1]; omega
  | ⟨2, _⟩ => show win1_1.index t (2 : Fin 3) * 3 + 1 * k.val = k.val; rw [e2]; omega

end Cert.KernelIdeal.Bridge

end
-- ==== Proof.Bridge.lean ====
/-
  The bridge at the ideal values: the three arrays the kernel leaves are the three distance arrays of the
  specification.

  Region 0 leaves, at (b, 256·t + q), the least squared distance from point 256·t + q of the third cloud to the 2048
  points of the first: one minimum reduction over all of them, so only the blocks have to be read where they sit.

  Region 1 works tile by tile. At point (ni, mi) of its 16 × 16 grid it has the 512 × 512 squared distances of tile ni
  of the second cloud against tile mi of the third, their row minima and their column minima. The row output at
  (b, 512·ni + r) is the running minimum of the row minima over mi = 0 … 15; the column output at (b, 512·mi + s) is the
  running minimum of the column minima over ni = 0 … 15. A number is below such a running minimum exactly when it is
  below every squared distance that went into it, and the sixteen tiles of 512 are all of the 8192 points; so each
  running minimum has the same lower bounds as the least value over all 8192 points, and is equal to it.
-/
import proofs.«161975_j33079838114187_2_alg».proof.Proof.KI.Final0
import proofs.«161975_j33079838114187_2_alg».proof.Proof.KI.Final1
import proofs.«161975_j33079838114187_2_alg».proof.Proof.PayIdeal0
import proofs.«161975_j33079838114187_2_alg».proof.Proof.PayIdeal1
import proofs.«161975_j33079838114187_2_alg».proof.Proof.BridgeMin
import proofs.«161975_j33079838114187_2_alg».proof.Proof.BridgeBlocks

set_option maxRecDepth 16384

noncomputable section

namespace Cert.KernelIdeal.Bridge

open Cert.KernelIdeal Cert.KernelIdeal.Gen Cert.KernelIdeal.Hand Cert.KernelIdeal.PayIdeal Cert.Chamfer
open Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## Region 0 -/

/-- Every point of the third cloud is member `q` of one of 32 blocks of 256. -/
theorem exists_blockIdx (m : Fin 8192) :
    ∃ (t : Fin 32) (q : Fin 256), m = (⟨256 * t.val + q.val, by have := t.isLt; have := q.isLt; omega⟩ : Fin 8192) := by
  have hm := m.isLt
  refine ⟨⟨m.val / 256, by omega⟩, ⟨m.val % 256, Nat.mod_lt _ (by norm_num)⟩, Fin.ext ?_⟩
  show m.val = 256 * (m.val / 256) + m.val % 256
  omega

/-- The array region 0 leaves is the least squared distance from each point of the third cloud to the first cloud. -/
theorem G0_eq (c : Dev nD) : G0 (F := Ideal) V c = arr2 (cpAt (V c main_arg0) (V c main_arg2)) := by
  funext j
  obtain ⟨b, m, rfl⟩ : ∃ (b : Fin 4) (m : Fin 8192), j = ix2 b m := ⟨j 0, j 1, eq_ix2 j⟩
  obtain ⟨t, q, rfl⟩ := exists_blockIdx m
  rw [arr2_ix2]
  refine (G0_apply V c b t q).trans ?_
  refine (k0_pay1_apply _ _ b q).trans ?_
  unfold cpAt
  refine congrArg (fun f : Fin 2048 → EReal => minOver f) (funext fun n => ?_)
  exact congrArg₂ d2 (funext fun k => iblk0_0_apply V c ⟨t.val, tile0_lt t⟩ b n k)
    (funext fun k => iblk0_1_apply V c ⟨t.val, tile0_lt t⟩ b q k)

/-! ## Region 1: the tile pair at a point -/

/-- The tile row of a grid point. -/
def rowOf (t : Fin cfg1.N) : Fin 16 := ⟨t.val / 16, by have := point1_lt t; omega⟩
/-- The tile column of a grid point. -/
def colOf (t : Fin cfg1.N) : Fin 16 := ⟨t.val % 16, Nat.mod_lt _ (by norm_num)⟩

theorem rowOf_pt1 (ni mi : ℕ) (hn : ni < 16) (hm : mi < 16) : rowOf (pt1 ni mi hn hm) = ⟨ni, hn⟩ :=
  Fin.ext (by show (16 * ni + mi) / 16 = ni; omega)
theorem colOf_pt1 (ni mi : ℕ) (hn : ni < 16) (hm : mi < 16) : colOf (pt1 ni mi hn hm) = ⟨mi, hm⟩ :=
  Fin.ext (by show (16 * ni + mi) % 16 = mi; omega)

/-- The squared distance of member `r` of tile `ni` of the second cloud to member `s` of tile `mi` of the third. -/
def dist (c : Dev nD) (b : Fin 4) (ni : Fin 16) (r : Fin 512) (mi : Fin 16) (s : Fin 512) : EReal :=
  d2 (pt (V c main_arg1) b (tileIdx ni r)) (pt (V c main_arg2) b (tileIdx mi s))

/-- The row minima at a point: for each member of the row tile, the least squared distance to the column tile. -/
theorem rowMin1_apply (c : Dev nD) (t : Fin cfg1.N) (b : Fin 4) (r : Fin 512) :
    rowMin1 (F := Ideal) V c t (ix2 b r) = minOver fun s : Fin 512 => dist V c b (rowOf t) r (colOf t) s := by
  unfold rowMin1
  refine (k1_pay5_apply _ _ b r).trans ?_
  refine congrArg (fun f : Fin 512 → EReal => minOver f) (funext fun s => ?_)
  exact congrArg₂ d2 (funext fun k => iblk1_0_apply V c t b r k) (funext fun k => iblk1_1_apply V c t b s k)

/-- The column minima at a point: for each member of the column tile, the least squared distance to the row tile. -/
theorem colMin1_apply (c : Dev nD) (t : Fin cfg1.N) (b : Fin 4) (s : Fin 512) :
    colMin1 (F := Ideal) V c t (ix2 b s) = minOver fun r : Fin 512 => dist V c b (rowOf t) r (colOf t) s := by
  unfold colMin1
  refine (k1_pay6_apply _ _ b s).trans ?_
  refine congrArg (fun f : Fin 512 → EReal => minOver f) (funext fun r => ?_)
  exact congrArg₂ d2 (funext fun k => iblk1_0_apply V c t b r k) (funext fun k => iblk1_1_apply V c t b s k)

/-! ## Region 1: the running minima -/

/-- The lower bounds of the accumulator after point `n`: those of the row minima of the points of `n`'s tile row up
    to `n`. -/
theorem le_acc1_iff (c : Dev nD) (b : Fin 4) (r : Fin 512) (z : EReal) : ∀ (n : ℕ) (hn : n < cfg1.N),
    z ≤ acc1 (F := Ideal) V c n hn (ix2 b r)
      ↔ ∀ (m : ℕ) (hm : m < cfg1.N), 16 * (n / 16) ≤ m → m ≤ n → z ≤ rowMin1 (F := Ideal) V c ⟨m, hm⟩ (ix2 b r) := by
  intro n
  induction n with
  | zero =>
    intro hn
    rw [acc1_seed V c ⟨0, hn⟩ rfl, k1_pay1_eq]
    constructor
    · intro h m hm h1 h2
      have e : m = 0 := by omega
      subst e; exact h
    · intro h; exact h 0 hn (by omega) (le_refl _)
  | succ n ih =>
    intro hn
    by_cases h16 : (n + 1) % 16 = 0
    · rw [acc1_seed V c ⟨n + 1, hn⟩ h16, k1_pay1_eq]
      constructor
      · intro h m hm h1 h2
        have e : m = n + 1 := by omega
        subst e; exact h
      · intro h; exact h (n + 1) hn (by omega) (le_refl _)
    · rw [acc1_step V c ⟨n + 1, hn⟩ h16, k1_pay2_apply, le_min_iff]
      show z ≤ acc1 (F := Ideal) V c n _ (ix2 b r) ∧ _ ↔ _
      rw [ih]
      constructor
      · rintro ⟨h1, h2⟩ m hm hlo hhi
        by_cases e : m = n + 1
        · subst e; exact h2
        · exact h1 m hm (by omega) (by omega)
      · intro h
        exact ⟨fun m hm hlo hhi => h m hm (by omega) (by omega), h (n + 1) hn (by omega) (le_refl _)⟩

/-- The lower bounds of slice `mi` of the column buffer after tile rows 0 … ni: those of the column minima of the points
    (0, mi) … (ni, mi). -/
theorem le_colAcc1_iff (c : Dev nD) (mi : ℕ) (hm : mi < 16) (b : Fin 4) (s : Fin 512) (z : EReal) :
    ∀ (ni : ℕ) (hn : ni < 16),
    z ≤ colAcc1 (F := Ideal) V c mi hm ni hn (ix2 b s)
      ↔ ∀ (n' : ℕ) (h' : n' < 16), n' ≤ ni → z ≤ colMin1 (F := Ideal) V c (pt1 n' mi h' hm) (ix2 b s) := by
  intro ni
  induction ni with
  | zero =>
    intro hn
    show z ≤ colMin1 (F := Ideal) V c (pt1 0 mi hn hm) (ix2 b s) ↔ _
    constructor
    · intro h n' h' hle
      have e : n' = 0 := by omega
      subst e; exact h
    · intro h; exact h 0 hn (le_refl _)
  | succ ni ih =>
    intro hn
    show z ≤ k1_pay3 (F := Ideal) (colMin1 V c (pt1 (ni + 1) mi hn hm)) (colAcc1 V c mi hm ni (Nat.lt_of_succ_lt hn)) (ix2 b s) ↔ _
    rw [k1_pay3_apply, le_min_iff, ih]
    constructor
    · rintro ⟨h1, h2⟩ n' h' hle
      by_cases e : n' = ni + 1
      · subst e; exact h2
      · exact h1 n' h' (by omega)
    · intro h
      exact ⟨fun n' h' hle => h n' h' (by omega), h (ni + 1) hn (le_refl _)⟩

/-- The lower bounds of the row output at member `r` of tile `ni`: those of its squared distances to all members of all
    tiles of the third cloud. -/
theorem le_G1_2_iff (c : Dev nD) (b : Fin 4) (ni : Fin 16) (r : Fin 512) (z : EReal) :
    z ≤ G1_2 (F := Ideal) V c (ix2 b (tileIdx ni r)) ↔ ∀ (mi : Fin 16) (s : Fin 512), z ≤ dist V c b ni r mi s := by
  have hni := ni.isLt
  have hN : cfg1.N = 256 := N_1
  rw [show G1_2 (F := Ideal) V c (ix2 b (tileIdx ni r)) = _ from G1_2_apply V c b ni r, le_acc1_iff]
  constructor
  · intro h mi s
    have hmi := mi.isLt
    have hm : 16 * ni.val + mi.val < cfg1.N := by omega
    have h1 := h (16 * ni.val + mi.val) hm (by omega) (by omega)
    rw [rowMin1_apply, le_minOver_iff] at h1
    have h2 := h1 s
    rwa [show rowOf ⟨16 * ni.val + mi.val, hm⟩ = ni from Fin.ext (by show (16 * ni.val + mi.val) / 16 = ni.val; omega),
      show colOf ⟨16 * ni.val + mi.val, hm⟩ = mi from Fin.ext (by show (16 * ni.val + mi.val) % 16 = mi.val; omega)] at h2
  · intro h m hm hlo hhi
    rw [rowMin1_apply, le_minOver_iff]
    intro s
    rw [show rowOf ⟨m, hm⟩ = ni from Fin.ext (by show m / 16 = ni.val; omega)]
    exact h (colOf ⟨m, hm⟩) s

/-- The lower bounds of the column output at member `s` of tile `mi`: those of the squared distances to it from all
    members of all tiles of the second cloud. -/
theorem le_G1_3_iff (c : Dev nD) (b : Fin 4) (mi : Fin 16) (s : Fin 512) (z : EReal) :
    z ≤ G1_3 (F := Ideal) V c (ix2 b (tileIdx mi s)) ↔ ∀ (ni : Fin 16) (r : Fin 512), z ≤ dist V c b ni r mi s := by
  rw [show G1_3 (F := Ideal) V c (ix2 b (tileIdx mi s)) = _ from G1_3_apply V c b mi s, le_colAcc1_iff]
  constructor
  · intro h ni r
    have h1 := h ni.val ni.isLt (by have := ni.isLt; omega)
    rw [colMin1_apply, le_minOver_iff, rowOf_pt1, colOf_pt1] at h1
    exact h1 r
  · intro h n' h' hle
    rw [colMin1_apply, le_minOver_iff, rowOf_pt1, colOf_pt1]
    intro r
    exact h ⟨n', h'⟩ r

/-! ## Region 1: the two arrays -/

/-- The row output of region 1 is the least squared distance from each point of the second cloud to the third cloud. -/
theorem G1_2_eq (c : Dev nD) : G1_2 (F := Ideal) V c = arr2 (icAt (V c main_arg1) (V c main_arg2)) := by
  funext j
  obtain ⟨b, n, rfl⟩ : ∃ (b : Fin 4) (n : Fin 8192), j = ix2 b n := ⟨j 0, j 1, eq_ix2 j⟩
  obtain ⟨ni, r, rfl⟩ := exists_tileIdx n
  rw [arr2_ix2]
  refine eq_of_forall_le_iff fun z => ?_
  rw [le_G1_2_iff]
  unfold icAt
  rw [le_minOver_tiles]
  exact Iff.rfl

/-- The column output of region 1 is the least squared distance from each point of the third cloud to the second
    cloud. -/
theorem G1_3_eq (c : Dev nD) : G1_3 (F := Ideal) V c = arr2 (ciAt (V c main_arg1) (V c main_arg2)) := by
  funext j
  obtain ⟨b, m, rfl⟩ : ∃ (b : Fin 4) (m : Fin 8192), j = ix2 b m := ⟨j 0, j 1, eq_ix2 j⟩
  obtain ⟨mi, s, rfl⟩ := exists_tileIdx m
  rw [arr2_ix2]
  refine eq_of_forall_le_iff fun z => ?_
  rw [le_G1_3_iff]
  unfold ciAt
  rw [le_minOver_tiles]
  exact Iff.rfl

end Cert.KernelIdeal.Bridge

end
-- ==== Proof.RefArrays.lean ====
/-
  The reference's three distance arrays are the three least-squared-distance arrays of the specification.

  The reference forms, for two point clouds x : [4, N, 3] and y : [4, M, 3], the array of squared distances
  D[b, n, m] = (0 + Σ_k x[b,n,k]²) + (0 + Σ_k y[b,m,k]²) − 2 · Σ_k x[b,n,k] · y[b,m,k]
  (the two row sums put beside every entry by broadcasts, the cross term a batched contraction over the three
  coordinates), and takes least values of it along one axis, starting from the value of the +infinity word:
    * along n of the [4, 2048, 8192] array of (partial, complete): the distance from each complete point to the partial cloud;
    * along m of the [4, 8192, 8192] array of (infer, complete): the distance from each inferred point to the complete cloud;
    * along n of the same array: the distance from each complete point to the inferred cloud.
  Read at an index, D[b, n, m] is the specification's `d2` of the two points (the zero word is the real 0, so
  0 + s = s; the word of 2.0 stays a word), and a least value along an axis is the fold of `min` over that axis's
  coordinates, which is the specification's `minOver`.
-/
import proofs.«161975_j33079838114187_2_alg».proof.Proof.Gen.ReferenceIdeal.Read
import proofs.«161975_j33079838114187_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.Chamfer

/-! ## The squared-distance arrays at an index -/

/-- The value of the zero word is the real 0: it vanishes in front of a sum. -/
theorem zero_word_add (x : EReal) : (FloatOps.ofBits (F := Ideal) .f32 0x00000000#32 : Ideal .f32) + x = x := by
  show Ideal.ofBits .f32 0x00000000#32 + x = x
  rw [Ideal.ofBits_zero_f32, zero_add]

/-- The [4, 2048, 8192] array of (partial, complete) at (b, n, m) is the squared distance of partial's point n and
    complete's point m in batch b. -/
theorem v12_at (p : FVec Ideal S4x2048x3 .f32) (c : FVec Ideal S4x8192x3 .f32) (b : Fin 4) (n : Fin 2048) (m : Fin 8192) :
    val_main_v12 (F := Ideal) p c (ix3 b n m) = d2 (pt p b n) (pt c b m) := by
  rw [val_main_v12_apply, val_main_v9_apply, val_main_v7_apply, val_main_v5_apply, val_main_v1_apply, val_main_v8_apply,
    val_main_v6_apply, val_main_v3_apply, val_main_v11_apply, val_main_v10_apply, val_main_v4_apply]
  have e1 : ∀ k : Fin 3, idx_main_v1 (idx_main_v5 (idx_main_v7 (ix3 b n m))) k = ix3 b n k := fun k =>
    funext fun a => by match a with | ⟨0, _⟩ => rfl | ⟨1, _⟩ => rfl | ⟨2, _⟩ => rfl
  have e2 : ∀ k : Fin 3, idx_main_v3 (idx_main_v6 (idx_main_v8 (ix3 b n m))) k = ix3 b m k := fun k =>
    funext fun a => by match a with | ⟨0, _⟩ => rfl | ⟨1, _⟩ => rfl | ⟨2, _⟩ => rfl
  have e3 : ∀ k : Fin 3, lidx_main_v4 (ix3 b n m) k = ix3 b n k := fun k =>
    funext fun a => by match a with | ⟨0, _⟩ => rfl | ⟨1, _⟩ => rfl | ⟨2, _⟩ => rfl
  have e4 : ∀ k : Fin 3, ridx_main_v4 (ix3 b n m) k = ix3 b m k := fun k =>
    funext fun a => by match a with | ⟨0, _⟩ => rfl | ⟨1, _⟩ => rfl | ⟨2, _⟩ => rfl
  simp only [e1, e2, e3, e4, val_main_v0_apply, val_main_v2_apply, val_main_cst_apply, val_main_cst_0_apply,
    val_main_cst_1_apply, zero_word_add]
  rfl

/-- The [4, 8192, 8192] array of (infer, complete) at (b, n, m) is the squared distance of infer's point n and
    complete's point m in batch b. -/
theorem v27_at (i c : FVec Ideal S4x8192x3 .f32) (b : Fin 4) (n m : Fin 8192) :
    val_main_v27 (F := Ideal) i c (ix3 b n m) = d2 (pt i b n) (pt c b m) := by
  rw [val_main_v27_apply, val_main_v24_apply, val_main_v22_apply, val_main_v20_apply, val_main_v16_apply,
    val_main_v23_apply, val_main_v21_apply, val_main_v18_apply, val_main_v26_apply, val_main_v25_apply,
    val_main_v19_apply]
  have e1 : ∀ k : Fin 3, idx_main_v16 (idx_main_v20 (idx_main_v22 (ix3 b n m))) k = ix3 b n k := fun k =>
    funext fun a => by match a with | ⟨0, _⟩ => rfl | ⟨1, _⟩ => rfl | ⟨2, _⟩ => rfl
  have e2 : ∀ k : Fin 3, idx_main_v18 (idx_main_v21 (idx_main_v23 (ix3 b n m))) k = ix3 b m k := fun k =>
    funext fun a => by match a with | ⟨0, _⟩ => rfl | ⟨1, _⟩ => rfl | ⟨2, _⟩ => rfl
  have e3 : ∀ k : Fin 3, lidx_main_v19 (ix3 b n m) k = ix3 b n k := fun k =>
    funext fun a => by match a with | ⟨0, _⟩ => rfl | ⟨1, _⟩ => rfl | ⟨2, _⟩ => rfl
  have e4 : ∀ k : Fin 3, ridx_main_v19 (ix3 b n m) k = ix3 b m k := fun k =>
    funext fun a => by match a with | ⟨0, _⟩ => rfl | ⟨1, _⟩ => rfl | ⟨2, _⟩ => rfl
  simp only [e1, e2, e3, e4, val_main_v15_apply, val_main_v17_apply, val_main_cst_4_apply, val_main_cst_5_apply,
    val_main_cst_6_apply, zero_word_add]
  rfl

/-! ## A reduced index with the dropped coordinate put back -/

/-- In the [4, 2048, 8192] array, (b, m) with n put back on the middle axis is (b, n, m). -/
theorem lift_mid_cp (h : S4x2048x8192.Reduces [1] S4x8192) (b : Fin 4) (m : Fin 8192) (n : Fin (S4x2048x8192.size 1)) :
    h.lift (ix2 b m) n = ix3 b (⟨n.val, n.isLt⟩ : Fin 2048) m := by
  funext d; apply Fin.ext
  fin_cases d <;> rfl

/-- In the [4, 8192, 8192] array, (b, m) with n put back on the middle axis is (b, n, m). -/
theorem lift_mid_ic (h : S4x8192x8192.Reduces [1] S4x8192) (b : Fin 4) (m : Fin 8192) (n : Fin (S4x8192x8192.size 1)) :
    h.lift (ix2 b m) n = ix3 b (⟨n.val, n.isLt⟩ : Fin 8192) m := by
  funext d; apply Fin.ext
  fin_cases d <;> rfl

/-- In the [4, 8192, 8192] array, (b, n) with m put back on the last axis is (b, n, m). -/
theorem lift_last_ic (h : S4x8192x8192.Reduces [2] S4x8192) (b : Fin 4) (n : Fin 8192) (m : Fin (S4x8192x8192.size 2)) :
    h.lift (ix2 b n) m = ix3 b n (⟨m.val, m.isLt⟩ : Fin 8192) := by
  funext d; apply Fin.ext
  fin_cases d <;> rfl

/-! ## The three arrays -/

/-- The least value along the partial cloud's axis: the distance from each complete point to the partial cloud. -/
theorem v14_eq (p : FVec Ideal S4x2048x3 .f32) (c : FVec Ideal S4x8192x3 .f32) :
    val_main_v14 (F := Ideal) p c = arr2 (cpAt p c) := by
  funext j
  obtain ⟨b, m, rfl⟩ : ∃ (b : Fin 4) (m : Fin 8192), j = ix2 b m := ⟨j 0, j 1, eq_ix2 j⟩
  rw [arr2_ix2]
  unfold val_main_v14
  have h : S4x2048x8192.Reduces [1] S4x8192 := by decide
  rw [Host.reduce_eq_fold_single FloatOps.minimumf _ _ reducesTo_S4x2048x8192_S4x8192_d1 h h_S_]
  have hf : (val_main_v12 (F := Ideal) p c ∘ h.lift (ix2 b m)) = fun n : Fin 2048 => d2 (pt p b n) (pt c b m) :=
    funext fun n => (congrArg (val_main_v12 (F := Ideal) p c) (lift_mid_cp h b m n)).trans (v12_at p c b _ m)
  exact congrArg (fun f => Finset.fold min top f (Finset.univ : Finset (Fin 2048))) hf

/-- The least value along the complete cloud's axis: the distance from each inferred point to the complete cloud. -/
theorem v28_eq (i c : FVec Ideal S4x8192x3 .f32) :
    val_main_v28 (F := Ideal) i c = arr2 (icAt i c) := by
  funext j
  obtain ⟨b, n, rfl⟩ : ∃ (b : Fin 4) (n : Fin 8192), j = ix2 b n := ⟨j 0, j 1, eq_ix2 j⟩
  rw [arr2_ix2]
  unfold val_main_v28
  have h : S4x8192x8192.Reduces [2] S4x8192 := by decide
  rw [Host.reduce_eq_fold_single FloatOps.minimumf _ _ reducesTo_S4x8192x8192_S4x8192_d2 h h_S_]
  have hf : (val_main_v27 (F := Ideal) i c ∘ h.lift (ix2 b n)) = fun m : Fin 8192 => d2 (pt i b n) (pt c b m) :=
    funext fun m => (congrArg (val_main_v27 (F := Ideal) i c) (lift_last_ic h b n m)).trans (v27_at i c b n _)
  exact congrArg (fun f => Finset.fold min top f (Finset.univ : Finset (Fin 8192))) hf

/-- The least value along the inferred cloud's axis: the distance from each complete point to the inferred cloud. -/
theorem v29_eq (i c : FVec Ideal S4x8192x3 .f32) :
    val_main_v29 (F := Ideal) i c = arr2 (ciAt i c) := by
  funext j
  obtain ⟨b, m, rfl⟩ : ∃ (b : Fin 4) (m : Fin 8192), j = ix2 b m := ⟨j 0, j 1, eq_ix2 j⟩
  rw [arr2_ix2]
  unfold val_main_v29
  have h : S4x8192x8192.Reduces [1] S4x8192 := by decide
  rw [Host.reduce_eq_fold_single FloatOps.minimumf _ _ reducesTo_S4x8192x8192_S4x8192_d1 h h_S_]
  have hf : (val_main_v27 (F := Ideal) i c ∘ h.lift (ix2 b m)) = fun n : Fin 8192 => d2 (pt i b n) (pt c b m) :=
    funext fun n => (congrArg (val_main_v27 (F := Ideal) i c) (lift_mid_ic h b m n)).trans (v27_at i c b _ m)
  exact congrArg (fun f => Finset.fold min top f (Finset.univ : Finset (Fin 8192))) hf

end Cert.ReferenceIdeal.RefValue

end
-- ==== Proof.RefSide.lean ====
/-
  The reference's result as ONE function of the three least-squared-distance arrays, and its run restated over it.

  After the three arrays cp, ic, ci : [4, 8192] (the distance from each complete point to the partial cloud, from each
  inferred point to the complete cloud, from each complete point to the inferred cloud) the reference computes
      Σ ic / 32768  +  Σ (cp · ci / max cp) / 32768 ,
  the greatest entry of cp taken from the value of the −infinity word and put beside every entry by a broadcast, each
  sum taken from the zero word, 32768 the value of its word. `tail` is that function, spelled operation by operation
  as the program spells it and never opened here: the reference's result is `tail` of its three arrays by unfolding the
  stages, and the three arrays are the specification's (the arrays module), so the result is `tail` of the
  specification's arrays — the form both sides of the comparison are brought to.
-/
import proofs.«161975_j33079838114187_2_alg».proof.Proof.RefArrays

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Chamfer

/-- The loss from the three distance arrays: the mean of ic plus the mean of cp · ci / max cp, as the reference's
    last fourteen operations spell it. -/
def tail (cp ic ci : FVec Ideal S4x8192 .f32) : FVec Ideal S_ .f32 :=
  addf
    (Host.divf (F := Ideal)
      (Host.reduceAdd (F := Ideal) ic (constant (F := Ideal) S_ .f32 0x00000000#32) reducesTo_S4x8192_S_d0_1 h_S_)
      (constant (F := Ideal) S_ .f32 0x47000000#32))
    (Host.divf (F := Ideal)
      (Host.reduceAdd (F := Ideal)
        (Host.divf (F := Ideal) (mulf cp ci)
          (broadcastInDim S4x8192 ![] bcast_S_S4x8192
            (Host.reduce FloatOps.maximumf cp (constant (F := Ideal) S_ .f32 0xFF800000#32) reducesTo_S4x8192_S_d0_1 h_S_)))
        (constant (F := Ideal) S_ .f32 0x00000000#32) reducesTo_S4x8192_S_d0_1 h_S_)
      (constant (F := Ideal) S_ .f32 0x47000000#32))

/-- The reference's last stage is `tail` of its three distance-array stages (the stages unfolded, nothing computed). -/
theorem stage_tail (p : FVec Ideal S4x2048x3 .f32) (i c : FVec Ideal S4x8192x3 .f32) :
    val_main_v38 (F := Ideal) p i c
      = tail (val_main_v14 (F := Ideal) p c) (val_main_v28 (F := Ideal) i c) (val_main_v29 (F := Ideal) i c) := by
  unfold val_main_v38 val_main_v35 val_main_v37 val_main_v34 val_main_v36 val_main_v33 val_main_v31 val_main_v32
    val_main_v30 val_main_cst_9 val_main_cst_10 val_main_cst_11 val_main_cst_12 val_main_cst_13 tail
  rfl

/-- The reference's last stage is `tail` of the specification's three arrays. -/
theorem stage_eq (p : FVec Ideal S4x2048x3 .f32) (i c : FVec Ideal S4x8192x3 .f32) :
    val_main_v38 (F := Ideal) p i c = tail (arr2 (cpAt p c)) (arr2 (icAt i c)) (arr2 (ciAt i c)) := by
  rw [stage_tail, v14_eq, v28_eq, v29_eq]

/-- The run's result term, at the memory's three argument arrays, is `tail` of the specification's three arrays. -/
theorem result_eq (m : (ℓ : Loc nD τ sig) → Buf (Elt Ideal) ℓ) (c : Dev nD) :
    Cert.ReferenceIdeal.Value.res_main_v38 (F := Ideal) m c
      = tail (arr2 (cpAt (m ((c.tc : Thread nD τ).loc main_arg0)) (m ((c.tc : Thread nD τ).loc main_arg2))))
          (arr2 (icAt (m ((c.tc : Thread nD τ).loc main_arg1)) (m ((c.tc : Thread nD τ).loc main_arg2))))
          (arr2 (ciAt (m ((c.tc : Thread nD τ).loc main_arg1)) (m ((c.tc : Thread nD τ).loc main_arg2)))) :=
  (val_main_v38_eq (F := Ideal) m c).trans (stage_eq _ _ _)

/-- The reference's run with its result at `tail` of the specification's three arrays of the launch arguments: every
    weakly fair execution terminates there, the arguments unchanged. -/
theorem run_ri (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = tail (arr2 (cpAt (m ((c.tc : Thread nD τ).loc main_arg0)) (m ((c.tc : Thread nD τ).loc main_arg2))))
            (arr2 (icAt (m ((c.tc : Thread nD τ).loc main_arg1)) (m ((c.tc : Thread nD τ).loc main_arg2))))
            (arr2 (ciAt (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (result_eq m c), (h c).2⟩)
    (Cert.ReferenceIdeal.Value.run (F := Ideal) m ρ)

end Cert.ReferenceIdeal.RefValue

end
-- ==== Proof.TailEq.lean ====
/-
  The two programs end with the same function of the three distance arrays.

  Both programs finish with the same fourteen host operations — the mean of ic plus the mean of cp · ci / max cp, over
  the same words — applied to their three [4, 8192] arrays; each is spelled over its own program's shape facts, which
  are proofs of the same propositions. At the ideal values the two spellings are one function.
-/
import proofs.«161975_j33079838114187_2_alg».proof.Proof.KI.Tail
import proofs.«161975_j33079838114187_2_alg».proof.Proof.RefSide

noncomputable section

namespace Cert.Chamfer

open Idealize.ShloMosaic

/-- The kernel program's host tail and the reference's are the same function of the three arrays. -/
theorem tailK_eq_tail (cp ic ci : FVec Ideal Cert.KernelIdeal.S4x8192 .f32) :
    Cert.KernelIdeal.Hand.tailK (F := Ideal) cp ic ci = Cert.ReferenceIdeal.RefValue.tail cp ic ci := rfl

end Cert.Chamfer

end
-- ==== Proof.RefFrame.lean ====
/-
  The reference's frame: it runs, terminates without a fault, and leaves its three argument arrays unchanged.

  This is the reference's run (every weakly fair execution terminates with the result at the operations' composed term
  and the arguments unchanged) with the clause about the result dropped.
-/
import proofs.«161975_j33079838114187_2_alg».proof.Defs
import proofs.«161975_j33079838114187_2_alg».proof.Proof.Gen.Pre_finite_inputs
import proofs.«161975_j33079838114187_2_alg».proof.Proof.Gen.ReferenceIdeal.Run

noncomputable section

namespace Cert.ReferenceIdeal.RefValue

open Idealize.ShloMosaic Idealize.ShloMosaic.TcCoe Idealize.SL.Sem

/-- The reference runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the weighted chamfer loss: the tiled kernel against its plain reference.

  The loss is mean(dist_ic) + mean(dist_cp · dist_ci / max(dist_cp)) of three arrays of least squared distances between
  point clouds (Proof/Spec.lean: `cpAt`, `icAt`, `ciAt`). The reference computes each array as one minimum reduction
  of a full distance array. The kernel computes dist_cp tile by tile (each 256-column tile a minimum over all the
  points of the other cloud), and dist_ic and dist_ci together over a 16 × 16 grid of 512 × 512 tiles, the row minima
  accumulated along a tile row in a scratch buffer and the column minima accumulated slice by slice into a resident
  output block. A minimum over 8192 points is the minimum over 16 tiles of the tiles' minima, whatever the order, so
  on the extended reals the three arrays are the reference's (Proof/Bridge.lean); the scalar that follows is the same
  chain of host operations on both sides (`tailK`, `RefValue.tail`), applied to equal arrays.
  The frames: both kernel regions run to completion at every grid point in each of their control cases, for any
  float instance (Proof/KI at the ideal instance, Proof/K at the word-level one), and no region or host operation
  writes an argument array; the reference's frame is its run with the result dropped. The idealization rewrote
  nothing, so `preserves` states nothing.
-/
import proofs.«161975_j33079838114187_2_alg».proof.Defs
import proofs.«161975_j33079838114187_2_alg».proof.Proof.Gen.Kernel
import proofs.«161975_j33079838114187_2_alg».proof.Proof.Gen.KernelIdeal
import proofs.«161975_j33079838114187_2_alg».proof.Proof.Gen.ReferenceIdeal
import proofs.«161975_j33079838114187_2_alg».proof.Proof.Gen.Pre_finite_inputs
import proofs.«161975_j33079838114187_2_alg».proof.Proof.K.Run
import proofs.«161975_j33079838114187_2_alg».proof.Proof.KI.Run
import proofs.«161975_j33079838114187_2_alg».proof.Proof.Bridge
import proofs.«161975_j33079838114187_2_alg».proof.Proof.TailEq
import proofs.«161975_j33079838114187_2_alg».proof.Proof.RefSide
import proofs.«161975_j33079838114187_2_alg».proof.Proof.RefFrame
import Idealize.ShloMosaic.Adequacy
import Idealize.ShloMosaic.Init

noncomputable section

namespace Cert.Proof

open Idealize.ShloMosaic Idealize.SL.Sem Cert.Chamfer

/-- The word-level kernel runs and leaves its arguments unchanged: its run with the result dropped. -/
theorem frame_k : Cert.frame_Kernel := fun m ρ _ =>
  (θ_run Cert.Kernel.defs _ _).mono (fun _ h c => (h c).2) (Cert.Kernel.Hand.run_main (F := Bits) m ρ)

/-- The same at the ideal instance. -/
theorem frame_ki : Cert.frame_KernelIdeal := fun m ρ _ =>
  (θ_run Cert.KernelIdeal.defs _ _).mono (fun _ h c => (h c).2) (Cert.KernelIdeal.Hand.run_main (F := Ideal) m ρ)

/-- At the ideal instance both programs end at the same scalar: the kernel's three arrays are the specification's
    (the bridge), the reference's are too (its stages read at an index), and the host operations after them are one
    function. -/
theorem algebraic : Cert.algebraic_KernelIdeal_ReferenceIdeal := by
  intro m ρ m' ρ' _ hagree
  refine ⟨fun c => Cert.KernelIdeal.Hand.tailK (F := Ideal)
      (Cert.KernelIdeal.Hand.G0 (Cert.KernelIdeal.Hand.VA m) c)
      (Cert.KernelIdeal.Hand.G1_2 (Cert.KernelIdeal.Hand.VB m) c)
      (Cert.KernelIdeal.Hand.G1_3 (Cert.KernelIdeal.Hand.VB m) c), Cert.KernelIdeal.Hand.run_main (F := Ideal) m ρ, ?_⟩
  refine (θ_run Cert.ReferenceIdeal.defs _ _).mono (fun _ h c => ⟨(h c).1.trans ?_, (h c).2⟩)
    (Cert.ReferenceIdeal.RefValue.run_ri m' ρ')
  show _ = Cert.KernelIdeal.Hand.tailK (F := Ideal)
      (Cert.KernelIdeal.Hand.G0 (Cert.KernelIdeal.Hand.VA m) c)
      (Cert.KernelIdeal.Hand.G1_2 (Cert.KernelIdeal.Hand.VB m) c)
      (Cert.KernelIdeal.Hand.G1_3 (Cert.KernelIdeal.Hand.VB m) c)
  rw [(hagree c).1, (hagree c).2.1, (hagree c).2.2, Cert.KernelIdeal.Bridge.G0_eq (Cert.KernelIdeal.Hand.VA m) c,
    Cert.KernelIdeal.Bridge.G1_2_eq (Cert.KernelIdeal.Hand.VB m) c, Cert.KernelIdeal.Bridge.G1_3_eq (Cert.KernelIdeal.Hand.VB m) c,
    Cert.KernelIdeal.Hand.VB_main_arg1, Cert.KernelIdeal.Hand.VB_main_arg2]
  exact (Cert.Chamfer.tailK_eq_tail _ _ _).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
